-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x128 : Shape := ⟨3, ![4, 4096, 128]⟩
abbrev S128x128 : Shape := ⟨2, ![128, 128]⟩
abbrev S256x1 : Shape := ⟨2, ![256, 1]⟩
abbrev S_ : Shape := ⟨0, ![]⟩

class Facts : Prop where
  bcast_S_S4x4096x128 : S_.BroadcastsInDim S4x4096x128 (![] : Fin 0 → Fin S4x4096x128.rank)
  reducesTo_S4x4096x128_S_d0_1_2 : S4x4096x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S256x1 : S_.BroadcastsInDim S256x1 (![] : Fin 0 → Fin S256x1.rank)
  reducesTo_S256x1_S_d0_1 : S256x1.ReducesTo [0, 1] S_

variable [Facts]

def fn {F : FTy → Type} [FloatOps F] (main_arg0 : FVec F S4x4096x128 .f32) (main_arg1 : FVec F S128x128 .f32) (main_arg2 : FVec F S256x1 .f32) : IVec S_ 1 :=
  let main_v0 : FVec F S4x4096x128 .f32 := Host.absf main_arg0
  let main_cst : FVec F S_ .f32 := constant S_ .f32 0x7F800000#32
  let main_v1 : FVec F S4x4096x128 .f32 := broadcastInDim S4x4096x128 ![] bcast_S_S4x4096x128 main_cst
  let main_v2 : IVec S4x4096x128 1 := cmpf .olt main_v0 main_v1
  let main_c : IVec S_ 1 := constantI S_ 1 1#1
  let main_v3 : IVec S_ 1 := (fun x v => Host.reduce IntOp.andi x v reducesTo_S4x4096x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S256x1 .f32 := Host.absf main_arg2
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  main_v13
-- ==== Kernel.lean ====
abbrev S4x4096x128 : Shape := ⟨3, ![4, 4096, 128]⟩
abbrev S128x128 : Shape := ⟨2, ![128, 128]⟩
abbrev S256x1 : Shape := ⟨2, ![256, 1]⟩
abbrev S128x1 : Shape := ⟨2, ![128, 1]⟩
abbrev S1x128 : Shape := ⟨2, ![1, 128]⟩
abbrev S4x4096x1 : Shape := ⟨3, ![4, 4096, 1]⟩
abbrev S4x1024x128 : Shape := ⟨3, ![4, 1024, 128]⟩
abbrev S4x1024x1 : Shape := ⟨3, ![4, 1024, 1]⟩
abbrev S4096x128 : Shape := ⟨2, ![4096, 128]⟩
abbrev S1x1x128 : Shape := ⟨3, ![1, 1, 128]⟩
abbrev S4x1024 : Shape := ⟨2, ![4, 1024]⟩
abbrev S4x1x4096 : Shape := ⟨3, ![4, 1, 4096]⟩
abbrev S_ : Shape := ⟨0, ![]⟩
abbrev S4x1 : Shape := ⟨2, ![4, 1]⟩
abbrev S4x1x1 : Shape := ⟨3, ![4, 1, 1]⟩
abbrev S4x512x1 : Shape := ⟨3, ![4, 512, 1]⟩
abbrev S4x1x512 : Shape := ⟨3, ![4, 1, 512]⟩
abbrev S4x512x128 : Shape := ⟨3, ![4, 512, 128]⟩
abbrev S4x512x512 : Shape := ⟨3, ![4, 512, 512]⟩
abbrev S4x512 : Shape := ⟨2, ![4, 512]⟩

abbrev nBuf : Space → Nat
  | .hbm => 15
  | .vmem => 21
  | .smem => 0
  | _ => 0

abbrev bufTy : (tb : Table) → Fin (tcTables nBuf tb) → BufTy
  | .hbm, ⟨0, _⟩ => ⟨S4x4096x128, .f32⟩
  | .hbm, ⟨1, _⟩ => ⟨S128x128, .f32⟩
  | .hbm, ⟨2, _⟩ => ⟨S256x1, .f32⟩
  | .hbm, ⟨3, _⟩ => ⟨S128x1, .f32⟩
  | .hbm, ⟨4, _⟩ => ⟨S1x128, .f32⟩
  | .hbm, ⟨5, _⟩ => ⟨S128x1, .f32⟩
  | .hbm, ⟨6, _⟩ => ⟨S1x128, .f32⟩
  | .hbm, ⟨7, _⟩ => ⟨S4x4096x128, .bf16⟩
  | .hbm, ⟨8, _⟩ => ⟨S4x4096x1, .f32⟩
  | .hbm, ⟨9, _⟩ => ⟨S4x4096x1, .f32⟩
  | .hbm, ⟨10, _⟩ => ⟨S4x1x4096, .f32⟩
  | .hbm, ⟨11, _⟩ => ⟨S_, .f32⟩
  | .hbm, ⟨12, _⟩ => ⟨S4x1, .f32⟩
  | .hbm, ⟨13, _⟩ => ⟨S4x1x1, .f32⟩
  | .hbm, ⟨14, _⟩ => ⟨S4x4096x128, .f32⟩
  | .local _ .vmem, ⟨0, _⟩ => ⟨S4x1024x128, .f32⟩
  | .local _ .vmem, ⟨1, _⟩ => ⟨S4x1024x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S4x1024x128, .bf16⟩
  | .local _ .vmem, ⟨6, _⟩ => ⟨S4x1024x128, .bf16⟩
  | .local _ .vmem, ⟨7, _⟩ => ⟨S4x1024x1, .f32⟩
  | .local _ .vmem, ⟨8, _⟩ => ⟨S4x1024x1, .f32⟩
  | .local _ .vmem, ⟨9, _⟩ => ⟨S4x1024x1, .f32⟩
  | .local _ .vmem, ⟨10, _⟩ => ⟨S4x1024x1, .f32⟩
  | .local _ .vmem, ⟨11, _⟩ => ⟨S4x512x1, .f32⟩
  | .local _ .vmem, ⟨12, _⟩ => ⟨S4x512x1, .f32⟩
  | .local _ .vmem, ⟨13, _⟩ => ⟨S4x1x512, .f32⟩
  | .local _ .vmem, ⟨14, _⟩ => ⟨S4x1x512, .f32⟩
  | .local _ .vmem, ⟨15, _⟩ => ⟨S4x1x1, .f32⟩
  | .local _ .vmem, ⟨16, _⟩ => ⟨S4x4096x128, .bf16⟩
  | .local _ .vmem, ⟨17, _⟩ => ⟨S4x512x128, .f32⟩
  | .local _ .vmem, ⟨18, _⟩ => ⟨S4x512x128, .f32⟩
  | .local _ .vmem, ⟨19, _⟩ => ⟨S4x512x1, .f32⟩
  | .local _ .vmem, ⟨20, _⟩ => ⟨S4x512x128, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc1_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 8], ![false, false]⟩

def k1_mult1 (i : grid1.Coords) : BitVec 32 :=
  let arg1 : BitVec 32 := BitVec.ofNat 32 (i 1).val
  let c512_i32 : BitVec 32 := 512#32
  let v34 : BitVec 32 := Scalar.muli arg1 c512_i32
  v34
def k1_off1 (i : grid1.Coords) : Fin 3 → Nat :=
  let c0_19 : Index := 0#32
  let arg1 : BitVec 32 := BitVec.ofNat 32 (i 1).val
  let c512_i32 : BitVec 32 := 512#32
  let v34 : BitVec 32 := Scalar.muli arg1 c512_i32
  let v35 : BitVec 32 := v34
  let v36 : Index := Scalar.indexCast v35
  let c0_20 : Index := 0#32
  ![0, v36.toNat, 0]
def k1_cond2 (i : grid1.Coords) : BitVec 1 :=
  let arg1 : BitVec 32 := BitVec.ofNat 32 (i 1).val
  let c7_i32 : BitVec 32 := 7#32
  let v46 : BitVec 1 := Scalar.cmpi .eq arg1 c7_i32
  let v47 : BitVec 32 := Scalar.extui v46
  let c0_i32_28 : BitVec 32 := 0#32
  let v48 : BitVec 1 := Scalar.cmpi .ne v47 c0_i32_28
  v48

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S4x512x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x1x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S4x1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S4x4096x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S4x512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  slices_S256x1_S128x1_0_0 : S256x1.Slices ![0, 0] S128x1
  shapeCasts_S128x1_S1x128 : S128x1.ShapeCasts S1x128
  slices_S256x1_S128x1_128_0 : S256x1.Slices ![128, 0] S128x1
  inb_S4x1024x128_S4x1024x128_0_0_0 : ∀ a, (![0, 0, 0] : Fin 3 → Nat) a + S4x1024x128.size a ≤ S4x1024x128.size a
  h_S4x1024x128 : 0 < S4x1024x128.numel
  bitsLt_bf16_f32 : FTy.bits .bf16 < FTy.bits .f32
  shapeCasts_S4x1024x128_S4096x128 : S4x1024x128.ShapeCasts S4096x128
  inb_S128x128_S128x128_0_0 : ∀ a, (![0, 0] : Fin 2 → Nat) a + S128x128.size a ≤ S128x128.size a
  h_S128x128 : 0 < S128x128.numel
  shapeCasts_S4096x128_S4x1024x128 : S4096x128.ShapeCasts S4x1024x128
  packedbf16_S4x1024x128_S4x1024x128_0_0_0 : (Rect.unit (s := S4x1024x128) ![0, 0, 0] S4x1024x128.size inb_S4x1024x128_S4x1024x128_0_0_0).PackedRows (EltTy.packing .bf16)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x128 : S1x128.ShapeCasts S1x1x128
  broadcasts_S1x1x128_S4x1024x128 : S1x1x128.Broadcasts S4x1024x128
  reduces_S4x1024x128_S4x1024 : S4x1024x128.Reduces [2] S4x1024
  shapeCasts_S4x1024_S4x1024x1 : S4x1024.ShapeCasts S4x1024x1
  inb_S4x1024x1_S4x1024x1_0_0_0 : ∀ a, (![0, 0, 0] : Fin 3 → Nat) a + S4x1024x1.size a ≤ S4x1024x1.size a
  h_S4x1024x1 : 0 < S4x1024x1.numel
  transposes_S4x4096x1_S4x1x4096_0_2_1 : S4x4096x1.Transposes [0, 2, 1] S4x1x4096
  reducesTo_S4x4096x1_S4x1_d1 : S4x4096x1.ReducesTo [1] S4x1
  h_S_ : 0 < S_.numel
  bcast_S4x1_S4x1x1_0_2 : S4x1.BroadcastsInDim S4x1x1 (![0, 2] : Fin 2 → Fin S4x1x1.rank)
  inb_S4x512x1_S4x512x1_0_0_0 : ∀ a, (![0, 0, 0] : Fin 3 → Nat) a + S4x512x1.size a ≤ S4x512x1.size a
  h_S4x512x1 : 0 < S4x512x1.numel
  shapeCasts_S4x512x1_S4x512x1 : S4x512x1.ShapeCasts S4x512x1
  inb_S4x512x128_S4x512x128_0_0_0 : ∀ a, (![0, 0, 0] : Fin 3 → Nat) a + S4x512x128.size a ≤ S4x512x128.size a
  h_S4x512x128 : 0 < S4x512x128.numel
  shapeCasts_S4x512x128_S4x512x128 : S4x512x128.ShapeCasts S4x512x128
  inb_S4x1x512_S4x1x512_0_0_0 : ∀ a, (![0, 0, 0] : Fin 3 → Nat) a + S4x1x512.size a ≤ S4x1x512.size a
  h_S4x1x512 : 0 < S4x1x512.numel
  shapeCasts_S4x1x512_S4x1x512 : S4x1x512.ShapeCasts S4x1x512
  inb_S4x1x1_S4x1x1_0_0_0 : ∀ a, (![0, 0, 0] : Fin 3 → Nat) a + S4x1x1.size a ≤ S4x1x1.size a
  h_S4x1x1 : 0 < S4x1x1.numel
  shapeCasts_S4x1x1_S4x1x1 : S4x1x1.ShapeCasts S4x1x1
  broadcasts_S4x512x1_S4x512x512 : S4x512x1.Broadcasts S4x512x512
  broadcasts_S4x1x512_S4x512x512 : S4x1x512.Broadcasts S4x512x512
  broadcasts_S4x1x1_S4x512x1 : S4x1x1.Broadcasts S4x512x1
  reduces_S4x512x512_S4x512 : S4x512x512.Reduces [2] S4x512
  shapeCasts_S4x512_S4x512x1 : S4x512.ShapeCasts S4x512x1
  broadcasts_S4x512x1_S4x512x128 : S4x512x1.Broadcasts S4x512x128
  dot_S4096x128_S128x128_S4096x128_1_0_0_1_n_n_wf : DotDims.WF S4096x128 S128x128 S4096x128 [1] [0] [0] [1] [] []
  dot_S4x512x512_S4x512x128_S4x512x128_2_1_1_2_0_0_wf : DotDims.WF S4x512x512 S4x512x128 S4x512x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x128.size a ≤ S4x4096x128.size a
  hwx0_0 : ∀ i : grid0.Coords, EltTy.bits .f32 = 32 ∨ (Rect.block (s := S4x4096x128) S4x1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x1024x128.size a ≤ S4x4096x128.size a
  hwx0_4 : ∀ i : grid0.Coords, EltTy.bits .bf16 = 32 ∨ (Rect.block (s := S4x4096x128) S4x1024x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x1024x1.size a ≤ S4x4096x1.size a
  hwx0_5 : ∀ i : grid0.Coords, EltTy.bits .f32 = 32 ∨ (Rect.block (s := S4x4096x1) S4x1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x1024x1.size a ≤ S4x4096x1.size a
  hwx0_6 : ∀ i : grid0.Coords, EltTy.bits .f32 = 32 ∨ (Rect.block (s := S4x4096x1) S4x1024x1.size (cc0_transform_6 i) (hinb0_6 i)).WholeWords (EltTy.packing .f32)
  hrank1 : 0 < grid1.rank
  k1_mult1_dvd : ∀ i : grid1.Coords, 512 ∣ (k1_mult1 i).toNat
  k1_off1_inb : ∀ i : grid1.Coords, ∀ a, (k1_off1 i) a + S4x512x128.size a ≤ S4x4096x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x512x1.size a ≤ S4x4096x1.size a
  hwx1_0 : ∀ i : grid1.Coords, EltTy.bits .f32 = 32 ∨ (Rect.block (s := S4x4096x1) S4x512x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x1x512.size a ≤ S4x1x4096.size a
  hwx1_1 : ∀ i : grid1.Coords, EltTy.bits .f32 = 32 ∨ (Rect.block (s := S4x1x4096) S4x1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x1x1.size a ≤ S4x1x1.size a
  hwx1_2 : ∀ i : grid1.Coords, EltTy.bits .f32 = 32 ∨ (Rect.block (s := S4x1x1) S4x1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x4096x128.size a ≤ S4x4096x128.size a
  hwx1_3 : ∀ i : grid1.Coords, EltTy.bits .bf16 = 32 ∨ (Rect.block (s := S4x4096x128) S4x4096x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4x512x128.size a ≤ S4x4096x128.size a
  hwx1_4 : ∀ i : grid1.Coords, EltTy.bits .f32 = 32 ∨ (Rect.block (s := S4x4096x128) S4x512x128.size (cc1_transform_4 i) (hinb1_4 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4x512x512_S4x512x128_S4x512x128_2_1_1_2_0_0 : DotDims S4x512x512 S4x512x128 S4x512x128 where
  lhsContracting := [2]
  rhsContracting := [1]
  lhsNonContracting := [1]
  rhsNonContracting := [2]
  lhsBatch := [0]
  rhsBatch := [0]
  wf := dot_S4x512x512_S4x512x128_S4x512x128_2_1_1_2_0_0_wf

abbrev win0_0 : Pipeline.Window sig grid0 :=
  Pipeline.Window.ofSpec (Memref.whole main_arg0) S4x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S4x1024x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S4x1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S4x1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v4_1) S4x512x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S4x1x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S4x1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4_0) S4x4096x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S4x512x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4x4096x128 : Shape := ⟨3, ![4, 4096, 128]⟩
abbrev S128x128 : Shape := ⟨2, ![128, 128]⟩
abbrev S256x1 : Shape := ⟨2, ![256, 1]⟩
abbrev S128x1 : Shape := ⟨2, ![128, 1]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S_ : Shape := ⟨0, ![]⟩
abbrev S4x4096 : Shape := ⟨2, ![4, 4096]⟩

abbrev nBuf : Space → Nat
  | .hbm => 50
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S128x128, .f32⟩
  | .hbm, ⟨2, _⟩ => ⟨S256x1, .f32⟩
  | .hbm, ⟨3, _⟩ => ⟨S4x4096x128, .f32⟩
  | .hbm, ⟨4, _⟩ => ⟨S128x1, .f32⟩
  | .hbm, ⟨5, _⟩ => ⟨S128x1, .f32⟩
  | .hbm, ⟨6, _⟩ => ⟨S4x4096x1, .f32⟩
  | .hbm, ⟨7, _⟩ => ⟨S4x4096x1, .f32⟩
  | .hbm, ⟨8, _⟩ => ⟨S4x1x4096, .f32⟩
  | .hbm, ⟨9, _⟩ => ⟨S4x4096x4096, .f32⟩
  | .hbm, ⟨10, _⟩ => ⟨S4x4096x4096, .f32⟩
  | .hbm, ⟨11, _⟩ => ⟨S4x4096x4096, .f32⟩
  | .hbm, ⟨12, _⟩ => ⟨S_, .f32⟩
  | .hbm, ⟨13, _⟩ => ⟨S_, .f32⟩
  | .hbm, ⟨14, _⟩ => ⟨S4x4096x4096, .f32⟩
  | .hbm, ⟨15, _⟩ => ⟨S4x4096x4096, .i1⟩
  | .hbm, ⟨16, _⟩ => ⟨S_, .f32⟩
  | .hbm, ⟨17, _⟩ => ⟨S4x4096x4096, .f32⟩
  | .hbm, ⟨18, _⟩ => ⟨S4x4096x4096, .f32⟩
  | .hbm, ⟨19, _⟩ => ⟨S4x4096x4096, .f32⟩
  | .hbm, ⟨20, _⟩ => ⟨S_, .f32⟩
  | .hbm, ⟨21, _⟩ => ⟨S4x4096, .f32⟩
  | .hbm, ⟨22, _⟩ => ⟨S_, .f32⟩
  | .hbm, ⟨23, _⟩ => ⟨S4x4096, .f32⟩
  | .hbm, ⟨24, _⟩ => ⟨S4x4096, .f32⟩
  | .hbm, ⟨25, _⟩ => ⟨S4x4096x1, .f32⟩
  | .hbm, ⟨26, _⟩ => ⟨S4x4096x4096, .f32⟩
  | .hbm, ⟨27, _⟩ => ⟨S4x4096x4096, .f32⟩
  | .hbm, ⟨28, _⟩ => ⟨S4x4096x4096, .f32⟩
  | .hbm, ⟨29, _⟩ => ⟨S_, .f32⟩
  | .hbm, ⟨30, _⟩ => ⟨S4x4096, .f32⟩
  | .hbm, ⟨31, _⟩ => ⟨S4x4096x1, .f32⟩
  | .hbm, ⟨32, _⟩ => ⟨S4x4096x4096, .f32⟩
  | .hbm, ⟨33, _⟩ => ⟨S4x4096x4096, .f32⟩
  | .hbm, ⟨34, _⟩ => ⟨S4x4096x128, .f32⟩
  | .hbm, ⟨35, _⟩ => ⟨S_, .f32⟩
  | .hbm, ⟨36, _⟩ => ⟨S4x4096x128, .f32⟩
  | .hbm, ⟨37, _⟩ => ⟨S4x4096x128, .i1⟩
  | .hbm, ⟨38, _⟩ => ⟨S_, .f32⟩
  | .hbm, ⟨39, _⟩ => ⟨S4x4096x128, .f32⟩
  | .hbm, ⟨40, _⟩ => ⟨S4x4096x128, .i1⟩
  | .hbm, ⟨41, _⟩ => ⟨S_, .f32⟩
  | .hbm, ⟨42, _⟩ => ⟨S_, .f32⟩
  | .hbm, ⟨43, _⟩ => ⟨S4x4096x128, .f32⟩
  | .hbm, ⟨44, _⟩ => ⟨S4x4096x128, .f32⟩
  | .hbm, ⟨45, _⟩ => ⟨S4x4096x128, .f32⟩
  | .hbm, ⟨46, _⟩ => ⟨S_, .f32⟩
  | .hbm, ⟨47, _⟩ => ⟨S4x4096x128, .f32⟩
  | .hbm, ⟨48, _⟩ => ⟨S4x4096x128, .f32⟩
  | .hbm, ⟨49, _⟩ => ⟨S4x4096x128, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call1_cst : Ref sig .tc := ⟨.hbm, 35, rfl⟩
abbrev main_call1_v0 : Ref sig .tc := ⟨.hbm, 36, rfl⟩
abbrev main_call1_v1 : Ref sig .tc := ⟨.hbm, 37, rfl⟩
abbrev main_call1_cst_0 : Ref sig .tc := ⟨.hbm, 38, rfl⟩
abbrev main_call1_v2 : Ref sig .tc := ⟨.hbm, 39, rfl⟩
abbrev main_call1_v3 : Ref sig .tc := ⟨.hbm, 40, rfl⟩
abbrev main_call1_cst_1 : Ref sig .tc := ⟨.hbm, 41, rfl⟩
abbrev main_call1_call0_v0 : Ref sig .tc := ⟨.hbm, 42, rfl⟩
abbrev main_call1_call0_v1 : Ref sig .tc := ⟨.hbm, 43, rfl⟩
abbrev main_call1_v4 : Ref sig .tc := ⟨.hbm, 44, rfl⟩
abbrev main_call1_v5 : Ref sig .tc := ⟨.hbm, 45, rfl⟩
abbrev main_call1_cst_2 : Ref sig .tc := ⟨.hbm, 46, rfl⟩
abbrev main_call1_v6 : Ref sig .tc := ⟨.hbm, 47, rfl⟩
abbrev main_call1_v7 : Ref sig .tc := ⟨.hbm, 48, rfl⟩
abbrev main_v22 : Ref sig .tc := ⟨.hbm, 49, rfl⟩

abbrev nD : Nat := 1
abbrev τ : Topo := Topo.v7x

variable {F : FTy → Type} [FloatOps F]

class Facts₀ : Prop where
  slices_S256x1_S128x1_0_0 : S256x1.Slices ![0, 0] S128x1
  slices_S256x1_S128x1_128_0 : S256x1.Slices ![128, 0] S128x1
  transposes_S4x4096x1_S4x1x4096_0_2_1 : S4x4096x1.Transposes [0, 2, 1] S4x1x4096
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S_S4x4096x128 : S_.BroadcastsInDim S4x4096x128 (![] : Fin 0 → Fin S4x4096x128.rank)
  dot_S4x4096x128_S128x128_S4x4096x128_2_0_01_1_n_n_wf : DotDims.WF S4x4096x128 S128x128 S4x4096x128 [2] [0] [0, 1] [1] [] []
  dot_S4x4096x128_S128x1_S4x4096x1_2_0_01_1_n_n_wf : DotDims.WF S4x4096x128 S128x1 S4x4096x1 [2] [0] [0, 1] [1] [] []
  dot_S4x4096x4096_S4x4096x128_S4x4096x128_2_1_1_2_0_0_wf : DotDims.WF S4x4096x4096 S4x4096x128 S4x4096x128 [2] [1] [1] [2] [0] [0]

variable [Facts₀]

def dot_S4x4096x128_S128x128_S4x4096x128_2_0_01_1_n_n : DotDims S4x4096x128 S128x128 S4x4096x128 where
  lhsContracting := [2]
  rhsContracting := [0]
  lhsNonContracting := [0, 1]
  rhsNonContracting := [1]
  lhsBatch := []
  rhsBatch := []
  wf := dot_S4x4096x128_S128x128_S4x4096x128_2_0_01_1_n_n_wf
def dot_S4x4096x128_S128x1_S4x4096x1_2_0_01_1_n_n : DotDims S4x4096x128 S128x1 S4x4096x1 where
  lhsContracting := [2]
  rhsContracting := [0]
  lhsNonContracting := [0, 1]
  rhsNonContracting := [1]
  lhsBatch := []
  rhsBatch := []
  wf := dot_S4x4096x128_S128x1_S4x4096x1_2_0_01_1_n_n_wf
def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf

class Facts : Prop extends Facts₀ where

variable [Facts]
-- ==== Proof.K.R0.lean ====
/-
  The projection kernel's half of the frame, at any float instance.  The first pallas_call has a grid of four
  points; at point t it is handed the block of rows 1024·t … 1024·t+1023 of h (all four graphs), the whole of W and
  the two halves of a as rows, and it stores three blocks: the projected features of those rows, and their two
  scores.  Stated at a parameter V — the buffers' contents when the call is entered —: each window's block at a
  point, what the body leaves in each output's staging buffer as the body's named arithmetic of the input blocks, the
  body's triple, and the proof data the pipeline's launch theorem takes.
-/
import proofs.«135230_j47184510714010_2_alg».proof.Proof.Gen.Kernel.Launch
import proofs.«135230_j47184510714010_2_alg».proof.Proof.Gen.Kernel.Skeleton
import proofs.«135230_j47184510714010_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: unfetched, the
    block index has not moved. One statement per window, the window a literal. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev rH : Rect S4x1024x128 := Rect.unit (s := S4x1024x128) ![0, 0, 0] S4x1024x128.size inb_S4x1024x128_S4x1024x128_0_0_0
abbrev rW : Rect S128x128 := Rect.unit (s := S128x128) ![0, 0] S128x128.size inb_S128x128_S128x128_0_0
abbrev rA : Rect S1x128 := Rect.unit (s := S1x128) ![0, 0] S1x128.size inb_S1x128_S1x128_0_0
abbrev rS : Rect S4x1024x1 := Rect.unit (s := S4x1024x1) ![0, 0, 0] S4x1024x1.size inb_S4x1024x1_S4x1024x1_0_0_0

/-- The projected-features block the body stores: its one store as a piece. -/
def out0_4 (x0 : Vec F S4x1024x128 .f32) (x1 : Vec F S128x128 .f32) : Vec F S4x1024x128 .bf16 :=
  View.canon [⟨rH, k0_pay2 (View.ld x0 rH) (View.ld x1 rW)⟩]
/-- The query-score block the body stores. -/
def out0_5 (x0 : Vec F S4x1024x128 .f32) (x1 : Vec F S128x128 .f32) (x2 : Vec F S1x128 .f32) : Vec F S4x1024x1 .f32 :=
  View.canon [⟨rS, k0_pay3 (View.ld x0 rH) (View.ld x1 rW) (View.ld x2 rA)⟩]
/-- The key-score block the body stores. -/
def out0_6 (x0 : Vec F S4x1024x128 .f32) (x1 : Vec F S128x128 .f32) (x3 : Vec F S1x128 .f32) : Vec F S4x1024x1 .f32 :=
  View.canon [⟨rS, k0_pay4 (View.ld x0 rH) (View.ld x1 rW) (View.ld x3 rA)⟩]

theorem cover0_4 (p0 : Vec F S4x1024x128 .bf16) (y : S4x1024x128.Idx) :
    ∃ pc ∈ ([⟨rH, p0⟩] : List (View.Piece (Elt F) S4x1024x128 .bf16)), y ∈ pc.1.set :=
  View.cover_of_tiled [⟨rH, p0⟩] S4x1024x128.size (by rfl) y
theorem cover0_5 (p0 : Vec F S4x1024x1 .f32) (y : S4x1024x1.Idx) :
    ∃ pc ∈ ([⟨rS, p0⟩] : List (View.Piece (Elt F) S4x1024x1 .f32)), y ∈ pc.1.set :=
  View.cover_of_tiled [⟨rS, p0⟩] S4x1024x1.size (by rfl) y

set_option maxHeartbeats 1000000 in
/-- The body on whole staging memrefs, the inputs' at contents x·, the outputs' at anything, runs to the
    continuation holding the inputs' as they were and each output's at the stored block. -/
theorem sound_kernel0 (c : Dev nD) (E : Set ℕ) (i : grid0.Coords)
    (arg1 : Memref sig .tc .vmem S4x1024x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S4x1024x128 .bf16) (harg5 : arg5.IsWhole) (arg6 : Memref sig .tc .vmem S4x1024x1 .f32) (harg6 : arg6.IsWhole)
    (arg7 : Memref sig .tc .vmem S4x1024x1 .f32) (harg7 : arg7.IsWhole)
    (x0 : Vec F S4x1024x128 .f32) (x1 : Vec F S128x128 .f32) (x2 x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x1) ∗ owns (c : Thread nD τ) arg6 fullShare (out0_5 x0 x1 x2)
            ∗ owns (c : Thread nD τ) arg7 fullShare (out0_6 x0 x1 x3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_5 _)

/-- The proof data of the first pipeline on core c: the arrays as the call finds them; after the body at point t
    each input's buffer at its block and each output's at the stored block; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.R1Base.lean ====
/-
  The attention kernel's half of the frame: what its three control cases share.  The second pallas_call has a grid of
  8 × 8 points, t = 8·qi + ki: at (qi, ki) the body is handed the query scores of rows 512·qi …, the key scores of
  columns 512·ki …, the largest key score of each graph and the whole projected-features array; it keeps two scratch
  accumulators — the normalizer and the weighted sum — which it zeroes when ki = 0, adds to at every point, and at
  ki = 7 divides and stores through its one output window, whose block index is qi.  Here: each window's block at a
  point, the two branch conditions in closed form over the grid, where the output window is idle, the staging and
  scratch memrefs, and the class invariant spelt over the scratch memrefs.
-/
import proofs.«135230_j47184510714010_2_alg».proof.Proof.Gen.Kernel.Launch
import proofs.«135230_j47184510714010_2_alg».proof.Proof.Gen.Kernel.Skeleton
import proofs.«135230_j47184510714010_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- "This is the first key tile" (ki = 0): the accumulators are zeroed. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last key tile" (ki = 7): the result is stored. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ i : grid1.Coords, cfg1.idle 0 i = false := fun _ => rfl
theorem liveAt1_1 : ∀ i : grid1.Coords, cfg1.idle 1 i = false := fun _ => rfl
theorem liveAt1_2 : ∀ i : grid1.Coords, cfg1.idle 2 i = false := fun _ => rfl
theorem liveAt1_3 : ∀ i : grid1.Coords, cfg1.idle 3 i = false := fun _ => rfl
/-- Away from the last key tile the output window is idle: nothing is stored into it and it is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The memrefs the body is called with -/

abbrev VO1_4 : View sig .tc .vmem S4x512x128 .f32 := (Memref.whole cc1_stg4_0 : Memref sig .tc .vmem S4x512x128 .f32).view
abbrev ms1_0 (t : Fin cfg1.N) : Memref sig .tc .vmem S4x512x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x1x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x1x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4x4096x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4x512x128 .f32 := win1_4.stage (cfg1.slots t 4)
abbrev hs1_4 (t : Fin cfg1.N) : (ms1_4 t).IsWhole := hstage1_4 ((cfg1.slots t 4).cast nbuf1_4)
/-- The normalizer's scratch. -/
abbrev scM1_0 : Memref sig .tc .vmem S4x512x1 .f32 := Memref.whole cc1_scratch0
/-- The weighted sum's scratch. -/
abbrev scM1_1 : Memref sig .tc .vmem S4x512x128 .f32 := Memref.whole cc1_scratch1
abbrev VS1_0 : View sig .tc .vmem S4x512x1 .f32 := scM1_0.view
abbrev VS1_1 : View sig .tc .vmem S4x512x128 .f32 := scM1_1.view

/-- The first call's staging buffers, which the second call's body never touches: each whole at some contents. -/
def restS1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The scoped buffers outside the second call's staging, with the two scratch operands stated by X and Y. -/
def chain1 (c : Dev nD) (X Y : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ X ∗ Y)

theorem chain1_elim (c : Dev nD) (X Y : sProp 𝕄) : chain1 (F := F) c X Y ⊢ iprop(restS1 (F := F) c ∗ X ∗ Y) := by
  unfold chain1 restS1
  iintro ⟨A0, A1, A2, A3, A4, A5, A6, A7, A8, A9, A10, HX, HY⟩
  isplitl [A0 A1 A2 A3 A4 A5 A6 A7 A8 A9 A10]
  ·
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact A10
  isplitl [HX]; · iexact HX
  iexact HY

theorem chain1_intro (c : Dev nD) (X Y : sProp 𝕄) : iprop(restS1 (F := F) c ∗ X ∗ Y) ⊢ chain1 (F := F) c X Y := by
  unfold chain1 restS1
  iintro ⟨⟨A0, A1, A2, A3, A4, A5, A6, A7, A8, A9, A10⟩, HX, HY⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [HX]; · iexact HX
  iexact HY

/-- The class invariant of the second pipeline with the two scratch operands as memrefs owned at some contents. -/
theorem PhiA1_eq (c : Dev nD) :
    (Pipeline.ΦA spec1 c : sProp 𝕄)
      = iprop(chain1 (F := F) c iprop(∃ d, owns (c : Thread nD τ) scM1_0 fullShare d) iprop(∃ d, owns (c : Thread nD τ) scM1_1 fullShare d) ∗ (∃ r, prngReg c r)) := by
  unfold Pipeline.ΦA chain1; rw [scopedRest1_eq]; simp only [scM1_0, scM1_1, owns_whole]; try rfl

end Cert.Kernel.Fr

end
-- ==== Proof.K.R1RunA.lean ====
/-
  The attention kernel's body run once, whole, in the case of the first key tile of a row block (the accumulators are zeroed, then added to; nothing is stored through the output window): on whole memrefs — the four inputs' at their
  contents, the output's at anything, the two accumulators' at anything — it runs to the continuation
  holding the inputs' as they were and each written buffer with its stores as pieces; the pieces are the witness the run
  finds.
-/
import proofs.«135230_j47184510714010_2_alg».proof.Proof.Gen.Kernel.Launch
import proofs.«135230_j47184510714010_2_alg».proof.Proof.Gen.Kernel.Skeleton
import proofs.«135230_j47184510714010_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«135230_j47184510714010_2_alg».proof.Proof.K.R1Base
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : cond1_0 i) (hc1 : ¬cond1_1 i)
    (x0 : Vec F S4x512x1 .f32) (x1 : Vec F S4x1x512 .f32) (x2 : Vec F S4x1x1 .f32) (x3 : Vec F S4x4096x128 .bf16) :
    Σ' (L4 : List (View.Piece (Elt F) S4x512x128 .f32)) (LS0 : List (View.Piece (Elt F) S4x512x1 .f32)), { LS1 : List (View.Piece (Elt F) S4x512x128 .f32) //
      ∀ (xi4 : Vec F S4x512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4;
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Fr

end
-- ==== Proof.K.R1RunB.lean ====
/-
  The attention kernel's body run once, whole, in the case of a middle key tile (the accumulators are added to; nothing is stored through the output window): on whole memrefs — the four inputs' at their
  contents, the output's at anything, the two accumulators' at what the point before left — it runs to the continuation
  holding the inputs' as they were and each written buffer with its stores as pieces; the pieces are the witness the run
  finds.
-/
import proofs.«135230_j47184510714010_2_alg».proof.Proof.Gen.Kernel.Launch
import proofs.«135230_j47184510714010_2_alg».proof.Proof.Gen.Kernel.Skeleton
import proofs.«135230_j47184510714010_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«135230_j47184510714010_2_alg».proof.Proof.K.R1RunA
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : ¬cond1_0 i) (hc1 : ¬cond1_1 i)
    (x0 : Vec F S4x512x1 .f32) (x1 : Vec F S4x1x512 .f32) (x2 : Vec F S4x1x1 .f32) (x3 : Vec F S4x4096x128 .bf16) (xs0 : Vec F S4x512x1 .f32) (xs1 : Vec F S4x512x128 .f32) :
    Σ' (L4 : List (View.Piece (Elt F) S4x512x128 .f32)) (LS0 : List (View.Piece (Elt F) S4x512x1 .f32)), { LS1 : List (View.Piece (Elt F) S4x512x128 .f32) //
      ∀ (xi4 : Vec F S4x512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Fr

end
-- ==== Proof.K.R1RunC.lean ====
/-
  The attention kernel's body run once, whole, in the case of the last key tile (the accumulators are added to, then the quotient's ELU is stored through the output window): on whole memrefs — the four inputs' at their
  contents, the output's at anything, the two accumulators' at what the point before left — it runs to the continuation
  holding the inputs' as they were and each written buffer with its stores as pieces; the pieces are the witness the run
  finds.
-/
import proofs.«135230_j47184510714010_2_alg».proof.Proof.Gen.Kernel.Launch
import proofs.«135230_j47184510714010_2_alg».proof.Proof.Gen.Kernel.Skeleton
import proofs.«135230_j47184510714010_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«135230_j47184510714010_2_alg».proof.Proof.K.R1RunB
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : ¬cond1_0 i) (hc1 : cond1_1 i)
    (x0 : Vec F S4x512x1 .f32) (x1 : Vec F S4x1x512 .f32) (x2 : Vec F S4x1x1 .f32) (x3 : Vec F S4x4096x128 .bf16) (xs0 : Vec F S4x512x1 .f32) (xs1 : Vec F S4x512x128 .f32) :
    Σ' (L4 : List (View.Piece (Elt F) S4x512x128 .f32)) (LS0 : List (View.Piece (Elt F) S4x512x1 .f32)), { LS1 : List (View.Piece (Elt F) S4x512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.Kernel.Fr

end
-- ==== Proof.K.R1Frame.lean ====
/-
  The attention kernel's half of the frame, assembled.  What the output window's buffer and the two accumulators
  hold after each grid point, by recursion on the point: the case the point is in — first, middle or last key tile —
  run on the point's input blocks and, past the first tile, on what the point before left in the accumulators.  The
  region's invariant carries the accumulators at those contents from point to point; the pipeline's proof data, the
  body obligation at every point, and what the invariant takes in and gives back.
-/
import proofs.«135230_j47184510714010_2_alg».proof.Proof.Gen.Kernel.Launch
import proofs.«135230_j47184510714010_2_alg».proof.Proof.Gen.Kernel.Skeleton
import proofs.«135230_j47184510714010_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«135230_j47184510714010_2_alg».proof.Proof.K.R1RunC
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output window's staging buffer: its pieces read back (none: a placeholder nothing consults, the window being idle there). -/
def out1_A_4 (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : cond1_0 i) (hc1 : ¬cond1_1 i)
    (x0 : Vec F S4x512x1 .f32) (x1 : Vec F S4x1x512 .f32) (x2 : Vec F S4x1x1 .f32) (x3 : Vec F S4x4096x128 .bf16) : Vec F S4x512x128 .f32 :=
  VO1_4.read (Elt F) (VO1_4.writes (Elt F) VO1_4.junk (kernelRun1_A c i arg2 harg2 arg3 harg3 arg4 harg4 arg5 harg5 arg6 harg6 arg7 harg7 arg8 harg8 hc0 hc1 x0 x1 x2 x3).1)
/-- Case A's stores into the normalizer's scratch cover it. -/
theorem scover1_A_0 (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : cond1_0 i) (hc1 : ¬cond1_1 i)
    (x0 : Vec F S4x512x1 .f32) (x1 : Vec F S4x1x512 .f32) (x2 : Vec F S4x1x1 .f32) (x3 : Vec F S4x4096x128 .bf16) (y : S4x512x1.Idx) :
    ∃ pc ∈ (kernelRun1_A c i arg2 harg2 arg3 harg3 arg4 harg4 arg5 harg5 arg6 harg6 arg7 harg7 arg8 harg8 hc0 hc1 x0 x1 x2 x3).2.1, y ∈ pc.1.set :=
  View.cover_of_tiledL (kernelRun1_A c i arg2 harg2 arg3 harg3 arg4 harg4 arg5 harg5 arg6 harg6 arg7 harg7 arg8 harg8 hc0 hc1 x0 x1 x2 x3).2.1 S4x512x1.size (by sl_kernel_rfl) y
/-- What case A leaves in the normalizer's scratch. -/
def sout1_A_0 (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : cond1_0 i) (hc1 : ¬cond1_1 i)
    (x0 : Vec F S4x512x1 .f32) (x1 : Vec F S4x1x512 .f32) (x2 : Vec F S4x1x1 .f32) (x3 : Vec F S4x4096x128 .bf16) : Vec F S4x512x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3).2.1)
/-- Case A's stores into the weighted sum's scratch cover it. -/
theorem scover1_A_1 (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : cond1_0 i) (hc1 : ¬cond1_1 i)
    (x0 : Vec F S4x512x1 .f32) (x1 : Vec F S4x1x512 .f32) (x2 : Vec F S4x1x1 .f32) (x3 : Vec F S4x4096x128 .bf16) (y : S4x512x128.Idx) :
    ∃ pc ∈ (kernelRun1_A c i arg2 harg2 arg3 harg3 arg4 harg4 arg5 harg5 arg6 harg6 arg7 harg7 arg8 harg8 hc0 hc1 x0 x1 x2 x3).2.2.1, y ∈ pc.1.set :=
  View.cover_of_tiledL (kernelRun1_A c i arg2 harg2 arg3 harg3 arg4 harg4 arg5 harg5 arg6 harg6 arg7 harg7 arg8 harg8 hc0 hc1 x0 x1 x2 x3).2.2.1 S4x512x128.size (by sl_kernel_rfl) y
/-- What case A leaves in the weighted sum's scratch. -/
def sout1_A_1 (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : cond1_0 i) (hc1 : ¬cond1_1 i)
    (x0 : Vec F S4x512x1 .f32) (x1 : Vec F S4x1x512 .f32) (x2 : Vec F S4x1x1 .f32) (x3 : Vec F S4x4096x128 .bf16) : Vec F S4x512x128 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2 x3).2.2.1)

/-- What case B leaves in the output window's staging buffer: its pieces read back (none: a placeholder nothing consults, the window being idle there). -/
def out1_B_4 (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : ¬cond1_0 i) (hc1 : ¬cond1_1 i)
    (x0 : Vec F S4x512x1 .f32) (x1 : Vec F S4x1x512 .f32) (x2 : Vec F S4x1x1 .f32) (x3 : Vec F S4x4096x128 .bf16) (xs0 : Vec F S4x512x1 .f32) (xs1 : Vec F S4x512x128 .f32) : Vec F S4x512x128 .f32 :=
  VO1_4.read (Elt F) (VO1_4.writes (Elt F) VO1_4.junk (kernelRun1_B c i arg2 harg2 arg3 harg3 arg4 harg4 arg5 harg5 arg6 harg6 arg7 harg7 arg8 harg8 hc0 hc1 x0 x1 x2 x3 xs0 xs1).1)
/-- Case B's stores into the normalizer's scratch cover it. -/
theorem scover1_B_0 (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : ¬cond1_0 i) (hc1 : ¬cond1_1 i)
    (x0 : Vec F S4x512x1 .f32) (x1 : Vec F S4x1x512 .f32) (x2 : Vec F S4x1x1 .f32) (x3 : Vec F S4x4096x128 .bf16) (xs0 : Vec F S4x512x1 .f32) (xs1 : Vec F S4x512x128 .f32) (y : S4x512x1.Idx) :
    ∃ pc ∈ (kernelRun1_B c i arg2 harg2 arg3 harg3 arg4 harg4 arg5 harg5 arg6 harg6 arg7 harg7 arg8 harg8 hc0 hc1 x0 x1 x2 x3 xs0 xs1).2.1, y ∈ pc.1.set :=
  View.cover_of_tiledL (kernelRun1_B c i arg2 harg2 arg3 harg3 arg4 harg4 arg5 harg5 arg6 harg6 arg7 harg7 arg8 harg8 hc0 hc1 x0 x1 x2 x3 xs0 xs1).2.1 S4x512x1.size (by sl_kernel_rfl) y
/-- What case B leaves in the normalizer's scratch. -/
def sout1_B_0 (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : ¬cond1_0 i) (hc1 : ¬cond1_1 i)
    (x0 : Vec F S4x512x1 .f32) (x1 : Vec F S4x1x512 .f32) (x2 : Vec F S4x1x1 .f32) (x3 : Vec F S4x4096x128 .bf16) (xs0 : Vec F S4x512x1 .f32) (xs1 : Vec F S4x512x128 .f32) : Vec F S4x512x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 xs0 xs1).2.1)
/-- Case B's stores into the weighted sum's scratch cover it. -/
theorem scover1_B_1 (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : ¬cond1_0 i) (hc1 : ¬cond1_1 i)
    (x0 : Vec F S4x512x1 .f32) (x1 : Vec F S4x1x512 .f32) (x2 : Vec F S4x1x1 .f32) (x3 : Vec F S4x4096x128 .bf16) (xs0 : Vec F S4x512x1 .f32) (xs1 : Vec F S4x512x128 .f32) (y : S4x512x128.Idx) :
    ∃ pc ∈ (kernelRun1_B c i arg2 harg2 arg3 harg3 arg4 harg4 arg5 harg5 arg6 harg6 arg7 harg7 arg8 harg8 hc0 hc1 x0 x1 x2 x3 xs0 xs1).2.2.1, y ∈ pc.1.set :=
  View.cover_of_tiledL (kernelRun1_B c i arg2 harg2 arg3 harg3 arg4 harg4 arg5 harg5 arg6 harg6 arg7 harg7 arg8 harg8 hc0 hc1 x0 x1 x2 x3 xs0 xs1).2.2.1 S4x512x128.size (by sl_kernel_rfl) y
/-- What case B leaves in the weighted sum's scratch. -/
def sout1_B_1 (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : ¬cond1_0 i) (hc1 : ¬cond1_1 i)
    (x0 : Vec F S4x512x1 .f32) (x1 : Vec F S4x1x512 .f32) (x2 : Vec F S4x1x1 .f32) (x3 : Vec F S4x4096x128 .bf16) (xs0 : Vec F S4x512x1 .f32) (xs1 : Vec F S4x512x128 .f32) : Vec F S4x512x128 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 x3 xs0 xs1).2.2.1)

/-- What case C leaves in the output window's staging buffer: its pieces read back. -/
def out1_C_4 (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : ¬cond1_0 i) (hc1 : cond1_1 i)
    (x0 : Vec F S4x512x1 .f32) (x1 : Vec F S4x1x512 .f32) (x2 : Vec F S4x1x1 .f32) (x3 : Vec F S4x4096x128 .bf16) (xs0 : Vec F S4x512x1 .f32) (xs1 : Vec F S4x512x128 .f32) : Vec F S4x512x128 .f32 :=
  VO1_4.read (Elt F) (VO1_4.writes (Elt F) VO1_4.junk (kernelRun1_C c i arg2 harg2 arg3 harg3 arg4 harg4 arg5 harg5 arg6 harg6 arg7 harg7 arg8 harg8 hc0 hc1 x0 x1 x2 x3 xs0 xs1).1)
/-- Case C's stores into the normalizer's scratch cover it. -/
theorem scover1_C_0 (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : ¬cond1_0 i) (hc1 : cond1_1 i)
    (x0 : Vec F S4x512x1 .f32) (x1 : Vec F S4x1x512 .f32) (x2 : Vec F S4x1x1 .f32) (x3 : Vec F S4x4096x128 .bf16) (xs0 : Vec F S4x512x1 .f32) (xs1 : Vec F S4x512x128 .f32) (y : S4x512x1.Idx) :
    ∃ pc ∈ (kernelRun1_C c i arg2 harg2 arg3 harg3 arg4 harg4 arg5 harg5 arg6 harg6 arg7 harg7 arg8 harg8 hc0 hc1 x0 x1 x2 x3 xs0 xs1).2.1, y ∈ pc.1.set :=
  View.cover_of_tiledL (kernelRun1_C c i arg2 harg2 arg3 harg3 arg4 harg4 arg5 harg5 arg6 harg6 arg7 harg7 arg8 harg8 hc0 hc1 x0 x1 x2 x3 xs0 xs1).2.1 S4x512x1.size (by sl_kernel_rfl) y
/-- What case C leaves in the normalizer's scratch. -/
def sout1_C_0 (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : ¬cond1_0 i) (hc1 : cond1_1 i)
    (x0 : Vec F S4x512x1 .f32) (x1 : Vec F S4x1x512 .f32) (x2 : Vec F S4x1x1 .f32) (x3 : Vec F S4x4096x128 .bf16) (xs0 : Vec F S4x512x1 .f32) (xs1 : Vec F S4x512x128 .f32) : Vec F S4x512x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 xs0 xs1).2.1)
/-- Case C's stores into the weighted sum's scratch cover it. -/
theorem scover1_C_1 (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : ¬cond1_0 i) (hc1 : cond1_1 i)
    (x0 : Vec F S4x512x1 .f32) (x1 : Vec F S4x1x512 .f32) (x2 : Vec F S4x1x1 .f32) (x3 : Vec F S4x4096x128 .bf16) (xs0 : Vec F S4x512x1 .f32) (xs1 : Vec F S4x512x128 .f32) (y : S4x512x128.Idx) :
    ∃ pc ∈ (kernelRun1_C c i arg2 harg2 arg3 harg3 arg4 harg4 arg5 harg5 arg6 harg6 arg7 harg7 arg8 harg8 hc0 hc1 x0 x1 x2 x3 xs0 xs1).2.2.1, y ∈ pc.1.set :=
  View.cover_of_tiledL (kernelRun1_C c i arg2 harg2 arg3 harg3 arg4 harg4 arg5 harg5 arg6 harg6 arg7 harg7 arg8 harg8 hc0 hc1 x0 x1 x2 x3 xs0 xs1).2.2.1 S4x512x128.size (by sl_kernel_rfl) y
/-- What case C leaves in the weighted sum's scratch. -/
def sout1_C_1 (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : ¬cond1_0 i) (hc1 : cond1_1 i)
    (x0 : Vec F S4x512x1 .f32) (x1 : Vec F S4x1x512 .f32) (x2 : Vec F S4x1x1 .f32) (x3 : Vec F S4x4096x128 .bf16) (xs0 : Vec F S4x512x1 .f32) (xs1 : Vec F S4x512x128 .f32) : Vec F S4x512x128 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 x3 xs0 xs1).2.2.1)
/-- Case C's one store into the output window's buffer covers it. -/
theorem cover1_C_4 (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : ¬cond1_0 i) (hc1 : cond1_1 i)
    (x0 : Vec F S4x512x1 .f32) (x1 : Vec F S4x1x512 .f32) (x2 : Vec F S4x1x1 .f32) (x3 : Vec F S4x4096x128 .bf16) (xs0 : Vec F S4x512x1 .f32) (xs1 : Vec F S4x512x128 .f32) (y : S4x512x128.Idx) :
    ∃ pc ∈ (kernelRun1_C c i arg2 harg2 arg3 harg3 arg4 harg4 arg5 harg5 arg6 harg6 arg7 harg7 arg8 harg8 hc0 hc1 x0 x1 x2 x3 xs0 xs1).1, y ∈ pc.1.set :=
  View.cover_of_tiledL (kernelRun1_C c i arg2 harg2 arg3 harg3 arg4 harg4 arg5 harg5 arg6 harg6 arg7 harg7 arg8 harg8 hc0 hc1 x0 x1 x2 x3 xs0 xs1).1 S4x512x128.size (by sl_kernel_rfl) y

/-! ## What the buffers hold after each point -/

/-- After the body at position n: the output window's buffer, the normalizer, the weighted sum. -/
def outsAt1 (c : Dev nD) : (n : ℕ) → n < cfg1.N → Vec F S4x512x128 .f32 × Vec F S4x512x1 .f32 × Vec F S4x512x128 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      if h1 : (n + 1) % 8 = 7 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 8 = 7 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2)

theorem outsAt1_A (c : Dev nD) (t : Fin cfg1.N) (h0 : t.val % 8 = 0) (h1 : ¬t.val % 8 = 7) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point every scoped buffer outside the call's staging
    at anything; afterwards the two accumulators at what the point before left, the rest at anything. -/
def PhiS (c : Dev nD) : (n : ℕ) → n ≤ cfg1.N → sProp 𝕄
  | 0, _ => Pipeline.ΦA spec1 c
  | n + 1, hn => iprop(chain1 (F := F) c (owns (c : Thread nD τ) scM1_0 fullShare ((outsAt1 V c n hn).2.1)) (owns (c : Thread nD τ) scM1_1 fullShare ((outsAt1 V c n hn).2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(chain1 (F := F) c (owns (c : Thread nD τ) scM1_0 fullShare ((outsAt1 V c n hn).2.1)) (owns (c : Thread nD τ) scM1_1 fullShare ((outsAt1 V c n hn).2.2)) ∗ (∃ r, prngReg c r)) := rfl

theorem PhiS_pos (c : Dev nD) (n : ℕ) (h : n ≤ cfg1.N) (hz : n ≠ 0) :
    PhiS V c n h = iprop(chain1 (F := F) c (owns (c : Thread nD τ) scM1_0 fullShare ((outsAt1 V c (n - 1) (by omega)).2.1)) (owns (c : Thread nD τ) scM1_1 fullShare ((outsAt1 V c (n - 1) (by omega)).2.2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem leaves1_0 (c : Dev nD) (t : Fin cfg1.N) : (dat1 V c).leavesExact 0 t = owns (c : Thread nD τ) (ms1_0 t) fullShare (iblk1 V c 0 t) := by
  unfold Dat.leavesExact; rw [liveAt1_0 (grid1.coords t), after1_0]
theorem leaves1_1 (c : Dev nD) (t : Fin cfg1.N) : (dat1 V c).leavesExact 1 t = owns (c : Thread nD τ) (ms1_1 t) fullShare (iblk1 V c 1 t) := by
  unfold Dat.leavesExact; rw [liveAt1_1 (grid1.coords t), after1_1]
theorem leaves1_2 (c : Dev nD) (t : Fin cfg1.N) : (dat1 V c).leavesExact 2 t = owns (c : Thread nD τ) (ms1_2 t) fullShare (iblk1 V c 2 t) := by
  unfold Dat.leavesExact; rw [liveAt1_2 (grid1.coords t), after1_2]
theorem leaves1_3 (c : Dev nD) (t : Fin cfg1.N) : (dat1 V c).leavesExact 3 t = owns (c : Thread nD τ) (ms1_3 t) fullShare (iblk1 V c 3 t) := by
  unfold Dat.leavesExact; rw [liveAt1_3 (grid1.coords t), after1_3]

set_option maxHeartbeats 8000000 in
/-- The body at any point: the inputs' memrefs hold their blocks; the closed forms say which case the point is in; the
    invariant hands the body the accumulators at what the point before left (at anything before a first key tile) and
    takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3]
  have hN : t.val < 64 := lt_of_lt_of_eq t.isLt (show cfg1.N = 64 from N_1)
  by_cases h0 : t.val % 8 = 0
  · have h1 : ¬ t.val % 8 = 7 := by omega
    · rw [Dat.leavesExact_idle (dat1 V c) 4 t (idleAt1_4 t (fun h => h1 ((hcond1_1 t).mp h))) (noFlush1_4 t (fun h => h1 ((hcond1_1 t).mp h)))]
      rw [outsAt1_A V c t h0 h1]
      unfold sout1_A_0 sout1_A_1; (try dsimp only)
      by_cases hz : t.val = 0
      · rw [PhiS_castSucc V c t, PhiS_zero V c _ _ hz, PhiA1_eq]
        iintro ⟨⟨Hch, Hg⟩, Ho, ⟨%d0, H0⟩, ⟨%d1, H1⟩, ⟨%d2, H2⟩, ⟨%d3, H3⟩, ⟨%d4, H4⟩⟩
        ihave Hch' := (chain1_elim c _ _) $$ Hch
        icases Hch' with ⟨Hrest, HS0, HS1⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [Hrest HS0 HS1 Hg]
        · isplitl [Hrest HS0 HS1]
          · iapply (chain1_intro c _ _)
            isplitl [Hrest]; · iexact Hrest
            isplitl [HS0]
            · unfold owns; iexists _; isplitr
              swap; · iexact HS0
              ipureintro; exact View.read_writes_of_cover _ _ _ _ _ (scover1_A_0 c _ _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨Hch, Hg⟩, Ho, ⟨%d0, H0⟩, ⟨%d1, H1⟩, ⟨%d2, H2⟩, ⟨%d3, H3⟩, ⟨%d4, H4⟩⟩
        ihave Hch' := (chain1_elim c _ _) $$ Hch
        icases Hch' with ⟨Hrest, HS0, HS1⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [Hrest HS0 HS1 Hg]
        · isplitl [Hrest HS0 HS1]
          · iapply (chain1_intro c _ _)
            isplitl [Hrest]; · iexact Hrest
            isplitl [HS0]
            · unfold owns; iexists _; isplitr
              swap; · iexact HS0
              ipureintro; exact View.read_writes_of_cover _ _ _ _ _ (scover1_A_0 c _ _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C_4 sout1_C_0 sout1_C_1; (try dsimp only)
      have hz : t.val ≠ 0 := by omega
      · rw [PhiS_castSucc V c t, PhiS_pos V c _ _ hz]
        iintro ⟨⟨Hch, Hg⟩, Ho, ⟨%d0, H0⟩, ⟨%d1, H1⟩, ⟨%d2, H2⟩, ⟨%d3, H3⟩, ⟨%d4, H4⟩⟩
        ihave Hch' := (chain1_elim c _ _) $$ Hch
        icases Hch' with ⟨Hrest, HS0, HS1⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) _ _).2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        iintro ⟨H0, H1, H2, H3, ⟨%e4, H4⟩, ⟨%es0, HS0⟩, ⟨%es1, HS1⟩⟩
        isplitl [Hrest HS0 HS1 Hg]
        · isplitl [Hrest HS0 HS1]
          · iapply (chain1_intro c _ _)
            isplitl [Hrest]; · iexact Hrest
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B_0 sout1_B_1; (try dsimp only)
      have hz : t.val ≠ 0 := by omega
      · rw [PhiS_castSucc V c t, PhiS_pos V c _ _ hz]
        iintro ⟨⟨Hch, Hg⟩, Ho, ⟨%d0, H0⟩, ⟨%d1, H1⟩, ⟨%d2, H2⟩, ⟨%d3, H3⟩, ⟨%d4, H4⟩⟩
        ihave Hch' := (chain1_elim c _ _) $$ Hch
        icases Hch' with ⟨Hrest, HS0, HS1⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [Hrest HS0 HS1 Hg]
        · isplitl [Hrest HS0 HS1]
          · iapply (chain1_intro c _ _)
            isplitl [Hrest]; · iexact Hrest
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulators' named contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl, PhiS_pos V c _ _ ht, PhiA1_eq]
  iintro ⟨Hch, Hg⟩
  ihave Hch' := (chain1_elim c _ _) $$ Hch
  icases Hch' with ⟨Hrest, HS0, HS1⟩
  isplitl [Hrest HS0 HS1]
  · iapply (chain1_intro c _ _)
    isplitl [Hrest]; · iexact Hrest
    isplitl [HS0]; · iexists _; iexact HS0
    iexists _; iexact HS1
  iexact Hg

end Cert.Kernel.Fr

end
-- ==== Proof.K.Run.lean ====
/-
  The run of the whole program: two stretches of host operations and two kernel calls, composed.  The buffers'
  contents at each boundary are a fold from the launch memory — a host stretch applies its operations, a kernel call
  leaves its arrays at what its write-backs leave and every other buffer as entered —; each call is entered from and
  left at "every unscoped buffer at the boundary's contents", and the launch theorem for a list of segments gives:
  every weakly fair execution terminates, and every unscoped buffer ends at the last boundary's contents.  From that,
  the three argument arrays end as launched, and the result array ends at what the second call's write-backs leave.
-/
import proofs.«135230_j47184510714010_2_alg».proof.Proof.Gen.Kernel.Launch
import proofs.«135230_j47184510714010_2_alg».proof.Proof.Gen.Kernel.Skeleton
import proofs.«135230_j47184510714010_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«135230_j47184510714010_2_alg».proof.Proof.K.R0
import proofs.«135230_j47184510714010_2_alg».proof.Proof.K.R1Frame
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the first host stretch (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second call's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second call's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The kernel calls as segments -/

set_option backward.isDefEq.respectTransparency.types false in
/-- The first call: entered from every unscoped buffer at W1, left at W2; its arrays split out of the unscoped buffers
    and put back at the exit contents; the generator register into the class invariant and out; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at W3, left at W4; the invariant carries the two accumulators
    between points and gives the class invariant back at the end. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (hin1 (V3 m ρ) c)
    unfold Pipeline.ΦA
    iintro ⟨Hp, -, Hr⟩
    isplitl [Hr]; · iexact Hr
    iexact Hp
  hout c := by
    refine (hout1 (V3 m ρ) c).trans (?_ : Pipeline.ΦA spec1 c ⊢ _)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program from memory m with zero counters terminates, nothing faulting, and every
    unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

/-- The result array ends at what the second call's write-backs leave; the arguments as launched. -/
theorem run_value : θ_run defs (onTc (τ := τ) (main (F := F))) ⟨m, fun _ => 0, ρ⟩ (fun r => ∀ c : Dev nD,
      r.2.mem ((c.tc : Thread nD τ).loc main_v8) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v8 (by decide))).trans (W4_arr m ρ c 4),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.Kernel.Fr

end
-- ==== Proof.KI.R0.lean ====
/-
  The projection kernel's half of the frame, at any float instance.  The first pallas_call has a grid of four
  points; at point t it is handed the block of rows 1024·t … 1024·t+1023 of h (all four graphs), the whole of W and
  the two halves of a as rows, and it stores three blocks: the projected features of those rows, and their two
  scores.  Stated at a parameter V — the buffers' contents when the call is entered —: each window's block at a
  point, what the body leaves in each output's staging buffer as the body's named arithmetic of the input blocks, the
  body's triple, and the proof data the pipeline's launch theorem takes.
-/
import proofs.«135230_j47184510714010_2_alg».proof.Proof.Gen.KernelIdeal.Launch
import proofs.«135230_j47184510714010_2_alg».proof.Proof.Gen.KernelIdeal.Skeleton
import proofs.«135230_j47184510714010_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: unfetched, the
    block index has not moved. One statement per window, the window a literal. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev rH : Rect S4x1024x128 := Rect.unit (s := S4x1024x128) ![0, 0, 0] S4x1024x128.size inb_S4x1024x128_S4x1024x128_0_0_0
abbrev rW : Rect S128x128 := Rect.unit (s := S128x128) ![0, 0] S128x128.size inb_S128x128_S128x128_0_0
abbrev rA : Rect S1x128 := Rect.unit (s := S1x128) ![0, 0] S1x128.size inb_S1x128_S1x128_0_0
abbrev rS : Rect S4x1024x1 := Rect.unit (s := S4x1024x1) ![0, 0, 0] S4x1024x1.size inb_S4x1024x1_S4x1024x1_0_0_0

/-- The projected-features block the body stores: its one store as a piece. -/
def out0_4 (x0 : Vec F S4x1024x128 .f32) (x1 : Vec F S128x128 .f32) : Vec F S4x1024x128 .bf16 :=
  View.canon [⟨rH, k0_pay2 (View.ld x0 rH) (View.ld x1 rW)⟩]
/-- The query-score block the body stores. -/
def out0_5 (x0 : Vec F S4x1024x128 .f32) (x1 : Vec F S128x128 .f32) (x2 : Vec F S1x128 .f32) : Vec F S4x1024x1 .f32 :=
  View.canon [⟨rS, k0_pay3 (View.ld x0 rH) (View.ld x1 rW) (View.ld x2 rA)⟩]
/-- The key-score block the body stores. -/
def out0_6 (x0 : Vec F S4x1024x128 .f32) (x1 : Vec F S128x128 .f32) (x3 : Vec F S1x128 .f32) : Vec F S4x1024x1 .f32 :=
  View.canon [⟨rS, k0_pay4 (View.ld x0 rH) (View.ld x1 rW) (View.ld x3 rA)⟩]

theorem cover0_4 (p0 : Vec F S4x1024x128 .bf16) (y : S4x1024x128.Idx) :
    ∃ pc ∈ ([⟨rH, p0⟩] : List (View.Piece (Elt F) S4x1024x128 .bf16)), y ∈ pc.1.set :=
  View.cover_of_tiled [⟨rH, p0⟩] S4x1024x128.size (by rfl) y
theorem cover0_5 (p0 : Vec F S4x1024x1 .f32) (y : S4x1024x1.Idx) :
    ∃ pc ∈ ([⟨rS, p0⟩] : List (View.Piece (Elt F) S4x1024x1 .f32)), y ∈ pc.1.set :=
  View.cover_of_tiled [⟨rS, p0⟩] S4x1024x1.size (by rfl) y

set_option maxHeartbeats 1000000 in
/-- The body on whole staging memrefs, the inputs' at contents x·, the outputs' at anything, runs to the
    continuation holding the inputs' as they were and each output's at the stored block. -/
theorem sound_kernel0 (c : Dev nD) (E : Set ℕ) (i : grid0.Coords)
    (arg1 : Memref sig .tc .vmem S4x1024x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S4x1024x128 .bf16) (harg5 : arg5.IsWhole) (arg6 : Memref sig .tc .vmem S4x1024x1 .f32) (harg6 : arg6.IsWhole)
    (arg7 : Memref sig .tc .vmem S4x1024x1 .f32) (harg7 : arg7.IsWhole)
    (x0 : Vec F S4x1024x128 .f32) (x1 : Vec F S128x128 .f32) (x2 x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x1) ∗ owns (c : Thread nD τ) arg6 fullShare (out0_5 x0 x1 x2)
            ∗ owns (c : Thread nD τ) arg7 fullShare (out0_6 x0 x1 x3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_5 _)

/-- The proof data of the first pipeline on core c: the arrays as the call finds them; after the body at point t
    each input's buffer at its block and each output's at the stored block; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.R1Base.lean ====
/-
  The attention kernel's half of the frame: what its three control cases share.  The second pallas_call has a grid of
  8 × 8 points, t = 8·qi + ki: at (qi, ki) the body is handed the query scores of rows 512·qi …, the key scores of
  columns 512·ki …, the largest key score of each graph and the whole projected-features array; it keeps two scratch
  accumulators — the normalizer and the weighted sum — which it zeroes when ki = 0, adds to at every point, and at
  ki = 7 divides and stores through its one output window, whose block index is qi.  Here: each window's block at a
  point, the two branch conditions in closed form over the grid, where the output window is idle, the staging and
  scratch memrefs, and the class invariant spelt over the scratch memrefs.
-/
import proofs.«135230_j47184510714010_2_alg».proof.Proof.Gen.KernelIdeal.Launch
import proofs.«135230_j47184510714010_2_alg».proof.Proof.Gen.KernelIdeal.Skeleton
import proofs.«135230_j47184510714010_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- "This is the first key tile" (ki = 0): the accumulators are zeroed. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last key tile" (ki = 7): the result is stored. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ i : grid1.Coords, cfg1.idle 0 i = false := fun _ => rfl
theorem liveAt1_1 : ∀ i : grid1.Coords, cfg1.idle 1 i = false := fun _ => rfl
theorem liveAt1_2 : ∀ i : grid1.Coords, cfg1.idle 2 i = false := fun _ => rfl
theorem liveAt1_3 : ∀ i : grid1.Coords, cfg1.idle 3 i = false := fun _ => rfl
/-- Away from the last key tile the output window is idle: nothing is stored into it and it is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The memrefs the body is called with -/

abbrev VO1_4 : View sig .tc .vmem S4x512x128 .f32 := (Memref.whole cc1_stg4_0 : Memref sig .tc .vmem S4x512x128 .f32).view
abbrev ms1_0 (t : Fin cfg1.N) : Memref sig .tc .vmem S4x512x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x1x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x1x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4x4096x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4x512x128 .f32 := win1_4.stage (cfg1.slots t 4)
abbrev hs1_4 (t : Fin cfg1.N) : (ms1_4 t).IsWhole := hstage1_4 ((cfg1.slots t 4).cast nbuf1_4)
/-- The normalizer's scratch. -/
abbrev scM1_0 : Memref sig .tc .vmem S4x512x1 .f32 := Memref.whole cc1_scratch0
/-- The weighted sum's scratch. -/
abbrev scM1_1 : Memref sig .tc .vmem S4x512x128 .f32 := Memref.whole cc1_scratch1
abbrev VS1_0 : View sig .tc .vmem S4x512x1 .f32 := scM1_0.view
abbrev VS1_1 : View sig .tc .vmem S4x512x128 .f32 := scM1_1.view

/-- The first call's staging buffers, which the second call's body never touches: each whole at some contents. -/
def restS1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The scoped buffers outside the second call's staging, with the two scratch operands stated by X and Y. -/
def chain1 (c : Dev nD) (X Y : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ X ∗ Y)

theorem chain1_elim (c : Dev nD) (X Y : sProp 𝕄) : chain1 (F := F) c X Y ⊢ iprop(restS1 (F := F) c ∗ X ∗ Y) := by
  unfold chain1 restS1
  iintro ⟨A0, A1, A2, A3, A4, A5, A6, A7, A8, A9, A10, HX, HY⟩
  isplitl [A0 A1 A2 A3 A4 A5 A6 A7 A8 A9 A10]
  ·
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact A10
  isplitl [HX]; · iexact HX
  iexact HY

theorem chain1_intro (c : Dev nD) (X Y : sProp 𝕄) : iprop(restS1 (F := F) c ∗ X ∗ Y) ⊢ chain1 (F := F) c X Y := by
  unfold chain1 restS1
  iintro ⟨⟨A0, A1, A2, A3, A4, A5, A6, A7, A8, A9, A10⟩, HX, HY⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [HX]; · iexact HX
  iexact HY

/-- The class invariant of the second pipeline with the two scratch operands as memrefs owned at some contents. -/
theorem PhiA1_eq (c : Dev nD) :
    (Pipeline.ΦA spec1 c : sProp 𝕄)
      = iprop(chain1 (F := F) c iprop(∃ d, owns (c : Thread nD τ) scM1_0 fullShare d) iprop(∃ d, owns (c : Thread nD τ) scM1_1 fullShare d) ∗ (∃ r, prngReg c r)) := by
  unfold Pipeline.ΦA chain1; rw [scopedRest1_eq]; simp only [scM1_0, scM1_1, owns_whole]; try rfl

end Cert.KernelIdeal.Fr

end
-- ==== Proof.KI.R1RunA.lean ====
/-
  The attention kernel's body run once, whole, in the case of the first key tile of a row block (the accumulators are zeroed, then added to; nothing is stored through the output window): on whole memrefs — the four inputs' at their
  contents, the output's at anything, the two accumulators' at anything — it runs to the continuation
  holding the inputs' as they were and each written buffer with its stores as pieces; the pieces are the witness the run
  finds.
-/
import proofs.«135230_j47184510714010_2_alg».proof.Proof.Gen.KernelIdeal.Launch
import proofs.«135230_j47184510714010_2_alg».proof.Proof.Gen.KernelIdeal.Skeleton
import proofs.«135230_j47184510714010_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«135230_j47184510714010_2_alg».proof.Proof.KI.R1Base
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : cond1_0 i) (hc1 : ¬cond1_1 i)
    (x0 : Vec F S4x512x1 .f32) (x1 : Vec F S4x1x512 .f32) (x2 : Vec F S4x1x1 .f32) (x3 : Vec F S4x4096x128 .bf16) :
    Σ' (L4 : List (View.Piece (Elt F) S4x512x128 .f32)) (LS0 : List (View.Piece (Elt F) S4x512x1 .f32)), { LS1 : List (View.Piece (Elt F) S4x512x128 .f32) //
      ∀ (xi4 : Vec F S4x512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4;
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Fr

end
-- ==== Proof.KI.R1RunB.lean ====
/-
  The attention kernel's body run once, whole, in the case of a middle key tile (the accumulators are added to; nothing is stored through the output window): on whole memrefs — the four inputs' at their
  contents, the output's at anything, the two accumulators' at what the point before left — it runs to the continuation
  holding the inputs' as they were and each written buffer with its stores as pieces; the pieces are the witness the run
  finds.
-/
import proofs.«135230_j47184510714010_2_alg».proof.Proof.Gen.KernelIdeal.Launch
import proofs.«135230_j47184510714010_2_alg».proof.Proof.Gen.KernelIdeal.Skeleton
import proofs.«135230_j47184510714010_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«135230_j47184510714010_2_alg».proof.Proof.KI.R1RunA
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : ¬cond1_0 i) (hc1 : ¬cond1_1 i)
    (x0 : Vec F S4x512x1 .f32) (x1 : Vec F S4x1x512 .f32) (x2 : Vec F S4x1x1 .f32) (x3 : Vec F S4x4096x128 .bf16) (xs0 : Vec F S4x512x1 .f32) (xs1 : Vec F S4x512x128 .f32) :
    Σ' (L4 : List (View.Piece (Elt F) S4x512x128 .f32)) (LS0 : List (View.Piece (Elt F) S4x512x1 .f32)), { LS1 : List (View.Piece (Elt F) S4x512x128 .f32) //
      ∀ (xi4 : Vec F S4x512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Fr

end
-- ==== Proof.KI.R1RunC.lean ====
/-
  The attention kernel's body run once, whole, in the case of the last key tile (the accumulators are added to, then the quotient's ELU is stored through the output window): on whole memrefs — the four inputs' at their
  contents, the output's at anything, the two accumulators' at what the point before left — it runs to the continuation
  holding the inputs' as they were and each written buffer with its stores as pieces; the pieces are the witness the run
  finds.
-/
import proofs.«135230_j47184510714010_2_alg».proof.Proof.Gen.KernelIdeal.Launch
import proofs.«135230_j47184510714010_2_alg».proof.Proof.Gen.KernelIdeal.Skeleton
import proofs.«135230_j47184510714010_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«135230_j47184510714010_2_alg».proof.Proof.KI.R1RunB
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : ¬cond1_0 i) (hc1 : cond1_1 i)
    (x0 : Vec F S4x512x1 .f32) (x1 : Vec F S4x1x512 .f32) (x2 : Vec F S4x1x1 .f32) (x3 : Vec F S4x4096x128 .bf16) (xs0 : Vec F S4x512x1 .f32) (xs1 : Vec F S4x512x128 .f32) :
    Σ' (L4 : List (View.Piece (Elt F) S4x512x128 .f32)) (LS0 : List (View.Piece (Elt F) S4x512x1 .f32)), { LS1 : List (View.Piece (Elt F) S4x512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.KernelIdeal.Fr

end
-- ==== Proof.KI.R1Frame.lean ====
/-
  The attention kernel's half of the frame, assembled.  What the output window's buffer and the two accumulators
  hold after each grid point, by recursion on the point: the case the point is in — first, middle or last key tile —
  run on the point's input blocks and, past the first tile, on what the point before left in the accumulators.  The
  region's invariant carries the accumulators at those contents from point to point; the pipeline's proof data, the
  body obligation at every point, and what the invariant takes in and gives back.
-/
import proofs.«135230_j47184510714010_2_alg».proof.Proof.Gen.KernelIdeal.Launch
import proofs.«135230_j47184510714010_2_alg».proof.Proof.Gen.KernelIdeal.Skeleton
import proofs.«135230_j47184510714010_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«135230_j47184510714010_2_alg».proof.Proof.KI.R1RunC
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output window's staging buffer: its pieces read back (none: a placeholder nothing consults, the window being idle there). -/
def out1_A_4 (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : cond1_0 i) (hc1 : ¬cond1_1 i)
    (x0 : Vec F S4x512x1 .f32) (x1 : Vec F S4x1x512 .f32) (x2 : Vec F S4x1x1 .f32) (x3 : Vec F S4x4096x128 .bf16) : Vec F S4x512x128 .f32 :=
  VO1_4.read (Elt F) (VO1_4.writes (Elt F) VO1_4.junk (kernelRun1_A c i arg2 harg2 arg3 harg3 arg4 harg4 arg5 harg5 arg6 harg6 arg7 harg7 arg8 harg8 hc0 hc1 x0 x1 x2 x3).1)
/-- Case A's stores into the normalizer's scratch cover it. -/
theorem scover1_A_0 (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : cond1_0 i) (hc1 : ¬cond1_1 i)
    (x0 : Vec F S4x512x1 .f32) (x1 : Vec F S4x1x512 .f32) (x2 : Vec F S4x1x1 .f32) (x3 : Vec F S4x4096x128 .bf16) (y : S4x512x1.Idx) :
    ∃ pc ∈ (kernelRun1_A c i arg2 harg2 arg3 harg3 arg4 harg4 arg5 harg5 arg6 harg6 arg7 harg7 arg8 harg8 hc0 hc1 x0 x1 x2 x3).2.1, y ∈ pc.1.set :=
  View.cover_of_tiledL (kernelRun1_A c i arg2 harg2 arg3 harg3 arg4 harg4 arg5 harg5 arg6 harg6 arg7 harg7 arg8 harg8 hc0 hc1 x0 x1 x2 x3).2.1 S4x512x1.size (by sl_kernel_rfl) y
/-- What case A leaves in the normalizer's scratch. -/
def sout1_A_0 (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : cond1_0 i) (hc1 : ¬cond1_1 i)
    (x0 : Vec F S4x512x1 .f32) (x1 : Vec F S4x1x512 .f32) (x2 : Vec F S4x1x1 .f32) (x3 : Vec F S4x4096x128 .bf16) : Vec F S4x512x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3).2.1)
/-- Case A's stores into the weighted sum's scratch cover it. -/
theorem scover1_A_1 (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : cond1_0 i) (hc1 : ¬cond1_1 i)
    (x0 : Vec F S4x512x1 .f32) (x1 : Vec F S4x1x512 .f32) (x2 : Vec F S4x1x1 .f32) (x3 : Vec F S4x4096x128 .bf16) (y : S4x512x128.Idx) :
    ∃ pc ∈ (kernelRun1_A c i arg2 harg2 arg3 harg3 arg4 harg4 arg5 harg5 arg6 harg6 arg7 harg7 arg8 harg8 hc0 hc1 x0 x1 x2 x3).2.2.1, y ∈ pc.1.set :=
  View.cover_of_tiledL (kernelRun1_A c i arg2 harg2 arg3 harg3 arg4 harg4 arg5 harg5 arg6 harg6 arg7 harg7 arg8 harg8 hc0 hc1 x0 x1 x2 x3).2.2.1 S4x512x128.size (by sl_kernel_rfl) y
/-- What case A leaves in the weighted sum's scratch. -/
def sout1_A_1 (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : cond1_0 i) (hc1 : ¬cond1_1 i)
    (x0 : Vec F S4x512x1 .f32) (x1 : Vec F S4x1x512 .f32) (x2 : Vec F S4x1x1 .f32) (x3 : Vec F S4x4096x128 .bf16) : Vec F S4x512x128 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2 x3).2.2.1)

/-- What case B leaves in the output window's staging buffer: its pieces read back (none: a placeholder nothing consults, the window being idle there). -/
def out1_B_4 (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : ¬cond1_0 i) (hc1 : ¬cond1_1 i)
    (x0 : Vec F S4x512x1 .f32) (x1 : Vec F S4x1x512 .f32) (x2 : Vec F S4x1x1 .f32) (x3 : Vec F S4x4096x128 .bf16) (xs0 : Vec F S4x512x1 .f32) (xs1 : Vec F S4x512x128 .f32) : Vec F S4x512x128 .f32 :=
  VO1_4.read (Elt F) (VO1_4.writes (Elt F) VO1_4.junk (kernelRun1_B c i arg2 harg2 arg3 harg3 arg4 harg4 arg5 harg5 arg6 harg6 arg7 harg7 arg8 harg8 hc0 hc1 x0 x1 x2 x3 xs0 xs1).1)
/-- Case B's stores into the normalizer's scratch cover it. -/
theorem scover1_B_0 (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : ¬cond1_0 i) (hc1 : ¬cond1_1 i)
    (x0 : Vec F S4x512x1 .f32) (x1 : Vec F S4x1x512 .f32) (x2 : Vec F S4x1x1 .f32) (x3 : Vec F S4x4096x128 .bf16) (xs0 : Vec F S4x512x1 .f32) (xs1 : Vec F S4x512x128 .f32) (y : S4x512x1.Idx) :
    ∃ pc ∈ (kernelRun1_B c i arg2 harg2 arg3 harg3 arg4 harg4 arg5 harg5 arg6 harg6 arg7 harg7 arg8 harg8 hc0 hc1 x0 x1 x2 x3 xs0 xs1).2.1, y ∈ pc.1.set :=
  View.cover_of_tiledL (kernelRun1_B c i arg2 harg2 arg3 harg3 arg4 harg4 arg5 harg5 arg6 harg6 arg7 harg7 arg8 harg8 hc0 hc1 x0 x1 x2 x3 xs0 xs1).2.1 S4x512x1.size (by sl_kernel_rfl) y
/-- What case B leaves in the normalizer's scratch. -/
def sout1_B_0 (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : ¬cond1_0 i) (hc1 : ¬cond1_1 i)
    (x0 : Vec F S4x512x1 .f32) (x1 : Vec F S4x1x512 .f32) (x2 : Vec F S4x1x1 .f32) (x3 : Vec F S4x4096x128 .bf16) (xs0 : Vec F S4x512x1 .f32) (xs1 : Vec F S4x512x128 .f32) : Vec F S4x512x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 xs0 xs1).2.1)
/-- Case B's stores into the weighted sum's scratch cover it. -/
theorem scover1_B_1 (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : ¬cond1_0 i) (hc1 : ¬cond1_1 i)
    (x0 : Vec F S4x512x1 .f32) (x1 : Vec F S4x1x512 .f32) (x2 : Vec F S4x1x1 .f32) (x3 : Vec F S4x4096x128 .bf16) (xs0 : Vec F S4x512x1 .f32) (xs1 : Vec F S4x512x128 .f32) (y : S4x512x128.Idx) :
    ∃ pc ∈ (kernelRun1_B c i arg2 harg2 arg3 harg3 arg4 harg4 arg5 harg5 arg6 harg6 arg7 harg7 arg8 harg8 hc0 hc1 x0 x1 x2 x3 xs0 xs1).2.2.1, y ∈ pc.1.set :=
  View.cover_of_tiledL (kernelRun1_B c i arg2 harg2 arg3 harg3 arg4 harg4 arg5 harg5 arg6 harg6 arg7 harg7 arg8 harg8 hc0 hc1 x0 x1 x2 x3 xs0 xs1).2.2.1 S4x512x128.size (by sl_kernel_rfl) y
/-- What case B leaves in the weighted sum's scratch. -/
def sout1_B_1 (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : ¬cond1_0 i) (hc1 : ¬cond1_1 i)
    (x0 : Vec F S4x512x1 .f32) (x1 : Vec F S4x1x512 .f32) (x2 : Vec F S4x1x1 .f32) (x3 : Vec F S4x4096x128 .bf16) (xs0 : Vec F S4x512x1 .f32) (xs1 : Vec F S4x512x128 .f32) : Vec F S4x512x128 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 x3 xs0 xs1).2.2.1)

/-- What case C leaves in the output window's staging buffer: its pieces read back. -/
def out1_C_4 (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : ¬cond1_0 i) (hc1 : cond1_1 i)
    (x0 : Vec F S4x512x1 .f32) (x1 : Vec F S4x1x512 .f32) (x2 : Vec F S4x1x1 .f32) (x3 : Vec F S4x4096x128 .bf16) (xs0 : Vec F S4x512x1 .f32) (xs1 : Vec F S4x512x128 .f32) : Vec F S4x512x128 .f32 :=
  VO1_4.read (Elt F) (VO1_4.writes (Elt F) VO1_4.junk (kernelRun1_C c i arg2 harg2 arg3 harg3 arg4 harg4 arg5 harg5 arg6 harg6 arg7 harg7 arg8 harg8 hc0 hc1 x0 x1 x2 x3 xs0 xs1).1)
/-- Case C's stores into the normalizer's scratch cover it. -/
theorem scover1_C_0 (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : ¬cond1_0 i) (hc1 : cond1_1 i)
    (x0 : Vec F S4x512x1 .f32) (x1 : Vec F S4x1x512 .f32) (x2 : Vec F S4x1x1 .f32) (x3 : Vec F S4x4096x128 .bf16) (xs0 : Vec F S4x512x1 .f32) (xs1 : Vec F S4x512x128 .f32) (y : S4x512x1.Idx) :
    ∃ pc ∈ (kernelRun1_C c i arg2 harg2 arg3 harg3 arg4 harg4 arg5 harg5 arg6 harg6 arg7 harg7 arg8 harg8 hc0 hc1 x0 x1 x2 x3 xs0 xs1).2.1, y ∈ pc.1.set :=
  View.cover_of_tiledL (kernelRun1_C c i arg2 harg2 arg3 harg3 arg4 harg4 arg5 harg5 arg6 harg6 arg7 harg7 arg8 harg8 hc0 hc1 x0 x1 x2 x3 xs0 xs1).2.1 S4x512x1.size (by sl_kernel_rfl) y
/-- What case C leaves in the normalizer's scratch. -/
def sout1_C_0 (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : ¬cond1_0 i) (hc1 : cond1_1 i)
    (x0 : Vec F S4x512x1 .f32) (x1 : Vec F S4x1x512 .f32) (x2 : Vec F S4x1x1 .f32) (x3 : Vec F S4x4096x128 .bf16) (xs0 : Vec F S4x512x1 .f32) (xs1 : Vec F S4x512x128 .f32) : Vec F S4x512x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 xs0 xs1).2.1)
/-- Case C's stores into the weighted sum's scratch cover it. -/
theorem scover1_C_1 (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : ¬cond1_0 i) (hc1 : cond1_1 i)
    (x0 : Vec F S4x512x1 .f32) (x1 : Vec F S4x1x512 .f32) (x2 : Vec F S4x1x1 .f32) (x3 : Vec F S4x4096x128 .bf16) (xs0 : Vec F S4x512x1 .f32) (xs1 : Vec F S4x512x128 .f32) (y : S4x512x128.Idx) :
    ∃ pc ∈ (kernelRun1_C c i arg2 harg2 arg3 harg3 arg4 harg4 arg5 harg5 arg6 harg6 arg7 harg7 arg8 harg8 hc0 hc1 x0 x1 x2 x3 xs0 xs1).2.2.1, y ∈ pc.1.set :=
  View.cover_of_tiledL (kernelRun1_C c i arg2 harg2 arg3 harg3 arg4 harg4 arg5 harg5 arg6 harg6 arg7 harg7 arg8 harg8 hc0 hc1 x0 x1 x2 x3 xs0 xs1).2.2.1 S4x512x128.size (by sl_kernel_rfl) y
/-- What case C leaves in the weighted sum's scratch. -/
def sout1_C_1 (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : ¬cond1_0 i) (hc1 : cond1_1 i)
    (x0 : Vec F S4x512x1 .f32) (x1 : Vec F S4x1x512 .f32) (x2 : Vec F S4x1x1 .f32) (x3 : Vec F S4x4096x128 .bf16) (xs0 : Vec F S4x512x1 .f32) (xs1 : Vec F S4x512x128 .f32) : Vec F S4x512x128 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 x3 xs0 xs1).2.2.1)
/-- Case C's one store into the output window's buffer covers it. -/
theorem cover1_C_4 (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : ¬cond1_0 i) (hc1 : cond1_1 i)
    (x0 : Vec F S4x512x1 .f32) (x1 : Vec F S4x1x512 .f32) (x2 : Vec F S4x1x1 .f32) (x3 : Vec F S4x4096x128 .bf16) (xs0 : Vec F S4x512x1 .f32) (xs1 : Vec F S4x512x128 .f32) (y : S4x512x128.Idx) :
    ∃ pc ∈ (kernelRun1_C c i arg2 harg2 arg3 harg3 arg4 harg4 arg5 harg5 arg6 harg6 arg7 harg7 arg8 harg8 hc0 hc1 x0 x1 x2 x3 xs0 xs1).1, y ∈ pc.1.set :=
  View.cover_of_tiledL (kernelRun1_C c i arg2 harg2 arg3 harg3 arg4 harg4 arg5 harg5 arg6 harg6 arg7 harg7 arg8 harg8 hc0 hc1 x0 x1 x2 x3 xs0 xs1).1 S4x512x128.size (by sl_kernel_rfl) y

/-! ## What the buffers hold after each point -/

/-- After the body at position n: the output window's buffer, the normalizer, the weighted sum. -/
def outsAt1 (c : Dev nD) : (n : ℕ) → n < cfg1.N → Vec F S4x512x128 .f32 × Vec F S4x512x1 .f32 × Vec F S4x512x128 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      if h1 : (n + 1) % 8 = 7 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 8 = 7 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2)

theorem outsAt1_A (c : Dev nD) (t : Fin cfg1.N) (h0 : t.val % 8 = 0) (h1 : ¬t.val % 8 = 7) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point every scoped buffer outside the call's staging
    at anything; afterwards the two accumulators at what the point before left, the rest at anything. -/
def PhiS (c : Dev nD) : (n : ℕ) → n ≤ cfg1.N → sProp 𝕄
  | 0, _ => Pipeline.ΦA spec1 c
  | n + 1, hn => iprop(chain1 (F := F) c (owns (c : Thread nD τ) scM1_0 fullShare ((outsAt1 V c n hn).2.1)) (owns (c : Thread nD τ) scM1_1 fullShare ((outsAt1 V c n hn).2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(chain1 (F := F) c (owns (c : Thread nD τ) scM1_0 fullShare ((outsAt1 V c n hn).2.1)) (owns (c : Thread nD τ) scM1_1 fullShare ((outsAt1 V c n hn).2.2)) ∗ (∃ r, prngReg c r)) := rfl

theorem PhiS_pos (c : Dev nD) (n : ℕ) (h : n ≤ cfg1.N) (hz : n ≠ 0) :
    PhiS V c n h = iprop(chain1 (F := F) c (owns (c : Thread nD τ) scM1_0 fullShare ((outsAt1 V c (n - 1) (by omega)).2.1)) (owns (c : Thread nD τ) scM1_1 fullShare ((outsAt1 V c (n - 1) (by omega)).2.2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem leaves1_0 (c : Dev nD) (t : Fin cfg1.N) : (dat1 V c).leavesExact 0 t = owns (c : Thread nD τ) (ms1_0 t) fullShare (iblk1 V c 0 t) := by
  unfold Dat.leavesExact; rw [liveAt1_0 (grid1.coords t), after1_0]
theorem leaves1_1 (c : Dev nD) (t : Fin cfg1.N) : (dat1 V c).leavesExact 1 t = owns (c : Thread nD τ) (ms1_1 t) fullShare (iblk1 V c 1 t) := by
  unfold Dat.leavesExact; rw [liveAt1_1 (grid1.coords t), after1_1]
theorem leaves1_2 (c : Dev nD) (t : Fin cfg1.N) : (dat1 V c).leavesExact 2 t = owns (c : Thread nD τ) (ms1_2 t) fullShare (iblk1 V c 2 t) := by
  unfold Dat.leavesExact; rw [liveAt1_2 (grid1.coords t), after1_2]
theorem leaves1_3 (c : Dev nD) (t : Fin cfg1.N) : (dat1 V c).leavesExact 3 t = owns (c : Thread nD τ) (ms1_3 t) fullShare (iblk1 V c 3 t) := by
  unfold Dat.leavesExact; rw [liveAt1_3 (grid1.coords t), after1_3]

set_option maxHeartbeats 8000000 in
/-- The body at any point: the inputs' memrefs hold their blocks; the closed forms say which case the point is in; the
    invariant hands the body the accumulators at what the point before left (at anything before a first key tile) and
    takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3]
  have hN : t.val < 64 := lt_of_lt_of_eq t.isLt (show cfg1.N = 64 from N_1)
  by_cases h0 : t.val % 8 = 0
  · have h1 : ¬ t.val % 8 = 7 := by omega
    · rw [Dat.leavesExact_idle (dat1 V c) 4 t (idleAt1_4 t (fun h => h1 ((hcond1_1 t).mp h))) (noFlush1_4 t (fun h => h1 ((hcond1_1 t).mp h)))]
      rw [outsAt1_A V c t h0 h1]
      unfold sout1_A_0 sout1_A_1; (try dsimp only)
      by_cases hz : t.val = 0
      · rw [PhiS_castSucc V c t, PhiS_zero V c _ _ hz, PhiA1_eq]
        iintro ⟨⟨Hch, Hg⟩, Ho, ⟨%d0, H0⟩, ⟨%d1, H1⟩, ⟨%d2, H2⟩, ⟨%d3, H3⟩, ⟨%d4, H4⟩⟩
        ihave Hch' := (chain1_elim c _ _) $$ Hch
        icases Hch' with ⟨Hrest, HS0, HS1⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [Hrest HS0 HS1 Hg]
        · isplitl [Hrest HS0 HS1]
          · iapply (chain1_intro c _ _)
            isplitl [Hrest]; · iexact Hrest
            isplitl [HS0]
            · unfold owns; iexists _; isplitr
              swap; · iexact HS0
              ipureintro; exact View.read_writes_of_cover _ _ _ _ _ (scover1_A_0 c _ _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨Hch, Hg⟩, Ho, ⟨%d0, H0⟩, ⟨%d1, H1⟩, ⟨%d2, H2⟩, ⟨%d3, H3⟩, ⟨%d4, H4⟩⟩
        ihave Hch' := (chain1_elim c _ _) $$ Hch
        icases Hch' with ⟨Hrest, HS0, HS1⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [Hrest HS0 HS1 Hg]
        · isplitl [Hrest HS0 HS1]
          · iapply (chain1_intro c _ _)
            isplitl [Hrest]; · iexact Hrest
            isplitl [HS0]
            · unfold owns; iexists _; isplitr
              swap; · iexact HS0
              ipureintro; exact View.read_writes_of_cover _ _ _ _ _ (scover1_A_0 c _ _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C_4 sout1_C_0 sout1_C_1; (try dsimp only)
      have hz : t.val ≠ 0 := by omega
      · rw [PhiS_castSucc V c t, PhiS_pos V c _ _ hz]
        iintro ⟨⟨Hch, Hg⟩, Ho, ⟨%d0, H0⟩, ⟨%d1, H1⟩, ⟨%d2, H2⟩, ⟨%d3, H3⟩, ⟨%d4, H4⟩⟩
        ihave Hch' := (chain1_elim c _ _) $$ Hch
        icases Hch' with ⟨Hrest, HS0, HS1⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) _ _).2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        iintro ⟨H0, H1, H2, H3, ⟨%e4, H4⟩, ⟨%es0, HS0⟩, ⟨%es1, HS1⟩⟩
        isplitl [Hrest HS0 HS1 Hg]
        · isplitl [Hrest HS0 HS1]
          · iapply (chain1_intro c _ _)
            isplitl [Hrest]; · iexact Hrest
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B_0 sout1_B_1; (try dsimp only)
      have hz : t.val ≠ 0 := by omega
      · rw [PhiS_castSucc V c t, PhiS_pos V c _ _ hz]
        iintro ⟨⟨Hch, Hg⟩, Ho, ⟨%d0, H0⟩, ⟨%d1, H1⟩, ⟨%d2, H2⟩, ⟨%d3, H3⟩, ⟨%d4, H4⟩⟩
        ihave Hch' := (chain1_elim c _ _) $$ Hch
        icases Hch' with ⟨Hrest, HS0, HS1⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [Hrest HS0 HS1 Hg]
        · isplitl [Hrest HS0 HS1]
          · iapply (chain1_intro c _ _)
            isplitl [Hrest]; · iexact Hrest
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulators' named contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl, PhiS_pos V c _ _ ht, PhiA1_eq]
  iintro ⟨Hch, Hg⟩
  ihave Hch' := (chain1_elim c _ _) $$ Hch
  icases Hch' with ⟨Hrest, HS0, HS1⟩
  isplitl [Hrest HS0 HS1]
  · iapply (chain1_intro c _ _)
    isplitl [Hrest]; · iexact Hrest
    isplitl [HS0]; · iexists _; iexact HS0
    iexists _; iexact HS1
  iexact Hg

end Cert.KernelIdeal.Fr

end
-- ==== Proof.KI.Run.lean ====
/-
  The run of the whole program: two stretches of host operations and two kernel calls, composed.  The buffers'
  contents at each boundary are a fold from the launch memory — a host stretch applies its operations, a kernel call
  leaves its arrays at what its write-backs leave and every other buffer as entered —; each call is entered from and
  left at "every unscoped buffer at the boundary's contents", and the launch theorem for a list of segments gives:
  every weakly fair execution terminates, and every unscoped buffer ends at the last boundary's contents.  From that,
  the three argument arrays end as launched, and the result array ends at what the second call's write-backs leave.
-/
import proofs.«135230_j47184510714010_2_alg».proof.Proof.Gen.KernelIdeal.Launch
import proofs.«135230_j47184510714010_2_alg».proof.Proof.Gen.KernelIdeal.Skeleton
import proofs.«135230_j47184510714010_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«135230_j47184510714010_2_alg».proof.Proof.KI.R0
import proofs.«135230_j47184510714010_2_alg».proof.Proof.KI.R1Frame
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the first host stretch (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second call's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second call's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The kernel calls as segments -/

set_option backward.isDefEq.respectTransparency.types false in
/-- The first call: entered from every unscoped buffer at W1, left at W2; its arrays split out of the unscoped buffers
    and put back at the exit contents; the generator register into the class invariant and out; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at W3, left at W4; the invariant carries the two accumulators
    between points and gives the class invariant back at the end. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (hin1 (V3 m ρ) c)
    unfold Pipeline.ΦA
    iintro ⟨Hp, -, Hr⟩
    isplitl [Hr]; · iexact Hr
    iexact Hp
  hout c := by
    refine (hout1 (V3 m ρ) c).trans (?_ : Pipeline.ΦA spec1 c ⊢ _)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program from memory m with zero counters terminates, nothing faulting, and every
    unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

/-- The result array ends at what the second call's write-backs leave; the arguments as launched. -/
theorem run_value : θ_run defs (onTc (τ := τ) (main (F := F))) ⟨m, fun _ => 0, ρ⟩ (fun r => ∀ c : Dev nD,
      r.2.mem ((c.tc : Thread nD τ).loc main_v8) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v8 (by decide))).trans (W4_arr m ρ c 4),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.KernelIdeal.Fr

end
-- ==== Proof.RefTerm.lean ====
/-
  The reference program's result as one composed term of its three arguments, built up through named intermediates: the
  projected features, the two halves of the attention vector, the two score columns, the sums of a query score and a key
  score, the logits through the leaky rectifier, each row's maximum, the shifted exponentials, their row sums, the
  normalized weights, the weighted averages and the ELU of those.
-/
import proofs.«135230_j47184510714010_2_alg».proof.Proof.Gen.ReferenceIdeal
import Idealize.ShloMosaic.PureOps.Ideal

noncomputable section

namespace Cert.ReferenceIdeal.RefValue

open Cert.ReferenceIdeal Idealize.ShloMosaic
open Cert.ReferenceIdeal.Facts₀

section Values

variable (H : FVec Ideal S4x4096x128 .f32) (Wm : FVec Ideal S128x128 .f32) (A : FVec Ideal S256x1 .f32)

/-- The projected features h·W. -/
def whV : FVec Ideal S4x4096x128 .f32 := Host.dotGeneral dot_S4x4096x128_S128x128_S4x4096x128_2_0_01_1_n_n none H Wm
/-- The first half of the attention vector, as a column. -/
def a1V : FVec Ideal S128x1 .f32 := extractStridedSlice S128x1 ![0, 0] A slices_S256x1_S128x1_0_0
/-- The second half of the attention vector, as a column. -/
def a2V : FVec Ideal S128x1 .f32 := extractStridedSlice S128x1 ![128, 0] A slices_S256x1_S128x1_128_0
/-- The nodes' scores as queries, a column per graph. -/
def s1V : FVec Ideal S4x4096x1 .f32 := Host.dotGeneral dot_S4x4096x128_S128x1_S4x4096x1_2_0_01_1_n_n none (whV H Wm) (a1V A)
/-- The nodes' scores as keys, a column per graph. -/
def s2V : FVec Ideal S4x4096x1 .f32 := Host.dotGeneral dot_S4x4096x128_S128x1_S4x4096x1_2_0_01_1_n_n none (whV H Wm) (a2V A)
/-- Query score plus key score, for every pair of nodes of a graph. -/
def sumV : FVec Ideal S4x4096x4096 .f32 := addf (broadcastInDim S4x4096x4096 ![0, 1, 2] bcast_S4x4096x1_S4x4096x4096_0_1_2 (s1V H Wm A)) (broadcastInDim S4x4096x4096 ![0, 1, 2] bcast_S4x1x4096_S4x4096x4096_0_1_2 (transpose S4x1x4096 [0, 2, 1] (s2V H Wm A) transposes_S4x4096x1_S4x1x4096_0_2_1))
/-- The logits: the leaky rectifier of the sums. -/
def logitV : FVec Ideal S4x4096x4096 .f32 := select (cmpf .oge (sumV H Wm A) (broadcastInDim S4x4096x4096 ![] bcast_S_S4x4096x4096 (constant (F := Ideal) S_ .f32 0x00000000#32))) (sumV H Wm A) (mulf (broadcastInDim S4x4096x4096 ![] bcast_S_S4x4096x4096 (constant (F := Ideal) S_ .f32 0x3E4CCCCD#32)) (sumV H Wm A))
/-- Each row's largest logit, folded from −∞ and once more against −∞. -/
def rowMaxV : FVec Ideal S4x4096 .f32 := maximumf (broadcastInDim S4x4096 ![] bcast_S_S4x4096 (constant (F := Ideal) S_ .f32 0xFF800000#32)) (Host.reduce FloatOps.maximumf (logitV H Wm A) (constant (F := Ideal) S_ .f32 0xFF800000#32) reducesTo_S4x4096x4096_S4x4096_d2 h_S_)
/-- The exponentials of the logits shifted by their row's maximum. -/
def pV : FVec Ideal S4x4096x4096 .f32 := Host.exp (subf (logitV H Wm A) (broadcastInDim S4x4096x4096 ![0, 1, 2] bcast_S4x4096x1_S4x4096x4096_0_1_2 (broadcastInDim S4x4096x1 ![0, 1] bcast_S4x4096_S4x4096x1_0_1 (rowMaxV H Wm A))))
/-- Each row's sum of exponentials, taken from zero. -/
def rowSumV : FVec Ideal S4x4096 .f32 := Host.reduceAdd (pV H Wm A) (constant (F := Ideal) S_ .f32 0x00000000#32) reducesTo_S4x4096x4096_S4x4096_d2 h_S_
/-- The attention weights: each exponential over its row's sum. -/
def attV : FVec Ideal S4x4096x4096 .f32 := Host.divf (pV H Wm A) (broadcastInDim S4x4096x4096 ![0, 1, 2] bcast_S4x4096x1_S4x4096x4096_0_1_2 (broadcastInDim S4x4096x1 ![0, 1] bcast_S4x4096_S4x4096x1_0_1 (rowSumV H Wm A)))
/-- The attention-weighted averages of the projected features. -/
def aggV : FVec Ideal S4x4096x128 .f32 := Host.dotGeneral dot_S4x4096x4096_S4x4096x128_S4x4096x128_2_1_1_2_0_0 none (attV H Wm A) (whV H Wm)
/-- The program's result: the ELU of the averages. -/
def out : FVec Ideal S4x4096x128 .f32 := select (cmpf .ogt (aggV H Wm A) (broadcastInDim S4x4096x128 ![] bcast_S_S4x4096x128 (constant (F := Ideal) S_ .f32 0x00000000#32))) (aggV H Wm A) (mulf (broadcastInDim S4x4096x128 ![] bcast_S_S4x4096x128 (constant (F := Ideal) S_ .f32 0x3F800000#32)) (Host.expm1 (select (cmpf .ogt (aggV H Wm A) (broadcastInDim S4x4096x128 ![] bcast_S_S4x4096x128 (constant (F := Ideal) S_ .f32 0x00000000#32))) (broadcastInDim S4x4096x128 ![] bcast_S_S4x4096x128 (constant (F := Ideal) S_ .f32 0x00000000#32)) (aggV H Wm A))))

end Values

end Cert.ReferenceIdeal.RefValue

end
-- ==== Proof.LibLineOfOps.lean ====
/-
  A straight line of host operations in which every operation writes one buffer of its own (as a printed @main does:
  each tensor value has its buffer), read one operation at a time.

  `after ops V` is what the buffers hold once the line has run from the contents `V`.  If the k-th operation writes
  exactly the k-th reference of a list `wr`, then a reference that is not written from position k on holds, after the
  whole line, what it holds after the first k operations; so the k-th operation's result buffer holds, after the whole
  line, the operation's function of what its operand buffers hold after the whole line (operands are written earlier,
  the result by no later operation).  Each side condition is a non-membership in a literal list of references.
-/
import Idealize.ShloMosaic.Lib.StableHlo.Run
import Mathlib.Data.List.Forall2

noncomputable section

namespace Idealize.ShloMosaic.StableHlo

open Idealize.ShloMosaic.TcCoe

variable {τ : Topo} {sig : RefSig} {Val : EltTy → Type}

/-- The line run in two parts. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Every operation of a line related entry by entry to a list has its partner in the list. -/
theorem exists_of_forall₂_mem {α β : Type*} {R : α → β → Prop} :
    ∀ {l₁ : List α} {l₂ : List β}, List.Forall₂ R l₁ l₂ → ∀ a ∈ l₁, ∃ b ∈ l₂, R a b
  | _, _, .nil, a, ha => absurd ha List.not_mem_nil
  | _, _, .cons hab h, a, ha => by
    rcases List.mem_cons.mp ha with rfl | ha
    · exact ⟨_, List.mem_cons_self, hab⟩
    · obtain ⟨b, hb, hr⟩ := exists_of_forall₂_mem h a ha
      exact ⟨b, List.mem_cons_of_mem _ hb, hr⟩

/-- "The k-th operation writes exactly the k-th reference." -/
abbrev WritesEach (ops : List (HloOp τ sig Val)) (wr : List (Ref sig .tc)) : Prop :=
  List.Forall₂ (fun (op : HloOp τ sig Val) (r : Ref sig .tc) => op.writes = {Proc.devRef .tc r}) ops wr

variable {ops : List (HloOp τ sig Val)} {wr : List (Ref sig .tc)}

/-- A reference not written from position `k` on holds after the line what it holds after the first `k` operations. -/
theorem after_eq_after_take (h : WritesEach ops wr) (V : Valuation τ sig Val) (k : ℕ) (r : Ref sig .tc)
    (hr : r ∉ wr.drop k) : after ops V (Proc.devRef .tc r) = after (ops.take k) V (Proc.devRef .tc r) := by
  have h' := List.forall₂_drop k h
  have e : after ops V = after (ops.drop k) (after (ops.take k) V) := by
    rw [← after_append, List.take_append_drop]
  rw [e]
  refine after_of_forall_not_mem _ _ fun op hop hb => ?_
  obtain ⟨r', hr', hw⟩ := exists_of_forall₂_mem h' op hop
  rw [hw, Finset.mem_singleton] at hb
  exact hr (Proc.devRef_injective _ hb ▸ hr')

/-- A reference the line never writes keeps its launch contents. -/
theorem after_of_not_written (h : WritesEach ops wr) (V : Valuation τ sig Val) (r : Ref sig .tc) (hr : r ∉ wr) :
    after ops V (Proc.devRef .tc r) = V (Proc.devRef .tc r) :=
  (after_eq_after_take h V 0 r hr).trans rfl

/-- The k-th operation's result buffer, not written later, holds what the operation leaves there. -/
theorem after_at (h : WritesEach ops wr) (V : Valuation τ sig Val) (k : ℕ) (op : HloOp τ sig Val) (y : Ref sig .tc)
    (hk : ops[k]? = some op) (hy : y ∉ wr.drop (k + 1)) :
    after ops V (Proc.devRef .tc y) = op.result (after (ops.take k) V) (Proc.devRef .tc y) := by
  rw [after_eq_after_take h V (k + 1) y hy]
  have e : ops.take (k + 1) = ops.take k ++ [op] := by rw [List.take_succ, hk]; rfl
  rw [e, after_append]
  rfl

theorem after_nullary (h : WritesEach ops wr) (V : Valuation τ sig Val) (k : ℕ) (y : Ref sig .tc) (v : y.ty.Contents Val)
    (hy) (hk : ops[k]? = some (nullary y v hy)) (hy' : y ∉ wr.drop (k + 1)) :
    after ops V (Proc.devRef .tc y) = v := by
  rw [after_at h V k _ y hk hy']
  exact nullary_result y v hy _

theorem after_unary (h : WritesEach ops wr) (V : Valuation τ sig Val) (k : ℕ) (x y : Ref sig .tc)
    (f : x.ty.Contents Val → y.ty.Contents Val) (hx hy) (hk : ops[k]? = some (unary x y f hx hy))
    (hy' : y ∉ wr.drop (k + 1)) (hx' : x ∉ wr.drop k) :
    after ops V (Proc.devRef .tc y) = f (after ops V (Proc.devRef .tc x)) := by
  rw [after_at h V k _ y hk hy', after_eq_after_take h V k x hx']
  exact unary_result x y f hx hy _

theorem after_binary (h : WritesEach ops wr) (V : Valuation τ sig Val) (k : ℕ) (a b y : Ref sig .tc)
    (f : a.ty.Contents Val → b.ty.Contents Val → y.ty.Contents Val) (ha hb hy)
    (hk : ops[k]? = some (binary a b y f ha hb hy))
    (hy' : y ∉ wr.drop (k + 1)) (ha' : a ∉ wr.drop k) (hb' : b ∉ wr.drop k) :
    after ops V (Proc.devRef .tc y) = f (after ops V (Proc.devRef .tc a)) (after ops V (Proc.devRef .tc b)) := by
  rw [after_at h V k _ y hk hy', after_eq_after_take h V k a ha', after_eq_after_take h V k b hb']
  exact binary_result a b y f ha hb hy _

theorem after_ternary (h : WritesEach ops wr) (V : Valuation τ sig Val) (k : ℕ) (c a b y : Ref sig .tc)
    (f : c.ty.Contents Val → a.ty.Contents Val → b.ty.Contents Val → y.ty.Contents Val) (hc ha hb hy)
    (hk : ops[k]? = some (ternary c a b y f hc ha hb hy))
    (hy' : y ∉ wr.drop (k + 1)) (hc' : c ∉ wr.drop k) (ha' : a ∉ wr.drop k) (hb' : b ∉ wr.drop k) :
    after ops V (Proc.devRef .tc y)
      = f (after ops V (Proc.devRef .tc c)) (after ops V (Proc.devRef .tc a)) (after ops V (Proc.devRef .tc b)) := by
  rw [after_at h V k _ y hk hy', after_eq_after_take h V k c hc', after_eq_after_take h V k a ha',
    after_eq_after_take h V k b hb']
  exact ternary_result c a b y f hc ha hb hy _

theorem after_reshape (h : WritesEach ops wr) (V : Valuation τ sig Val) (k : ℕ) (x y : Ref sig .tc)
    (he : x.ty.elt = y.ty.elt) (hn : x.ty.shape.ShapeCasts y.ty.shape) (hx hy)
    (hk : ops[k]? = some (reshape x y he hn hx hy)) (hy' : y ∉ wr.drop (k + 1)) (hx' : x ∉ wr.drop k) :
    after ops V (Proc.devRef .tc y)
      = fun i => he ▸ shapeCast y.ty.shape (after ops V (Proc.devRef .tc x)) hn i := by
  rw [after_at h V k _ y hk hy', after_eq_after_take h V k x hx']
  exact reshape_result x y he hn hx hy _

theorem after_nary4 (h : WritesEach ops wr) (V : Valuation τ sig Val) (k : ℕ) (x a b c y : Ref sig .tc)
    (f : ((j : Fin 4) → ((![x, a, b, c] : Fin 4 → Ref sig .tc) j).ty.Contents Val) → y.ty.Contents Val) (hxs hy)
    (hk : ops[k]? = some (nary ![x, a, b, c] y f hxs hy)) (hy' : y ∉ wr.drop (k + 1))
    (hx' : x ∉ wr.drop k) (ha' : a ∉ wr.drop k) (hb' : b ∉ wr.drop k) (hc' : c ∉ wr.drop k) :
    after ops V (Proc.devRef .tc y)
      = f (Fin.cons (after ops V (Proc.devRef .tc x)) (Fin.cons (after ops V (Proc.devRef .tc a))
          (Fin.cons (after ops V (Proc.devRef .tc b)) (Fin.cons (after ops V (Proc.devRef .tc c)) (fun i => i.elim0))))) := by
  rw [after_at h V k _ y hk hy', after_eq_after_take h V k x hx', after_eq_after_take h V k a ha',
    after_eq_after_take h V k b hb', after_eq_after_take h V k c hc']
  exact nary4_result f hxs hy _

end Idealize.ShloMosaic.StableHlo

end
-- ==== Proof.RefRun.lean ====
/-
  The reference program's @main as one straight line of host operations, and its run read back.

  @main is twenty-five operations of its own and two calls: the leaky rectifier (six operations and a select) and the
  ELU (twelve operations and two selects, one of them preceded by a conversion and a broadcast).  A call executes the
  callee's body on the operands, so the program is the line of forty-seven operations listed here; each writes a
  buffer of its own.  Read one operation at a time, the result buffer holds the composed term `out` of the three
  arguments' launch contents: the projected features, the two score columns, the logits through the leaky rectifier,
  the row maximum, the exponentials, their row sums, the normalized weights, the weighted sum and the ELU.
-/
import proofs.«135230_j47184510714010_2_alg».proof.Proof.Gen.ReferenceIdeal
import proofs.«135230_j47184510714010_2_alg».proof.Proof.RefTerm
import proofs.«135230_j47184510714010_2_alg».proof.Proof.LibLineOfOps
import Idealize.ShloMosaic.Lib.StableHlo.Run
import Idealize.ShloMosaic.PureOps.Ideal

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

section Line

variable {F : FTy → Type} [FloatOps F] [Facts]

/-- @main's forty-seven operations, in order, the calls' bodies in their places. -/
abbrev ops : List (HloOp τ sig (Elt F)) :=
  [ binary main_arg0 main_arg1 main_v0 ((fun l r => Host.dotGeneral dot_S4x4096x128_S128x128_S4x4096x128_2_0_01_1_n_n none l r) : (⟨S4x4096x128, .f32⟩ : BufTy).Contents (Elt F) → (⟨S128x128, .f32⟩ : BufTy).Contents (Elt F) → (⟨S4x4096x128, .f32⟩ : BufTy).Contents (Elt F)),
    unary main_arg2 main_v1 ((extractStridedSlice S128x1 ![0, 0] · slices_S256x1_S128x1_0_0) : (⟨S256x1, .f32⟩ : BufTy).Contents (Elt F) → (⟨S128x1, .f32⟩ : BufTy).Contents (Elt F)),
    unary main_arg2 main_v2 ((extractStridedSlice S128x1 ![128, 0] · slices_S256x1_S128x1_128_0) : (⟨S256x1, .f32⟩ : BufTy).Contents (Elt F) → (⟨S128x1, .f32⟩ : BufTy).Contents (Elt F)),
    binary main_v0 main_v1 main_v3 ((fun l r => Host.dotGeneral dot_S4x4096x128_S128x1_S4x4096x1_2_0_01_1_n_n none l r) : (⟨S4x4096x128, .f32⟩ : BufTy).Contents (Elt F) → (⟨S128x1, .f32⟩ : BufTy).Contents (Elt F) → (⟨S4x4096x1, .f32⟩ : BufTy).Contents (Elt F)),
    binary main_v0 main_v2 main_v4 ((fun l r => Host.dotGeneral dot_S4x4096x128_S128x1_S4x4096x1_2_0_01_1_n_n none l r) : (⟨S4x4096x128, .f32⟩ : BufTy).Contents (Elt F) → (⟨S128x1, .f32⟩ : BufTy).Contents (Elt F) → (⟨S4x4096x1, .f32⟩ : BufTy).Contents (Elt F)),
    unary main_v4 main_v5 ((transpose S4x1x4096 [0, 2, 1] · transposes_S4x4096x1_S4x1x4096_0_2_1) : (⟨S4x4096x1, .f32⟩ : BufTy).Contents (Elt F) → (⟨S4x1x4096, .f32⟩ : BufTy).Contents (Elt F)),
    unary main_v3 main_v6 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    unary main_v5 main_v7 (broadcastInDim S4x4096x4096 ![0, 1, 2] bcast_S4x1x4096_S4x4096x4096_0_1_2 : (⟨S4x1x4096, .f32⟩ : BufTy).Contents (Elt F) → (⟨S4x4096x4096, .f32⟩ : BufTy).Contents (Elt F)),
    binary main_v6 main_v7 main_v8 (addf : (⟨S4x4096x4096, .f32⟩ : BufTy).Contents (Elt F) → (⟨S4x4096x4096, .f32⟩ : BufTy).Contents (Elt F) → (⟨S4x4096x4096, .f32⟩ : BufTy).Contents (Elt F)),
    nullary main_cst (constant S_ .f32 0x3E4CCCCD#32),
    TRef.nullary main_call0.cst (constant S_ .f32 0x00000000#32),
    TRef.unary main_call0.cst main_call0.v0 (broadcastInDim S4x4096x4096 ![] bcast_S_S4x4096x4096),
    TRef.binary (.of main_v8) main_call0.v0 main_call0.v1 (cmpf .oge),
    TRef.unary (.of main_cst) main_call0.v2 id,
    TRef.unary main_call0.v2 main_call0.v3 (broadcastInDim S4x4096x4096 ![] bcast_S_S4x4096x4096),
    TRef.binary main_call0.v3 (.of main_v8) main_call0.v4 mulf,
    TRef.ternary main_call0.v1 (.of main_v8) main_call0.v4 main_call0.call0.v0 select,
    nullary main_cst_0 (constant S_ .f32 0xFF800000#32),
    binary main_v9 main_cst_0 main_v10 ((fun x v => Host.reduce FloatOps.maximumf x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F)),
    nullary main_cst_1 (constant S_ .f32 0xFF800000#32),
    unary main_cst_1 main_v11 (broadcastInDim S4x4096 ![] bcast_S_S4x4096 : (⟨S_, .f32⟩ : BufTy).Contents (Elt F) → (⟨S4x4096, .f32⟩ : BufTy).Contents (Elt F)),
    binary main_v11 main_v10 main_v12 (maximumf : (⟨S4x4096, .f32⟩ : BufTy).Contents (Elt F) → (⟨S4x4096, .f32⟩ : BufTy).Contents (Elt F) → (⟨S4x4096, .f32⟩ : BufTy).Contents (Elt F)),
    unary main_v12 main_v13 (broadcastInDim S4x4096x1 ![0, 1] bcast_S4x4096_S4x4096x1_0_1 : (⟨S4x4096, .f32⟩ : BufTy).Contents (Elt F) → (⟨S4x4096x1, .f32⟩ : BufTy).Contents (Elt F)),
    unary main_v13 main_v14 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    binary main_v9 main_v14 main_v15 (subf : (⟨S4x4096x4096, .f32⟩ : BufTy).Contents (Elt F) → (⟨S4x4096x4096, .f32⟩ : BufTy).Contents (Elt F) → (⟨S4x4096x4096, .f32⟩ : BufTy).Contents (Elt F)),
    unary main_v15 main_v16 (Host.exp : (⟨S4x4096x4096, .f32⟩ : BufTy).Contents (Elt F) → (⟨S4x4096x4096, .f32⟩ : BufTy).Contents (Elt F)),
    nullary main_cst_2 (constant S_ .f32 0x00000000#32),
    binary main_v16 main_cst_2 main_v17 ((fun x v => Host.reduceAdd x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F)),
    unary main_v17 main_v18 (broadcastInDim S4x4096x1 ![0, 1] bcast_S4x4096_S4x4096x1_0_1 : (⟨S4x4096, .f32⟩ : BufTy).Contents (Elt F) → (⟨S4x4096x1, .f32⟩ : BufTy).Contents (Elt F)),
    unary main_v18 main_v19 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    binary main_v16 main_v19 main_v20 (Host.divf : (⟨S4x4096x4096, .f32⟩ : BufTy).Contents (Elt F) → (⟨S4x4096x4096, .f32⟩ : BufTy).Contents (Elt F) → (⟨S4x4096x4096, .f32⟩ : BufTy).Contents (Elt F)),
    binary main_v20 main_v0 main_v21 ((fun l r => Host.dotGeneral dot_S4x4096x4096_S4x4096x128_S4x4096x128_2_1_1_2_0_0 none l r) : (⟨S4x4096x4096, .f32⟩ : BufTy).Contents (Elt F) → (⟨S4x4096x128, .f32⟩ : BufTy).Contents (Elt F) → (⟨S4x4096x128, .f32⟩ : BufTy).Contents (Elt F)),
    TRef.nullary main_call1.cst (constant S_ .f32 0x00000000#32),
    TRef.unary main_call1.cst main_call1.v0 (broadcastInDim S4x4096x128 ![] bcast_S_S4x4096x128),
    TRef.binary (.of main_v21) main_call1.v0 main_call1.v1 (cmpf .ogt),
    TRef.nullary main_call1.cst_0 (constant S_ .f32 0x00000000#32),
    TRef.unary main_call1.cst_0 main_call1.v2 (broadcastInDim S4x4096x128 ![] bcast_S_S4x4096x128),
    TRef.binary (.of main_v21) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S4x4096x128 ![] bcast_S_S4x4096x128),
    TRef.ternary main_call1.v3 main_call1.call0.v1 (.of main_v21) main_call1.call0.v2 select,
    TRef.unary main_call1.call0.v2 main_call1.v5 Host.expm1,
    TRef.nullary main_call1.cst_2 (constant S_ .f32 0x3F800000#32),
    TRef.unary main_call1.cst_2 main_call1.v6 (broadcastInDim S4x4096x128 ![] bcast_S_S4x4096x128),
    TRef.binary main_call1.v6 main_call1.v5 main_call1.v7 mulf,
    TRef.ternary main_call1.v1 (.of main_v21) main_call1.v7 main_call1.call1.v0 select ]

set_option maxRecDepth 1024 in
/-- @main is that line: the functions' definitions unfolded at their calls, sequencing reassociated. -/
theorem main_eq (c : Dev nD) : main (F := F) c = seq ops := by
  simp only [main, fn_leaky_relu.body, fn_where.body, fn_elu.body, fn_where_0.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., binary_bufs_sub .., unary_bufs_sub ..,
    unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

/-- The buffer each operation writes, in order. -/
abbrev wr : List (Ref sig .tc) :=
  [ main_v0, main_v1, main_v2, main_v3, main_v4, main_v5, main_v6, main_v7, main_v8, main_cst,
    main_call0_cst, main_call0_v0, main_call0_v1, main_call0_v2, main_call0_v3, main_call0_v4, main_v9,
    main_cst_0, main_v10, main_cst_1, main_v11, main_v12, main_v13, main_v14, main_v15, main_v16, main_cst_2, main_v17,
    main_v18, main_v19, main_v20, main_v21,
    main_call1_cst, main_call1_v0, main_call1_v1, main_call1_cst_0, main_call1_v2, main_call1_v3, main_call1_cst_1,
    main_call1_call0_v0, main_call1_call0_v1, main_call1_v4, main_call1_v5, main_call1_cst_2, main_call1_v6,
    main_call1_v7, main_v22 ]

theorem writesEach : WritesEach (ops : List (HloOp τ sig (Elt F))) wr := by
  repeat (first | exact List.Forall₂.nil | refine List.Forall₂.cons rfl ?_)

end Line

section Chain

set_option maxRecDepth 4096 in
/-- Read one operation at a time, from any contents holding `H`, `Wm`, `A` at the three arguments, the line leaves the
    composed term at the result buffer.  An operation of a called function moves its operands and its result along the
    equations between a buffer's type and the value's, which are identities here. -/
theorem after_out (V : Valuation τ sig (Elt Ideal)) (H : FVec Ideal S4x4096x128 .f32) (Wm : FVec Ideal S128x128 .f32)
    (A : FVec Ideal S256x1 .f32) (hH : V (Proc.devRef (τ := τ) .tc main_arg0) = H) (hWm : V (Proc.devRef (τ := τ) .tc main_arg1) = Wm)
    (hA : V (Proc.devRef (τ := τ) .tc main_arg2) = A) :
    after (ops (F := Ideal)) V (Proc.devRef (τ := τ) .tc main_v22) = out H Wm A := by
  have W := writesEach (F := Ideal)
  have e_main_arg0 : after (ops (F := Ideal)) V (Proc.devRef (τ := τ) .tc main_arg0) = H :=
    (after_of_not_written W V main_arg0 (by decide)).trans hH
  have e_main_arg1 : after (ops (F := Ideal)) V (Proc.devRef (τ := τ) .tc main_arg1) = Wm :=
    (after_of_not_written W V main_arg1 (by decide)).trans hWm
  have e_main_arg2 : after (ops (F := Ideal)) V (Proc.devRef (τ := τ) .tc main_arg2) = A :=
    (after_of_not_written W V main_arg2 (by decide)).trans hA
  have e_main_v0 : after (ops (F := Ideal)) V (Proc.devRef (τ := τ) .tc main_v0) = (whV H Wm) := by
    rw [after_binary W V 0 main_arg0 main_arg1 main_v0 _ _ _ _ rfl (by decide) (by decide) (by decide), e_main_arg0, e_main_arg1] <;> rfl
  have e_main_v1 : after (ops (F := Ideal)) V (Proc.devRef (τ := τ) .tc main_v1) = (a1V A) := by
    rw [after_unary W V 1 main_arg2 main_v1 _ _ _ rfl (by decide) (by decide), e_main_arg2] <;> rfl
  have e_main_v2 : after (ops (F := Ideal)) V (Proc.devRef (τ := τ) .tc main_v2) = (a2V A) := by
    rw [after_unary W V 2 main_arg2 main_v2 _ _ _ rfl (by decide) (by decide), e_main_arg2] <;> rfl
  have e_main_v3 : after (ops (F := Ideal)) V (Proc.devRef (τ := τ) .tc main_v3) = (s1V H Wm A) := by
    rw [after_binary W V 3 main_v0 main_v1 main_v3 _ _ _ _ rfl (by decide) (by decide) (by decide), e_main_v0, e_main_v1] <;> rfl
  have e_main_v4 : after (ops (F := Ideal)) V (Proc.devRef (τ := τ) .tc main_v4) = (s2V H Wm A) := by
    rw [after_binary W V 4 main_v0 main_v2 main_v4 _ _ _ _ rfl (by decide) (by decide) (by decide), e_main_v0, e_main_v2] <;> rfl
  have e_main_v5 : after (ops (F := Ideal)) V (Proc.devRef (τ := τ) .tc main_v5) = (transpose S4x1x4096 [0, 2, 1] (s2V H Wm A) transposes_S4x4096x1_S4x1x4096_0_2_1) := by
    rw [after_unary W V 5 main_v4 main_v5 _ _ _ rfl (by decide) (by decide), e_main_v4] <;> rfl
  have e_main_v6 : after (ops (F := Ideal)) V (Proc.devRef (τ := τ) .tc main_v6) = (broadcastInDim S4x4096x4096 ![0, 1, 2] bcast_S4x4096x1_S4x4096x4096_0_1_2 (s1V H Wm A)) := by
    rw [after_unary W V 6 main_v3 main_v6 _ _ _ rfl (by decide) (by decide), e_main_v3] <;> rfl
  have e_main_v7 : after (ops (F := Ideal)) V (Proc.devRef (τ := τ) .tc main_v7) = (broadcastInDim S4x4096x4096 ![0, 1, 2] bcast_S4x1x4096_S4x4096x4096_0_1_2 (transpose S4x1x4096 [0, 2, 1] (s2V H Wm A) transposes_S4x4096x1_S4x1x4096_0_2_1)) := by
    rw [after_unary W V 7 main_v5 main_v7 _ _ _ rfl (by decide) (by decide), e_main_v5] <;> rfl
  have e_main_v8 : after (ops (F := Ideal)) V (Proc.devRef (τ := τ) .tc main_v8) = (sumV H Wm A) := by
    rw [after_binary W V 8 main_v6 main_v7 main_v8 _ _ _ _ rfl (by decide) (by decide) (by decide), e_main_v6, e_main_v7] <;> rfl
  have e_main_cst : after (ops (F := Ideal)) V (Proc.devRef (τ := τ) .tc main_cst) = (constant (F := Ideal) S_ .f32 0x3E4CCCCD#32) :=
    after_nullary W V 9 main_cst _ _ rfl (by decide)
  have e_main_call0_cst : after (ops (F := Ideal)) V (Proc.devRef (τ := τ) .tc main_call0_cst) = (constant (F := Ideal) S_ .f32 0x00000000#32) :=
    after_nullary W V 10 main_call0_cst _ _ rfl (by decide)
  have e_main_call0_v0 : after (ops (F := Ideal)) V (Proc.devRef (τ := τ) .tc main_call0_v0) = (broadcastInDim S4x4096x4096 ![] bcast_S_S4x4096x4096 (constant (F := Ideal) S_ .f32 0x00000000#32)) := by
    rw [after_unary W V 11 main_call0_cst main_call0_v0 _ _ _ rfl (by decide) (by decide), e_main_call0_cst] <;> (simp only [TRef.toBuf, TRef.ofBuf, cast_eq] <;> rfl)
  have e_main_call0_v1 : after (ops (F := Ideal)) V (Proc.devRef (τ := τ) .tc main_call0_v1) = (cmpf .oge (sumV H Wm A) (broadcastInDim S4x4096x4096 ![] bcast_S_S4x4096x4096 (constant (F := Ideal) S_ .f32 0x00000000#32))) := by
    rw [after_binary W V 12 main_v8 main_call0_v0 main_call0_v1 _ _ _ _ rfl (by decide) (by decide) (by decide), e_main_v8, e_main_call0_v0] <;> (simp only [TRef.toBuf, TRef.ofBuf, cast_eq] <;> rfl)
  have e_main_call0_v2 : after (ops (F := Ideal)) V (Proc.devRef (τ := τ) .tc main_call0_v2) = (constant (F := Ideal) S_ .f32 0x3E4CCCCD#32) := by
    rw [after_unary W V 13 main_cst main_call0_v2 _ _ _ rfl (by decide) (by decide), e_main_cst] <;> (simp only [TRef.toBuf, TRef.ofBuf, cast_eq] <;> rfl)
  have e_main_call0_v3 : after (ops (F := Ideal)) V (Proc.devRef (τ := τ) .tc main_call0_v3) = (broadcastInDim S4x4096x4096 ![] bcast_S_S4x4096x4096 (constant (F := Ideal) S_ .f32 0x3E4CCCCD#32)) := by
    rw [after_unary W V 14 main_call0_v2 main_call0_v3 _ _ _ rfl (by decide) (by decide), e_main_call0_v2] <;> (simp only [TRef.toBuf, TRef.ofBuf, cast_eq] <;> rfl)
  have e_main_call0_v4 : after (ops (F := Ideal)) V (Proc.devRef (τ := τ) .tc main_call0_v4) = (mulf (broadcastInDim S4x4096x4096 ![] bcast_S_S4x4096x4096 (constant (F := Ideal) S_ .f32 0x3E4CCCCD#32)) (sumV H Wm A)) := by
    rw [after_binary W V 15 main_call0_v3 main_v8 main_call0_v4 _ _ _ _ rfl (by decide) (by decide) (by decide), e_main_call0_v3, e_main_v8] <;> (simp only [TRef.toBuf, TRef.ofBuf, cast_eq] <;> rfl)
  have e_main_v9 : after (ops (F := Ideal)) V (Proc.devRef (τ := τ) .tc main_v9) = (logitV H Wm A) := by
    rw [after_ternary W V 16 main_call0_v1 main_v8 main_call0_v4 main_v9 _ _ _ _ _ rfl (by decide) (by decide) (by decide) (by decide), e_main_call0_v1, e_main_v8, e_main_call0_v4] <;> (simp only [TRef.toBuf, TRef.ofBuf, cast_eq] <;> rfl)
  have e_main_cst_0 : after (ops (F := Ideal)) V (Proc.devRef (τ := τ) .tc main_cst_0) = (constant (F := Ideal) S_ .f32 0xFF800000#32) :=
    after_nullary W V 17 main_cst_0 _ _ rfl (by decide)
  have e_main_v10 : after (ops (F := Ideal)) V (Proc.devRef (τ := τ) .tc main_v10) = (Host.reduce FloatOps.maximumf (logitV H Wm A) (constant (F := Ideal) S_ .f32 0xFF800000#32) reducesTo_S4x4096x4096_S4x4096_d2 h_S_) := by
    rw [after_binary W V 18 main_v9 main_cst_0 main_v10 _ _ _ _ rfl (by decide) (by decide) (by decide), e_main_v9, e_main_cst_0] <;> rfl
  have e_main_cst_1 : after (ops (F := Ideal)) V (Proc.devRef (τ := τ) .tc main_cst_1) = (constant (F := Ideal) S_ .f32 0xFF800000#32) :=
    after_nullary W V 19 main_cst_1 _ _ rfl (by decide)
  have e_main_v11 : after (ops (F := Ideal)) V (Proc.devRef (τ := τ) .tc main_v11) = (broadcastInDim S4x4096 ![] bcast_S_S4x4096 (constant (F := Ideal) S_ .f32 0xFF800000#32)) := by
    rw [after_unary W V 20 main_cst_1 main_v11 _ _ _ rfl (by decide) (by decide), e_main_cst_1] <;> rfl
  have e_main_v12 : after (ops (F := Ideal)) V (Proc.devRef (τ := τ) .tc main_v12) = (rowMaxV H Wm A) := by
    rw [after_binary W V 21 main_v11 main_v10 main_v12 _ _ _ _ rfl (by decide) (by decide) (by decide), e_main_v11, e_main_v10] <;> rfl
  have e_main_v13 : after (ops (F := Ideal)) V (Proc.devRef (τ := τ) .tc main_v13) = (broadcastInDim S4x4096x1 ![0, 1] bcast_S4x4096_S4x4096x1_0_1 (rowMaxV H Wm A)) := by
    rw [after_unary W V 22 main_v12 main_v13 _ _ _ rfl (by decide) (by decide), e_main_v12] <;> rfl
  have e_main_v14 : after (ops (F := Ideal)) V (Proc.devRef (τ := τ) .tc main_v14) = (broadcastInDim S4x4096x4096 ![0, 1, 2] bcast_S4x4096x1_S4x4096x4096_0_1_2 (broadcastInDim S4x4096x1 ![0, 1] bcast_S4x4096_S4x4096x1_0_1 (rowMaxV H Wm A))) := by
    rw [after_unary W V 23 main_v13 main_v14 _ _ _ rfl (by decide) (by decide), e_main_v13] <;> rfl
  have e_main_v15 : after (ops (F := Ideal)) V (Proc.devRef (τ := τ) .tc main_v15) = (subf (logitV H Wm A) (broadcastInDim S4x4096x4096 ![0, 1, 2] bcast_S4x4096x1_S4x4096x4096_0_1_2 (broadcastInDim S4x4096x1 ![0, 1] bcast_S4x4096_S4x4096x1_0_1 (rowMaxV H Wm A)))) := by
    rw [after_binary W V 24 main_v9 main_v14 main_v15 _ _ _ _ rfl (by decide) (by decide) (by decide), e_main_v9, e_main_v14] <;> rfl
  have e_main_v16 : after (ops (F := Ideal)) V (Proc.devRef (τ := τ) .tc main_v16) = (pV H Wm A) := by
    rw [after_unary W V 25 main_v15 main_v16 _ _ _ rfl (by decide) (by decide), e_main_v15] <;> rfl
  have e_main_cst_2 : after (ops (F := Ideal)) V (Proc.devRef (τ := τ) .tc main_cst_2) = (constant (F := Ideal) S_ .f32 0x00000000#32) :=
    after_nullary W V 26 main_cst_2 _ _ rfl (by decide)
  have e_main_v17 : after (ops (F := Ideal)) V (Proc.devRef (τ := τ) .tc main_v17) = (rowSumV H Wm A) := by
    rw [after_binary W V 27 main_v16 main_cst_2 main_v17 _ _ _ _ rfl (by decide) (by decide) (by decide), e_main_v16, e_main_cst_2] <;> rfl
  have e_main_v18 : after (ops (F := Ideal)) V (Proc.devRef (τ := τ) .tc main_v18) = (broadcastInDim S4x4096x1 ![0, 1] bcast_S4x4096_S4x4096x1_0_1 (rowSumV H Wm A)) := by
    rw [after_unary W V 28 main_v17 main_v18 _ _ _ rfl (by decide) (by decide), e_main_v17] <;> rfl
  have e_main_v19 : after (ops (F := Ideal)) V (Proc.devRef (τ := τ) .tc main_v19) = (broadcastInDim S4x4096x4096 ![0, 1, 2] bcast_S4x4096x1_S4x4096x4096_0_1_2 (broadcastInDim S4x4096x1 ![0, 1] bcast_S4x4096_S4x4096x1_0_1 (rowSumV H Wm A))) := by
    rw [after_unary W V 29 main_v18 main_v19 _ _ _ rfl (by decide) (by decide), e_main_v18] <;> rfl
  have e_main_v20 : after (ops (F := Ideal)) V (Proc.devRef (τ := τ) .tc main_v20) = (attV H Wm A) := by
    rw [after_binary W V 30 main_v16 main_v19 main_v20 _ _ _ _ rfl (by decide) (by decide) (by decide), e_main_v16, e_main_v19] <;> rfl
  have e_main_v21 : after (ops (F := Ideal)) V (Proc.devRef (τ := τ) .tc main_v21) = (aggV H Wm A) := by
    rw [after_binary W V 31 main_v20 main_v0 main_v21 _ _ _ _ rfl (by decide) (by decide) (by decide), e_main_v20, e_main_v0] <;> rfl
  have e_main_call1_cst : after (ops (F := Ideal)) V (Proc.devRef (τ := τ) .tc main_call1_cst) = (constant (F := Ideal) S_ .f32 0x00000000#32) :=
    after_nullary W V 32 main_call1_cst _ _ rfl (by decide)
  have e_main_call1_v0 : after (ops (F := Ideal)) V (Proc.devRef (τ := τ) .tc main_call1_v0) = (broadcastInDim S4x4096x128 ![] bcast_S_S4x4096x128 (constant (F := Ideal) S_ .f32 0x00000000#32)) := by
    rw [after_unary W V 33 main_call1_cst main_call1_v0 _ _ _ rfl (by decide) (by decide), e_main_call1_cst] <;> (simp only [TRef.toBuf, TRef.ofBuf, cast_eq] <;> rfl)
  have e_main_call1_v1 : after (ops (F := Ideal)) V (Proc.devRef (τ := τ) .tc main_call1_v1) = (cmpf .ogt (aggV H Wm A) (broadcastInDim S4x4096x128 ![] bcast_S_S4x4096x128 (constant (F := Ideal) S_ .f32 0x00000000#32))) := by
    rw [after_binary W V 34 main_v21 main_call1_v0 main_call1_v1 _ _ _ _ rfl (by decide) (by decide) (by decide), e_main_v21, e_main_call1_v0] <;> (simp only [TRef.toBuf, TRef.ofBuf, cast_eq] <;> rfl)
  have e_main_call1_cst_0 : after (ops (F := Ideal)) V (Proc.devRef (τ := τ) .tc main_call1_cst_0) = (constant (F := Ideal) S_ .f32 0x00000000#32) :=
    after_nullary W V 35 main_call1_cst_0 _ _ rfl (by decide)
  have e_main_call1_v2 : after (ops (F := Ideal)) V (Proc.devRef (τ := τ) .tc main_call1_v2) = (broadcastInDim S4x4096x128 ![] bcast_S_S4x4096x128 (constant (F := Ideal) S_ .f32 0x00000000#32)) := by
    rw [after_unary W V 36 main_call1_cst_0 main_call1_v2 _ _ _ rfl (by decide) (by decide), e_main_call1_cst_0] <;> (simp only [TRef.toBuf, TRef.ofBuf, cast_eq] <;> rfl)
  have e_main_call1_v3 : after (ops (F := Ideal)) V (Proc.devRef (τ := τ) .tc main_call1_v3) = (cmpf .ogt (aggV H Wm A) (broadcastInDim S4x4096x128 ![] bcast_S_S4x4096x128 (constant (F := Ideal) S_ .f32 0x00000000#32))) := by
    rw [after_binary W V 37 main_v21 main_call1_v2 main_call1_v3 _ _ _ _ rfl (by decide) (by decide) (by decide), e_main_v21, e_main_call1_v2] <;> (simp only [TRef.toBuf, TRef.ofBuf, cast_eq] <;> rfl)
  have e_main_call1_cst_1 : after (ops (F := Ideal)) V (Proc.devRef (τ := τ) .tc main_call1_cst_1) = (constant (F := Ideal) S_ .f32 0x00000000#32) :=
    after_nullary W V 38 main_call1_cst_1 _ _ rfl (by decide)
  have e_main_call1_call0_v0 : after (ops (F := Ideal)) V (Proc.devRef (τ := τ) .tc main_call1_call0_v0) = (constant (F := Ideal) S_ .f32 0x00000000#32) := by
    rw [after_unary W V 39 main_call1_cst_1 main_call1_call0_v0 _ _ _ rfl (by decide) (by decide), e_main_call1_cst_1] <;> (simp only [TRef.toBuf, TRef.ofBuf, cast_eq] <;> rfl)
  have e_main_call1_call0_v1 : after (ops (F := Ideal)) V (Proc.devRef (τ := τ) .tc main_call1_call0_v1) = (broadcastInDim S4x4096x128 ![] bcast_S_S4x4096x128 (constant (F := Ideal) S_ .f32 0x00000000#32)) := by
    rw [after_unary W V 40 main_call1_call0_v0 main_call1_call0_v1 _ _ _ rfl (by decide) (by decide), e_main_call1_call0_v0] <;> (simp only [TRef.toBuf, TRef.ofBuf, cast_eq] <;> rfl)
  have e_main_call1_v4 : after (ops (F := Ideal)) V (Proc.devRef (τ := τ) .tc main_call1_v4) = (select (cmpf .ogt (aggV H Wm A) (broadcastInDim S4x4096x128 ![] bcast_S_S4x4096x128 (constant (F := Ideal) S_ .f32 0x00000000#32))) (broadcastInDim S4x4096x128 ![] bcast_S_S4x4096x128 (constant (F := Ideal) S_ .f32 0x00000000#32)) (aggV H Wm A)) := by
    rw [after_ternary W V 41 main_call1_v3 main_call1_call0_v1 main_v21 main_call1_v4 _ _ _ _ _ rfl (by decide) (by decide) (by decide) (by decide), e_main_call1_v3, e_main_call1_call0_v1, e_main_v21] <;> (simp only [TRef.toBuf, TRef.ofBuf, cast_eq] <;> rfl)
  have e_main_call1_v5 : after (ops (F := Ideal)) V (Proc.devRef (τ := τ) .tc main_call1_v5) = (Host.expm1 (select (cmpf .ogt (aggV H Wm A) (broadcastInDim S4x4096x128 ![] bcast_S_S4x4096x128 (constant (F := Ideal) S_ .f32 0x00000000#32))) (broadcastInDim S4x4096x128 ![] bcast_S_S4x4096x128 (constant (F := Ideal) S_ .f32 0x00000000#32)) (aggV H Wm A))) := by
    rw [after_unary W V 42 main_call1_v4 main_call1_v5 _ _ _ rfl (by decide) (by decide), e_main_call1_v4] <;> (simp only [TRef.toBuf, TRef.ofBuf, cast_eq] <;> rfl)
  have e_main_call1_cst_2 : after (ops (F := Ideal)) V (Proc.devRef (τ := τ) .tc main_call1_cst_2) = (constant (F := Ideal) S_ .f32 0x3F800000#32) :=
    after_nullary W V 43 main_call1_cst_2 _ _ rfl (by decide)
  have e_main_call1_v6 : after (ops (F := Ideal)) V (Proc.devRef (τ := τ) .tc main_call1_v6) = (broadcastInDim S4x4096x128 ![] bcast_S_S4x4096x128 (constant (F := Ideal) S_ .f32 0x3F800000#32)) := by
    rw [after_unary W V 44 main_call1_cst_2 main_call1_v6 _ _ _ rfl (by decide) (by decide), e_main_call1_cst_2] <;> (simp only [TRef.toBuf, TRef.ofBuf, cast_eq] <;> rfl)
  have e_main_call1_v7 : after (ops (F := Ideal)) V (Proc.devRef (τ := τ) .tc main_call1_v7) = (mulf (broadcastInDim S4x4096x128 ![] bcast_S_S4x4096x128 (constant (F := Ideal) S_ .f32 0x3F800000#32)) (Host.expm1 (select (cmpf .ogt (aggV H Wm A) (broadcastInDim S4x4096x128 ![] bcast_S_S4x4096x128 (constant (F := Ideal) S_ .f32 0x00000000#32))) (broadcastInDim S4x4096x128 ![] bcast_S_S4x4096x128 (constant (F := Ideal) S_ .f32 0x00000000#32)) (aggV H Wm A)))) := by
    rw [after_binary W V 45 main_call1_v6 main_call1_v5 main_call1_v7 _ _ _ _ rfl (by decide) (by decide) (by decide), e_main_call1_v6, e_main_call1_v5] <;> (simp only [TRef.toBuf, TRef.ofBuf, cast_eq] <;> rfl)
  have e_main_v22 : after (ops (F := Ideal)) V (Proc.devRef (τ := τ) .tc main_v22) = (out H Wm A) := by
    rw [after_ternary W V 46 main_call1_v1 main_v21 main_call1_v7 main_v22 _ _ _ _ _ rfl (by decide) (by decide) (by decide) (by decide), e_main_call1_v1, e_main_v21, e_main_call1_v7] <;> (simp only [TRef.toBuf, TRef.ofBuf, cast_eq] <;> rfl)
  exact e_main_v22

end Chain

section Run

/-- On every device, from any memory with zero counters: every weakly fair execution of @main terminates with the result
    buffer at `out` of the three arguments' launch contents, and the arguments unchanged. -/
theorem run [Cert.ReferenceIdeal.Facts] (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v22) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v22).trans (after_out _ _ _ _ rfl rfl rfl),
      (h c main_arg0).trans (after_of_not_written writesEach _ main_arg0 (by decide)),
      (h c main_arg1).trans (after_of_not_written writesEach _ main_arg1 (by decide)),
      (h c main_arg2).trans (after_of_not_written writesEach _ main_arg2 (by decide))⟩)
    (run_seq scopedRefs_eq scopedSems_eq defs main (fun _ => ops) main_eq (fun _ => ops_sub) m ρ)

end Run

end Cert.ReferenceIdeal.RefValue

end
-- ==== Proof.Spec.lean ====
/-
  The two formulas the certificate compares, written once over plain coordinates.

  A graph-attention layer over B = 4 graphs of N = 4096 nodes with 128 features: the projected features
  wh(b,n,·) = h(b,n,·)·W, the two attention scores s1(b,n) = wh(b,n,·)·a[0:128] and s2(b,n) = wh(b,n,·)·a[128:256],
  the logits lrelu(s1(b,q) + s2(b,k)), a softmax over the keys k, the attention-weighted average of wh over the keys,
  and an ELU.  The kernel shifts the exponentials by lrelu(s1(b,q) + max_k s2(b,k)) — the row's largest logit, since the
  leaky rectifier is monotone — and divides the accumulated weighted sum by the accumulated normalizer at the end; the
  reference shifts by the maximum of the row's logits and divides each weight before the weighted sum.  Both are stated
  here on the extended reals, index by index, with the float literals kept as their words.
-/
import Idealize.ShloMosaic.PureOps.Ideal.Laws
import Idealize.ShloMosaic.Lib.ValueIdx

noncomputable section

namespace Cert.Gat

open Idealize.ShloMosaic

/-- The leaky rectifier's negative slope, the word both programs carry (the f32 nearest 0.2). -/
def slope : EReal := Ideal.ofBits .f32 0x3E4CCCCD#32
/-- The zero word. -/
def zeroW : EReal := Ideal.ofBits .f32 0x00000000#32
/-- The word of 1.0. -/
def oneW : EReal := Ideal.ofBits .f32 0x3F800000#32
/-- The word of −∞ (the reference's starting value for its row maximum). -/
def negInfW : EReal := Ideal.ofBits .f32 0xFF800000#32

/-- x ↦ x if x ≥ 0, slope·x otherwise, as both programs spell it: a comparison bit and a select. -/
def lrelu (x : EReal) : EReal := Scalar.select (Ideal.cmp .oge x zeroW) x (slope * x)

/-- The kernel's ELU: x if x > 0, exp x − 1 otherwise. -/
def eluK (x : EReal) : EReal := Scalar.select (Ideal.cmp .ogt x zeroW) x (Ideal.exp x - oneW)

/-- The reference's ELU: x if x > 0, 1·expm1(x') otherwise, x' = 0 if x > 0 and x otherwise. -/
def eluR (x : EReal) : EReal :=
  Scalar.select (Ideal.cmp .ogt x zeroW) x (oneW * (Ideal.exp (Scalar.select (Ideal.cmp .ogt x zeroW) zeroW x) - 1))

section Formulas

variable (h : Fin 4 → Fin 4096 → Fin 128 → EReal) (W : Fin 128 → Fin 128 → EReal) (a : Fin 256 → EReal)

/-- The projected features. -/
def wh (b : Fin 4) (n : Fin 4096) (j : Fin 128) : EReal := ∑ k : Fin 128, h b n k * W k j
/-- The first half of the attention vector. -/
def a1 (j : Fin 128) : EReal := a ⟨j.val, by omega⟩
/-- The second half of the attention vector. -/
def a2 (j : Fin 128) : EReal := a ⟨128 + j.val, by omega⟩
/-- A node's score as a query. -/
def s1 (b : Fin 4) (n : Fin 4096) : EReal := ∑ j : Fin 128, wh h W b n j * a1 a j
/-- A node's score as a key. -/
def s2 (b : Fin 4) (n : Fin 4096) : EReal := ∑ j : Fin 128, wh h W b n j * a2 a j
/-- The logit of query q against key k. -/
def logit (b : Fin 4) (q k : Fin 4096) : EReal := lrelu (s1 h W a b q + s2 h W a b k)

/-- The largest key score of a graph, folded from the −∞ word. -/
def keyMax (b : Fin 4) : EReal := Finset.univ.fold max negInfW (fun n : Fin 4096 => s2 h W a b n)
/-- The kernel's shift for row q. -/
def shiftK (b : Fin 4) (q : Fin 4096) : EReal := lrelu (s1 h W a b q + keyMax h W a b)
/-- The kernel's unnormalized weight. -/
def pK (b : Fin 4) (q k : Fin 4096) : EReal := Ideal.exp (logit h W a b q k - shiftK h W a b q)
/-- The kernel's result: the accumulated weighted sum over the accumulated normalizer, then the ELU. -/
def kerOut (b : Fin 4) (q : Fin 4096) (f : Fin 128) : EReal :=
  eluK (Ideal.div (∑ k : Fin 4096, pK h W a b q k * wh h W b k f) (∑ k : Fin 4096, pK h W a b q k))

/-- The reference's shift for row q: the row's largest logit folded from the −∞ word, and once more against that word. -/
def shiftR (b : Fin 4) (q : Fin 4096) : EReal :=
  max negInfW (Finset.univ.fold max negInfW (fun k : Fin 4096 => logit h W a b q k))
/-- The reference's unnormalized weight. -/
def pR (b : Fin 4) (q k : Fin 4096) : EReal := Ideal.exp (logit h W a b q k - shiftR h W a b q)
/-- The reference's result: each weight divided by the row's sum (taken from the zero word), the weighted sum, the ELU. -/
def refOut (b : Fin 4) (q : Fin 4096) (f : Fin 128) : EReal :=
  eluR (∑ k : Fin 4096, Ideal.div (pR h W a b q k) (zeroW + ∑ k' : Fin 4096, pR h W a b q k') * wh h W b k f)

end Formulas

end Cert.Gat

end
-- ==== Proof.LibDotBatch.lean ====
/-
  A batched matrix product with one batch axis and one contracted axis, read at an entry: for rank-three
  operands [B, M, K] × [B, K, N] → [B, M, N] whose dimension numbers pair axis 0 of both operands as the
  batch axis and contract axis 2 of the left operand with axis 1 of the right one, the sum over the record's
  contraction index is the sum over `k : Fin K` of left entry `(e, r, k)` times right entry `(e, k, c)`.
  The eight coordinate facts about the record's operand indices are hypotheses; for a record with literal
  dimension lists each is `fun _ _ => rfl` or the library's single-axis lemma. The host's product
  (`dotGeneral_ix3`) and the kernel's product into a zero accumulator (`matmul_ix3`) are both that sum.
-/
import Mathlib
import Idealize.ShloMosaic.Lib.ValueIdx
import Idealize.ShloMosaic.PureOps.Ideal.Laws

namespace Cert.LibDotBatch

open Idealize.ShloMosaic Idealize.ShloMosaic.ValueIdx

/-- The coordinate facts of a batched rows-by-columns product's dimension numbers. -/
structure Batched {B M K N : Nat} (d : DotDims ⟨3, ![B, M, K]⟩ ⟨3, ![B, K, N]⟩ ⟨3, ![B, M, N]⟩) : Prop where
  hrank : d.contr.rank = 1
  hs : d.contr.size ⟨0, by omega⟩ = K
  hl0 : ∀ j k, (d.lhsIdx j k 0).val = (j 0).val
  hl1 : ∀ j k, (d.lhsIdx j k 1).val = (j 1).val
  hl2 : ∀ j k, (d.lhsIdx j k 2).val = (k ⟨0, by omega⟩).val
  hr0 : ∀ j k, (d.rhsIdx j k 0).val = (j 0).val
  hr1 : ∀ j k, (d.rhsIdx j k 1).val = (k ⟨0, by omega⟩).val
  hr2 : ∀ j k, (d.rhsIdx j k 2).val = (j 2).val

theorem dot_sum {B M K N : Nat} {d : DotDims ⟨3, ![B, M, K]⟩ ⟨3, ![B, K, N]⟩ ⟨3, ![B, M, N]⟩} (hd : Batched d)
    (lhs : (⟨3, ![B, M, K]⟩ : Shape).Idx → EReal) (rhs : (⟨3, ![B, K, N]⟩ : Shape).Idx → EReal)
    (e : Fin B) (r : Fin M) (c : Fin N) :
    ∑ k : d.contr.Idx, lhs (d.lhsIdx (ix3 e r c) k) * rhs (d.rhsIdx (ix3 e r c) k)
      = ∑ k : Fin K, lhs (ix3 e r k) * rhs (ix3 e k c) := by
  rw [← Equiv.sum_comp (contrEquiv1 d K hd.hrank hd.hs).symm]
  refine Finset.sum_congr rfl fun k _ => ?_
  have ek := contrEquiv1_symm_val d K hd.hrank hd.hs k
  have el : d.lhsIdx (ix3 e r c) ((contrEquiv1 d K hd.hrank hd.hs).symm k) = ix3 e r k := by
    funext a; apply Fin.ext
    match a with
    | ⟨0, _⟩ => exact hd.hl0 _ _
    | ⟨1, _⟩ => exact hd.hl1 _ _
    | ⟨2, _⟩ => exact (hd.hl2 _ _).trans ek
  have er : d.rhsIdx (ix3 e r c) ((contrEquiv1 d K hd.hrank hd.hs).symm k) = ix3 e k c := by
    funext a; apply Fin.ext
    match a with
    | ⟨0, _⟩ => exact hd.hr0 _ _
    | ⟨1, _⟩ => exact (hd.hr1 _ _).trans ek
    | ⟨2, _⟩ => exact hd.hr2 _ _
  rw [el, er]

/-- The host's batched product, at entry (e, r, c). -/
theorem dotGeneral_ix3 {B M K N : Nat} {d : DotDims ⟨3, ![B, M, K]⟩ ⟨3, ![B, K, N]⟩ ⟨3, ![B, M, N]⟩} (hd : Batched d)
    {φ₁ φ₂ : FTy} (prec : Option ContractPrecision) (a : FVec Ideal ⟨3, ![B, M, K]⟩ φ₁) (b : FVec Ideal ⟨3, ![B, K, N]⟩ φ₂)
    (e : Fin B) (r : Fin M) (c : Fin N) :
    Host.dotGeneral d prec a b (ix3 e r c) = ∑ k : Fin K, a (ix3 e r k) * b (ix3 e k c) :=
  (Ideal.dotGeneral_apply d prec _ a b (ix3 e r c)).trans (dot_sum hd a b e r c)

/-- The kernel's batched product into a zero accumulator, at entry (e, r, c). -/
theorem matmul_ix3 {B M K N : Nat} {d : DotDims ⟨3, ![B, M, K]⟩ ⟨3, ![B, K, N]⟩ ⟨3, ![B, M, N]⟩} (hd : Batched d)
    {φ₁ φ₂ : FTy} (prec : Option ContractPrecision) (a : FVec Ideal ⟨3, ![B, M, K]⟩ φ₁) (b : FVec Ideal ⟨3, ![B, K, N]⟩ φ₂)
    (e : Fin B) (r : Fin M) (c : Fin N) :
    matmul d prec a b (constant ⟨3, ![B, M, N]⟩ .f32 0x00000000#32) (ix3 e r c) = ∑ k : Fin K, a (ix3 e r k) * b (ix3 e k c) :=
  (Ideal.matmul_constant_zero_apply d prec a b (ix3 e r c)).trans (dot_sum hd a b e r c)

end Cert.LibDotBatch
-- ==== Proof.RefValue.lean ====
/-
  The reference's composed term read at an entry is the specification's formula for the reference.

  Each named intermediate is read at an index given by coordinates, in the program's order: the projected features are
  the sums over the 128 input features; the two halves of the attention vector are its entries at i and at 128 + i; the
  score columns are sums over the 128 projected features; a logit is the leaky rectifier of a query score plus a key
  score; a row's shift is the maximum of its logits folded from −∞ and taken once more against −∞; a weight is the
  exponential of the shifted logit over the row's sum taken from zero; the result is the ELU of the weighted sum over the
  4096 keys.
-/
import proofs.«135230_j47184510714010_2_alg».proof.Proof.RefTerm
import proofs.«135230_j47184510714010_2_alg».proof.Proof.Spec
import proofs.«135230_j47184510714010_2_alg».proof.Proof.LibDotBatch
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.ReferenceIdeal.RefValue

open Cert.ReferenceIdeal Idealize.ShloMosaic Idealize.ShloMosaic.ValueIdx
open Cert.ReferenceIdeal.Facts₀

/-! ## A product of a stack of matrices with one matrix, read at an entry -/

/-- The coordinate facts of the dimension numbers of [B, M, K] × [K, N] → [B, M, N]: the last axis of the left operand
    contracted with the first of the right one, no batch axis. -/
structure Rows {B M K N : Nat} (d : DotDims ⟨3, ![B, M, K]⟩ ⟨2, ![K, N]⟩ ⟨3, ![B, M, N]⟩) : Prop where
  hrank : d.contr.rank = 1
  hs : d.contr.size ⟨0, by omega⟩ = K
  hl0 : ∀ j k, (d.lhsIdx j k 0).val = (j 0).val
  hl1 : ∀ j k, (d.lhsIdx j k 1).val = (j 1).val
  hl2 : ∀ j k, (d.lhsIdx j k 2).val = (k ⟨0, by omega⟩).val
  hr0 : ∀ j k, (d.rhsIdx j k 0).val = (k ⟨0, by omega⟩).val
  hr1 : ∀ j k, (d.rhsIdx j k 1).val = (j 2).val

/-- Entry (e, r, c) of such a product is the sum over k of left entry (e, r, k) times right entry (k, c). -/
theorem dotGeneral_rows {B M K N : Nat} {d : DotDims ⟨3, ![B, M, K]⟩ ⟨2, ![K, N]⟩ ⟨3, ![B, M, N]⟩} (hd : Rows d)
    {φ₁ φ₂ : FTy} (prec : Option ContractPrecision) (x : FVec Ideal ⟨3, ![B, M, K]⟩ φ₁) (y : FVec Ideal ⟨2, ![K, N]⟩ φ₂)
    (e : Fin B) (r : Fin M) (c : Fin N) :
    Host.dotGeneral d prec x y (ix3 e r c) = ∑ k : Fin K, x (ix3 e r k) * y (ix2 k c) := by
  refine (Ideal.dotGeneral_apply d prec _ x y (ix3 e r c)).trans ?_
  rw [← Equiv.sum_comp (contrEquiv1 d K hd.hrank hd.hs).symm]
  refine Finset.sum_congr rfl fun k _ => ?_
  have ek := contrEquiv1_symm_val d K hd.hrank hd.hs k
  have el : d.lhsIdx (ix3 e r c) ((contrEquiv1 d K hd.hrank hd.hs).symm k) = ix3 e r k := by
    funext a; apply Fin.ext
    match a with
    | ⟨0, _⟩ => exact hd.hl0 _ _
    | ⟨1, _⟩ => exact hd.hl1 _ _
    | ⟨2, _⟩ => exact (hd.hl2 _ _).trans ek
  have er : d.rhsIdx (ix3 e r c) ((contrEquiv1 d K hd.hrank hd.hs).symm k) = ix2 k c := by
    funext a; apply Fin.ext
    match a with
    | ⟨0, _⟩ => exact (hd.hr0 _ _).trans ek
    | ⟨1, _⟩ => exact hd.hr1 _ _
  rw [el, er]

theorem rows_proj : Rows (B := 4) (M := 4096) (K := 128) (N := 128) dot_S4x4096x128_S128x128_S4x4096x128_2_0_01_1_n_n where
  hrank := rfl
  hs := rfl
  hl0 := fun _ _ => rfl
  hl1 := fun _ _ => rfl
  hl2 := fun j k => DotDims.lhsIdx_val_of_single _ rfl j k
  hr0 := fun j k => DotDims.rhsIdx_val_of_single _ rfl j k
  hr1 := fun _ _ => rfl

theorem rows_score : Rows (B := 4) (M := 4096) (K := 128) (N := 1) dot_S4x4096x128_S128x1_S4x4096x1_2_0_01_1_n_n where
  hrank := rfl
  hs := rfl
  hl0 := fun _ _ => rfl
  hl1 := fun _ _ => rfl
  hl2 := fun j k => DotDims.lhsIdx_val_of_single _ rfl j k
  hr0 := fun j k => DotDims.rhsIdx_val_of_single _ rfl j k
  hr1 := fun _ _ => rfl

theorem batched_agg : Cert.LibDotBatch.Batched (B := 4) (M := 4096) (K := 4096) (N := 128)
    dot_S4x4096x4096_S4x4096x128_S4x4096x128_2_1_1_2_0_0 where
  hrank := rfl
  hs := rfl
  hl0 := fun _ _ => rfl
  hl1 := fun _ _ => rfl
  hl2 := fun j k => DotDims.lhsIdx_val_of_single _ rfl j k
  hr0 := fun _ _ => rfl
  hr1 := fun j k => DotDims.rhsIdx_val_of_single _ rfl j k
  hr2 := fun _ _ => rfl

/-! ## The row reductions -/

theorem reduces_row : S4x4096x4096.Reduces [2] S4x4096 := by decide

/-- Row (b, q) with key k put back on the reduced axis is (b, q, k). -/
theorem lift_row (h : S4x4096x4096.Reduces [2] S4x4096) (b : Fin 4) (q : Fin 4096) (k : Fin (S4x4096x4096.size 2)) :
    h.lift (ix2 b q) k = ix3 b q (⟨k.val, k.isLt⟩ : Fin 4096) := by
  funext c; apply Fin.ext
  fin_cases c <;> rfl

/-- The host's exponential and exponential-minus-one at an index. -/
theorem hostExp_apply {s : Shape} {φ : FTy} (x : FVec Ideal s φ) (i : s.Idx) : Host.exp x i = Ideal.exp (x i) := rfl
theorem hostExpm1_apply {s : Shape} {φ : FTy} (x : FVec Ideal s φ) (i : s.Idx) : Host.expm1 x i = Ideal.exp (x i) - 1 := rfl

/-! ## The intermediates at an index -/

section Apply

variable (H : FVec Ideal S4x4096x128 .f32) (Wm : FVec Ideal S128x128 .f32) (A : FVec Ideal S256x1 .f32)

theorem whV_apply (b : Fin 4) (n : Fin 4096) (j : Fin 128) :
    whV H Wm (ix3 b n j) = Cert.Gat.wh (fun b n k => H (ix3 b n k)) (fun k j => Wm (ix2 k j)) b n j := by
  unfold whV
  exact dotGeneral_rows rows_proj none H Wm b n j

theorem a1V_apply (j : Fin 128) (u : Fin 1) : a1V A (ix2 j u) = Cert.Gat.a1 (fun i => A (ix2 i (0 : Fin 1))) j := by
  unfold a1V
  refine extractStridedSlice_apply _ A _ _ (ix2 (⟨j.val, by omega⟩ : Fin 256) (0 : Fin 1)) fun c => ?_
  match c with
  | ⟨0, _⟩ => exact (Nat.zero_add _).symm
  | ⟨1, _⟩ =>
    have hu : u.val = 0 := by omega
    show (0 : ℕ) = 0 + u.val
    rw [hu]

theorem a2V_apply (j : Fin 128) (u : Fin 1) : a2V A (ix2 j u) = Cert.Gat.a2 (fun i => A (ix2 i (0 : Fin 1))) j := by
  unfold a2V
  refine extractStridedSlice_apply _ A _ _ (ix2 (⟨128 + j.val, by omega⟩ : Fin 256) (0 : Fin 1)) fun c => ?_
  match c with
  | ⟨0, _⟩ => rfl
  | ⟨1, _⟩ =>
    have hu : u.val = 0 := by omega
    show (0 : ℕ) = 0 + u.val
    rw [hu]

theorem s1V_apply (b : Fin 4) (n : Fin 4096) (u : Fin 1) :
    s1V H Wm A (ix3 b n u) = Cert.Gat.s1 (fun b n k => H (ix3 b n k)) (fun k j => Wm (ix2 k j)) (fun i => A (ix2 i (0 : Fin 1))) b n := by
  unfold s1V
  rw [dotGeneral_rows rows_score]
  unfold Cert.Gat.s1
  refine Finset.sum_congr rfl fun k _ => ?_
  rw [whV_apply, a1V_apply]

theorem s2V_apply (b : Fin 4) (n : Fin 4096) (u : Fin 1) :
    s2V H Wm A (ix3 b n u) = Cert.Gat.s2 (fun b n k => H (ix3 b n k)) (fun k j => Wm (ix2 k j)) (fun i => A (ix2 i (0 : Fin 1))) b n := by
  unfold s2V
  rw [dotGeneral_rows rows_score]
  unfold Cert.Gat.s2
  refine Finset.sum_congr rfl fun k _ => ?_
  rw [whV_apply, a2V_apply]

theorem sumV_apply (b : Fin 4) (q k : Fin 4096) :
    sumV H Wm A (ix3 b q k) = Cert.Gat.s1 (fun b n k => H (ix3 b n k)) (fun k j => Wm (ix2 k j)) (fun i => A (ix2 i (0 : Fin 1))) b q + Cert.Gat.s2 (fun b n k => H (ix3 b n k)) (fun k j => Wm (ix2 k j)) (fun i => A (ix2 i (0 : Fin 1))) b k := by
  unfold sumV
  rw [addf_apply,
    broadcastInDim_apply _ _ (s1V H Wm A) (ix3 b q k) (ix3 b q (0 : Fin 1)) (fun a => match a with | ⟨0, _⟩ => rfl | ⟨1, _⟩ => rfl | ⟨2, _⟩ => rfl),
    broadcastInDim_apply _ _ (transpose S4x1x4096 [0, 2, 1] (s2V H Wm A) transposes_S4x4096x1_S4x1x4096_0_2_1) (ix3 b q k)
      (ix3 b (0 : Fin 1) k) (fun a => match a with | ⟨0, _⟩ => rfl | ⟨1, _⟩ => rfl | ⟨2, _⟩ => rfl),
    transpose_ix3_021_apply, s1V_apply, s2V_apply]

theorem logitV_apply (b : Fin 4) (q k : Fin 4096) :
    logitV H Wm A (ix3 b q k) = Cert.Gat.logit (fun b n k => H (ix3 b n k)) (fun k j => Wm (ix2 k j)) (fun i => A (ix2 i (0 : Fin 1))) b q k := by
  unfold logitV
  simp only [select_apply, cmpf_apply, mulf_apply, broadcastInDim_scalar_apply, constant_apply, sumV_apply]
  rfl

theorem rowMaxV_apply (b : Fin 4) (q : Fin 4096) :
    rowMaxV H Wm A (ix2 b q) = Cert.Gat.shiftR (fun b n k => H (ix3 b n k)) (fun k j => Wm (ix2 k j)) (fun i => A (ix2 i (0 : Fin 1))) b q := by
  unfold rowMaxV
  rw [maximumf_apply, broadcastInDim_scalar_apply, constant_apply,
    Host.reduce_eq_fold_single FloatOps.maximumf (logitV H Wm A) _ reducesTo_S4x4096x4096_S4x4096_d2 reduces_row h_S_]
  have hf : (logitV H Wm A ∘ reduces_row.lift (ix2 b q))
      = fun k : Fin 4096 => Cert.Gat.logit (fun b n k => H (ix3 b n k)) (fun k j => Wm (ix2 k j)) (fun i => A (ix2 i (0 : Fin 1))) b q k :=
    funext fun k => by rw [Function.comp_apply, lift_row, logitV_apply] <;> rfl
  rw [hf]
  rfl

theorem pV_apply (b : Fin 4) (q k : Fin 4096) :
    pV H Wm A (ix3 b q k) = Cert.Gat.pR (fun b n k => H (ix3 b n k)) (fun k j => Wm (ix2 k j)) (fun i => A (ix2 i (0 : Fin 1))) b q k := by
  unfold pV
  rw [hostExp_apply, subf_apply, logitV_apply,
    broadcastInDim_apply _ _ _ (ix3 b q k) (ix3 b q (0 : Fin 1)) (fun a => match a with | ⟨0, _⟩ => rfl | ⟨1, _⟩ => rfl | ⟨2, _⟩ => rfl),
    broadcastInDim_apply _ _ _ (ix3 b q (0 : Fin 1)) (ix2 b q) (fun a => match a with | ⟨0, _⟩ => rfl | ⟨1, _⟩ => rfl),
    rowMaxV_apply]
  rfl

theorem rowSumV_apply (b : Fin 4) (q : Fin 4096) :
    rowSumV H Wm A (ix2 b q) = Cert.Gat.zeroW + ∑ k : Fin 4096, Cert.Gat.pR (fun b n k => H (ix3 b n k)) (fun k j => Wm (ix2 k j)) (fun i => A (ix2 i (0 : Fin 1))) b q k := by
  unfold rowSumV
  rw [hostReduceAdd_apply, Ideal.hostReduceAdd_single reducesTo_S4x4096x4096_S4x4096_d2 reduces_row, constant_apply]
  refine congrArg (Cert.Gat.zeroW + ·) (Finset.sum_congr rfl fun k _ => ?_)
  rw [lift_row, pV_apply] <;> rfl

theorem attV_apply (b : Fin 4) (q k : Fin 4096) :
    attV H Wm A (ix3 b q k)
      = Ideal.div (Cert.Gat.pR (fun b n k => H (ix3 b n k)) (fun k j => Wm (ix2 k j)) (fun i => A (ix2 i (0 : Fin 1))) b q k) (Cert.Gat.zeroW + ∑ k' : Fin 4096, Cert.Gat.pR (fun b n k => H (ix3 b n k)) (fun k j => Wm (ix2 k j)) (fun i => A (ix2 i (0 : Fin 1))) b q k') := by
  unfold attV
  rw [hostDivf_apply, pV_apply,
    broadcastInDim_apply _ _ _ (ix3 b q k) (ix3 b q (0 : Fin 1)) (fun a => match a with | ⟨0, _⟩ => rfl | ⟨1, _⟩ => rfl | ⟨2, _⟩ => rfl),
    broadcastInDim_apply _ _ _ (ix3 b q (0 : Fin 1)) (ix2 b q) (fun a => match a with | ⟨0, _⟩ => rfl | ⟨1, _⟩ => rfl),
    rowSumV_apply]

theorem aggV_apply (b : Fin 4) (q : Fin 4096) (f : Fin 128) :
    aggV H Wm A (ix3 b q f)
      = ∑ k : Fin 4096, Ideal.div (Cert.Gat.pR (fun b n k => H (ix3 b n k)) (fun k j => Wm (ix2 k j)) (fun i => A (ix2 i (0 : Fin 1))) b q k) (Cert.Gat.zeroW + ∑ k' : Fin 4096, Cert.Gat.pR (fun b n k => H (ix3 b n k)) (fun k j => Wm (ix2 k j)) (fun i => A (ix2 i (0 : Fin 1))) b q k')
          * Cert.Gat.wh (fun b n k => H (ix3 b n k)) (fun k j => Wm (ix2 k j)) b k f := by
  unfold aggV
  rw [Cert.LibDotBatch.dotGeneral_ix3 batched_agg]
  refine Finset.sum_congr rfl fun k _ => ?_
  rw [attV_apply, whV_apply]

/-- The reference's result at entry (b, q, f) is the specification's formula. -/
theorem out_apply (b : Fin 4) (q : Fin 4096) (f : Fin 128) :
    out H Wm A (ValueIdx.ix3 b q f) = Cert.Gat.refOut (fun b n k => H (ValueIdx.ix3 b n k)) (fun k j => Wm (ValueIdx.ix2 k j))
      (fun i => A (ValueIdx.ix2 i (0 : Fin 1))) b q f := by
  unfold out
  simp only [select_apply, cmpf_apply, mulf_apply, hostExpm1_apply, broadcastInDim_scalar_apply, constant_apply, aggV_apply]
  rfl

end Apply

end Cert.ReferenceIdeal.RefValue

end
-- ==== Proof.LibSoftmaxShift.lean ====
/-
  A softmax-weighted average does not depend on the shift.  For real logits `e j` and real values `w j` over a
  nonempty finite index set, and any two real shifts `m`, `M`,

      (Σ_j exp(e j − m) · w j) / (Σ_j exp(e j − m))  =  Σ_j (exp(e j − M) / Σ_k exp(e k − M)) · w j ,

  since exp(e j − m) = exp(M − m) · exp(e j − M) and the common positive factor cancels.  Stated over the reals and then
  over the extended reals for real-valued data (the exponential, the quotient and the sums of the ideal float
  instance), with two companions: a sum over `a·b` consecutive indices taken `b` at a time, and the maximum of a
  nonempty finite family of reals folded from −∞, which is a real.
-/
import Idealize.ShloMosaic.PureOps.Ideal.Laws

namespace Cert.LibSoftmaxShift

open Idealize.ShloMosaic

/-! ## Over the reals -/

theorem shift_real {J : Type*} [Fintype J] [Nonempty J] (e w : J → ℝ) (m M : ℝ) :
    (∑ j, Real.exp (e j - m) * w j) / (∑ j, Real.exp (e j - m))
      = ∑ j, Real.exp (e j - M) / (∑ k, Real.exp (e k - M)) * w j := by
  have hS : 0 < ∑ k, Real.exp (e k - M) := Finset.sum_pos (fun j _ => Real.exp_pos _) Finset.univ_nonempty
  have hκ : Real.exp (M - m) ≠ 0 := (Real.exp_pos _).ne'
  have key : ∀ j, Real.exp (e j - m) = Real.exp (M - m) * Real.exp (e j - M) := fun j => by
    rw [← Real.exp_add]; congr 1; ring
  have hnum : ∑ j, Real.exp (e j - m) * w j = Real.exp (M - m) * ∑ j, Real.exp (e j - M) * w j := by
    rw [Finset.mul_sum]; exact Finset.sum_congr rfl fun j _ => by rw [key j, mul_assoc]
  have hden : ∑ j, Real.exp (e j - m) = Real.exp (M - m) * ∑ j, Real.exp (e j - M) := by
    rw [Finset.mul_sum]; exact Finset.sum_congr rfl fun j _ => key j
  rw [hnum, hden, mul_div_mul_left _ _ hκ, Finset.sum_div]
  exact Finset.sum_congr rfl fun j _ => by rw [div_mul_eq_mul_div]

/-! ## Reals inside the extended reals -/

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_coe_coe (x y : ℝ) (hy : y ≠ 0) : Ideal.div (x : EReal) (y : EReal) = ((x / y : ℝ) : EReal) := by
  rw [Ideal.div_coe hy, ← EReal.coe_mul, mul_one_div]

theorem exp_sub_coe (x y : ℝ) : Ideal.exp ((x : EReal) - (y : EReal)) = ((Real.exp (x - y) : ℝ) : EReal) := by
  rw [← EReal.coe_sub, Ideal.exp_coe]

/-- The weighted average over the extended reals, for real data: the shift `m` against any real shift `Mx`, the
    second normalizer written from zero as a host sum is. -/
theorem shift_ereal {J : Type*} [Fintype J] [Nonempty J] (e w : J → ℝ) (m : ℝ) (Mx : EReal) (hM : ∃ r : ℝ, Mx = (r : EReal)) :
    Ideal.div (∑ j, Ideal.exp ((e j : EReal) - (m : EReal)) * (w j : EReal)) (∑ j, Ideal.exp ((e j : EReal) - (m : EReal)))
      = ∑ j, Ideal.div (Ideal.exp ((e j : EReal) - Mx)) (0 + ∑ k, Ideal.exp ((e k : EReal) - Mx)) * (w j : EReal) := by
  obtain ⟨M, rfl⟩ := hM
  have hS : ∀ μ : ℝ, (∑ k, Real.exp (e k - μ)) ≠ 0 := fun μ =>
    (Finset.sum_pos (fun j _ => Real.exp_pos _) Finset.univ_nonempty).ne'
  simp only [exp_sub_coe, ← EReal.coe_mul, coe_sum, zero_add]
  rw [div_coe_coe _ _ (hS m)]
  have : ∀ j, Ideal.div ((Real.exp (e j - M) : ℝ) : EReal) ((∑ k, Real.exp (e k - M) : ℝ) : EReal) * (w j : EReal)
      = ((Real.exp (e j - M) / (∑ k, Real.exp (e k - M)) * w j : ℝ) : EReal) := fun j => by
    rw [div_coe_coe _ _ (hS M), ← EReal.coe_mul]
  simp only [this, coe_sum]
  exact congrArg _ (shift_real e w m M)

/-! ## A maximum folded from −∞ over real entries -/

theorem fold_max_bot_real {ι : Type*} (s : Finset ι) (hs : s.Nonempty) (f : ι → ℝ) :
    ∃ r : ℝ, s.fold max (⊥ : EReal) (fun i => (f i : EReal)) = (r : EReal) := by
  classical
  induction s using Finset.induction_on with
  | empty => exact absurd hs Finset.not_nonempty_empty
  | insert a s ha ih =>
    rw [Finset.fold_insert ha]
    rcases s.eq_empty_or_nonempty with rfl | hne
    · exact ⟨f a, by simp⟩
    · obtain ⟨r, hr⟩ := ih hne
      exact ⟨max (f a) r, by rw [hr]; exact (EReal.coe_strictMono.monotone.map_max).symm⟩

/-! ## A sum taken in consecutive runs -/

theorem sum_runs {M : Type*} [AddCommMonoid M] (b : ℕ) (f : ℕ → M) : ∀ a : ℕ,
    ∑ k ∈ Finset.range a, ∑ j ∈ Finset.range b, f (b * k + j) = ∑ n ∈ Finset.range (a * b), f n
  | 0 => by simp
  | a + 1 => by
    rw [Finset.sum_range_succ, sum_runs b f a, Nat.succ_mul, Finset.sum_range_add, Nat.mul_comm a b]

end Cert.LibSoftmaxShift
-- ==== Proof.LibMaxFold.lean ====
/-
  Maxima folded over a finite index set, as both programs' softmax takes them: the fold of `max` over the set,
  starting from some value `b` (for the programs, −∞).  Such a fold lies above its starting value and above
  every entry, and nothing smaller does: it is the least upper bound of `b` and the family.  Two consequences are
  used: taking one more maximum with the starting value changes nothing, whatever that value is; and the fold
  only depends on the family through its values, so it may be re-indexed along a bijection.
-/
import Mathlib.Data.EReal.Basic
import Mathlib.Data.Finset.Fold

namespace Cert.LibMaxFold

variable {α : Type*} [LinearOrder α] {ι : Type*}

/-- A fold of `max` lies above the value it starts from. -/
theorem start_le_fold (s : Finset ι) (b : α) (f : ι → α) : b ≤ s.fold max b f :=
  (Finset.le_fold_max b).mpr (Or.inl le_rfl)

/-- One more maximum with the starting value changes nothing. -/
theorem max_start_fold (s : Finset ι) (b : α) (f : ι → α) : max b (s.fold max b f) = s.fold max b f :=
  max_eq_right (start_le_fold s b f)

/-- The same with the operands in the other order. -/
theorem max_fold_start (s : Finset ι) (b : α) (f : ι → α) : max (s.fold max b f) b = s.fold max b f :=
  max_eq_left (start_le_fold s b f)

/-- Two families with the same values have the same fold. -/
theorem fold_congr (s : Finset ι) (b : α) {f g : ι → α} (h : ∀ i ∈ s, f i = g i) :
    s.fold max b f = s.fold max b g :=
  Finset.fold_congr h

end Cert.LibMaxFold
-- ==== Proof.Algebra.lean ====
/-
  The two attention formulas agree on real data.

  With real inputs every projected feature, score and logit is a real number.  The leaky rectifier with a positive
  slope is monotone on the extended reals and sends −∞ to −∞, so it commutes with a maximum folded from −∞:
  the largest logit of a row, max_k lrelu(s1 q + s2 k), is lrelu(s1 q + max_k s2 k).  The two programs therefore
  shift their exponentials by the same real number, their unnormalized weights coincide, and a softmax-weighted
  average may be normalized once at the end or weight by weight.  The two spellings of the ELU agree at every
  extended real.
-/
import proofs.«135230_j47184510714010_2_alg».proof.Proof.Spec
import proofs.«135230_j47184510714010_2_alg».proof.Proof.LibSoftmaxShift
import proofs.«135230_j47184510714010_2_alg».proof.Proof.LibMaxFold

namespace Cert.Gat

open Idealize.ShloMosaic

/-! ## The four literal words -/

theorem zeroW_eq : zeroW = 0 := Ideal.ofBits_zero_f32

theorem oneW_eq : oneW = 1 := by
  unfold oneW; simp [Ideal.ofBits, Ideal.ieee, -EReal.coe_mul]; norm_num

theorem negInfW_eq : negInfW = ⊥ := by
  unfold negInfW; simp [Ideal.ofBits, Ideal.ieee]

/-- The slope word denotes a positive real. -/
theorem slope_pos_real : ∃ c : ℝ, 0 < c ∧ slope = (c : EReal) := by
  unfold slope; simp [Ideal.ofBits, Ideal.ieee, -EReal.coe_mul]

/-! ## The leaky rectifier -/

theorem lrelu_eq (x : EReal) : lrelu x = if 0 ≤ x then x else slope * x := by
  by_cases hx : (0 : EReal) ≤ x <;> simp [lrelu, Ideal.cmp, Scalar.select, zeroW_eq, hx]

/-- For a positive slope the leaky rectifier is monotone on the whole extended line. -/
theorem lrelu_mono : Monotone lrelu := by
  obtain ⟨c, hc, hs⟩ := slope_pos_real
  have hs0 : (0 : EReal) ≤ slope := by rw [hs]; exact_mod_cast hc.le
  intro x y hxy
  rw [lrelu_eq, lrelu_eq]
  by_cases hx : (0 : EReal) ≤ x
  · rw [if_pos hx, if_pos (hx.trans hxy)]; exact hxy
  · rw [if_neg hx]
    by_cases hy : (0 : EReal) ≤ y
    · rw [if_pos hy]
      exact (mul_nonpos_of_nonneg_of_nonpos hs0 (not_le.mp hx).le).trans hy
    · rw [if_neg hy]; exact mul_le_mul_of_nonneg_left hxy hs0

theorem lrelu_bot : lrelu ⊥ = ⊥ := by
  obtain ⟨c, hc, hs⟩ := slope_pos_real
  rw [lrelu_eq, if_neg (by simp), hs, EReal.coe_mul_bot_of_pos hc]

/-- The leaky rectifier of a real is a real. -/
theorem lrelu_coe (r : ℝ) : ∃ t : ℝ, lrelu (r : EReal) = (t : EReal) := by
  obtain ⟨c, _, hs⟩ := slope_pos_real
  rw [lrelu_eq]
  by_cases hr : (0 : EReal) ≤ (r : EReal)
  · exact ⟨r, by rw [if_pos hr]⟩
  · exact ⟨c * r, by rw [if_neg hr, hs, EReal.coe_mul]⟩

/-- The rectifier of a translate commutes with a maximum folded from −∞. -/
theorem fold_lrelu {ι : Type*} (s : Finset ι) (u : EReal) (v : ι → EReal) :
    s.fold max (⊥ : EReal) (fun k => lrelu (u + v k)) = lrelu (u + s.fold max ⊥ v) := by
  have hm : Monotone fun y : EReal => lrelu (u + y) := fun x y hxy => lrelu_mono (add_le_add le_rfl hxy)
  have key := Finset.fold_hom (op := max) (op' := max) (m := fun y : EReal => lrelu (u + y)) (b := ⊥) (f := v)
    (s := s) (fun x y => hm.map_max)
  rw [← key]
  simp only [EReal.add_bot, lrelu_bot]

/-! ## The two spellings of the ELU -/

theorem eluK_eq_eluR (x : EReal) : eluK x = eluR x := by
  unfold eluK eluR
  rw [zeroW_eq, oneW_eq]
  by_cases hx : (0 : EReal) < x <;> simp [Ideal.cmp, Scalar.select, hx]

section Formulas

variable (h : Fin 4 → Fin 4096 → Fin 128 → EReal) (W : Fin 128 → Fin 128 → EReal) (a : Fin 256 → EReal)

/-! ## The two shifts are the same -/

theorem shiftR_eq_shiftK (b : Fin 4) (q : Fin 4096) : shiftR h W a b q = shiftK h W a b q := by
  unfold shiftR shiftK keyMax logit
  rw [negInfW_eq, LibMaxFold.max_start_fold, fold_lrelu]

/-! ## Real data gives real features, scores, logits and shift -/

theorem wh_real (hh : ∀ b n k, ∃ r : ℝ, h b n k = (r : EReal)) (hW : ∀ k j, ∃ r : ℝ, W k j = (r : EReal)) :
    ∃ whr : Fin 4 → Fin 4096 → Fin 128 → ℝ, ∀ b n j, wh h W b n j = (whr b n j : EReal) := by
  choose hr hhr using hh
  choose Wr hWr using hW
  refine ⟨fun b n j => ∑ k, hr b n k * Wr k j, fun b n j => ?_⟩
  unfold wh
  simp only [hhr, hWr, ← EReal.coe_mul]
  exact LibSoftmaxShift.coe_sum _ _

theorem s1_real (whr : Fin 4 → Fin 4096 → Fin 128 → ℝ) (hwh : ∀ b n j, wh h W b n j = (whr b n j : EReal))
    (ha : ∀ i, ∃ r : ℝ, a i = (r : EReal)) :
    ∃ sr : Fin 4 → Fin 4096 → ℝ, ∀ b n, s1 h W a b n = (sr b n : EReal) := by
  choose ar har using ha
  refine ⟨fun b n => ∑ j : Fin 128, whr b n j * ar ⟨j.val, by omega⟩, fun b n => ?_⟩
  unfold s1 a1
  simp only [hwh, har, ← EReal.coe_mul]
  exact LibSoftmaxShift.coe_sum _ _

theorem s2_real (whr : Fin 4 → Fin 4096 → Fin 128 → ℝ) (hwh : ∀ b n j, wh h W b n j = (whr b n j : EReal))
    (ha : ∀ i, ∃ r : ℝ, a i = (r : EReal)) :
    ∃ sr : Fin 4 → Fin 4096 → ℝ, ∀ b n, s2 h W a b n = (sr b n : EReal) := by
  choose ar har using ha
  refine ⟨fun b n => ∑ j : Fin 128, whr b n j * ar ⟨128 + j.val, by omega⟩, fun b n => ?_⟩
  unfold s2 a2
  simp only [hwh, har, ← EReal.coe_mul]
  exact LibSoftmaxShift.coe_sum _ _

/-! ## The two results agree -/

theorem kerOut_eq_refOut
    (hh : ∀ b n k, ∃ r : ℝ, h b n k = (r : EReal)) (hW : ∀ k j, ∃ r : ℝ, W k j = (r : EReal))
    (ha : ∀ i, ∃ r : ℝ, a i = (r : EReal))
    (b : Fin 4) (q : Fin 4096) (f : Fin 128) :
    kerOut h W a b q f = refOut h W a b q f := by
  obtain ⟨whr, hwh⟩ := wh_real h W hh hW
  obtain ⟨s1r, hs1⟩ := s1_real h W a whr hwh ha
  obtain ⟨s2r, hs2⟩ := s2_real h W a whr hwh ha
  -- the logits of the row are reals
  have hlog : ∀ k, ∃ t : ℝ, logit h W a b q k = (t : EReal) := fun k => by
    unfold logit; rw [hs1, hs2, ← EReal.coe_add]; exact lrelu_coe _
  choose L hL using hlog
  -- so is the common shift
  obtain ⟨km, hkm⟩ : ∃ r : ℝ, keyMax h W a b = (r : EReal) := by
    unfold keyMax
    rw [negInfW_eq]
    simp only [hs2]
    exact LibSoftmaxShift.fold_max_bot_real Finset.univ Finset.univ_nonempty _
  obtain ⟨m, hm⟩ : ∃ r : ℝ, shiftK h W a b q = (r : EReal) := by
    unfold shiftK; rw [hs1, hkm, ← EReal.coe_add]; exact lrelu_coe _
  unfold kerOut refOut
  rw [eluK_eq_eluR]
  congr 1
  unfold pK pR
  simp only [shiftR_eq_shiftK, hL, hm, hwh, zeroW_eq]
  exact LibSoftmaxShift.shift_ereal L (fun k => whr b k f) m (m : EReal) ⟨m, rfl⟩

end Formulas

end Cert.Gat
-- ==== Proof.Finite.lean ====
/-
  From the precondition to real-valued argument arrays.

  The precondition says that, for each of the three argument arrays, every entry's absolute value is below +∞
  (a comparison bit per entry, all of them folded by "and" into one bit, and the three bits joined by "and").
  An "and" that is 1 had both operands 1; a fold by "and" that is 1 met only 1s; and an extended real whose
  absolute value max(x, −x) is below +∞ is neither −∞ nor +∞, hence a real.
-/
import proofs.«135230_j47184510714010_2_alg».proof.Defs
import Idealize.ShloMosaic.Lib.ReduceAll
import Idealize.ShloMosaic.Lib.ValueIdx

namespace Cert.Gat

open Idealize.ShloMosaic

/-- The shape with no axes has a single index. -/
instance : Subsingleton Cert.Pre_finite_inputs.S_.Idx := ⟨fun a b => funext fun d => d.elim0⟩

/-- An extended real whose absolute value is below the +∞ word is a real. -/
theorem real_of_abs_lt_top (x : EReal)
    (hx : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at hx
  induction x using EReal.rec with
  | bot => simp [Ideal.cmp] at hx
  | coe r => exact ⟨r, rfl⟩
  | top => simp [Ideal.cmp] at hx

/-- Under the precondition every entry of the three argument arrays is a real. -/
theorem real_of_pre [hPre : Cert.Pre_finite_inputs.Facts] (m : (ℓ : Loc Cert.KernelIdeal.nD Cert.KernelIdeal.τ Cert.KernelIdeal.sig) → Buf (Elt Ideal) ℓ) (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
  ∧ (∀ i, ∃ r : ℝ, m ((c.tc : Thread Cert.KernelIdeal.nD Cert.KernelIdeal.τ).loc Cert.KernelIdeal.main_arg1) i = (r : EReal))
  ∧ (∀ i, ∃ r : ℝ, m ((c.tc : Thread Cert.KernelIdeal.nD Cert.KernelIdeal.τ).loc Cert.KernelIdeal.main_arg2) i = (r : EReal)) := by
  have h := congrFun (hpre c) ValueIdx.ix0
  dsimp only [Cert.Pre_finite_inputs.fn] at h
  obtain ⟨h01, h2⟩ := IntOp.andi_eq_one.1 h
  obtain ⟨h0, h1⟩ := IntOp.andi_eq_one.1 h01
  refine ⟨fun i => ?_, fun i => ?_, fun i => ?_⟩
  · have e := Host.reduce_andi_all _ _ _ _ _ h0 i
    exact real_of_abs_lt_top (m ((c.tc : Thread Cert.KernelIdeal.nD Cert.KernelIdeal.τ).loc Cert.KernelIdeal.main_arg0) i) e
  · have e := Host.reduce_andi_all _ _ _ _ _ h1 i
    exact real_of_abs_lt_top (m ((c.tc : Thread Cert.KernelIdeal.nD Cert.KernelIdeal.τ).loc Cert.KernelIdeal.main_arg1) i) e
  · have e := Host.reduce_andi_all _ _ _ _ _ h2 i
    exact real_of_abs_lt_top (m ((c.tc : Thread Cert.KernelIdeal.nD Cert.KernelIdeal.τ).loc Cert.KernelIdeal.main_arg2) i) e

end Cert.Gat
-- ==== Proof.LibReshape.lean ====
/-
  Row-major reshapes and one broadcast read at an index given by coordinates.
  • A trailing unit axis added, [a, b] → [a, b, 1]: entry (p, q, u) of the result is entry (p, q) of the operand.
  • That unit axis broadcast, [a, b, 1] → [a, b, c]: entry (p, q, r) of the result is entry (p, q, 0) of the operand.
  • MERGING the two trailing axes, [a, b, c] → [a, d] with d = b · c: entry (o, i) of the result is entry
    (o, i / c, i % c) of the operand.
  • SPLITTING the leading axis, [n, c] → [a, b, c] with n = a · b: entry (p, q, k) of the result is entry
    (p · b + q, k) of the operand.
  The reshapes are the library's `shapeCast_apply` with the row-major positions written out, the broadcast its
  `broadcastTo_apply` axis by axis.
-/
import Idealize.ShloMosaic.Lib.Pipeline.Value
import Idealize.ShloMosaic.Lib.ValueIdx

namespace Idealize.ShloMosaic.ValueIdx

open Idealize.ShloMosaic

variable {α : Type}

/-- `[a, b]` viewed as `[a, b, 1]`: at `(p, q, u)` the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- `[a, b, 1]` broadcast to `[a, b, c]`: at `(p, q, r)` the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- `[a, b, c]` viewed as `[a, d]`, `d = b · c`: at `(o, i)` the operand at `(o, i / c, i % c)`. -/
theorem shapeCast_abc_ad_apply {a b c d : ℕ} (hd : d = b * c) (hc : 0 < c) (x : (⟨3, ![a, b, c]⟩ : Shape).Idx → α)
    (h : (⟨3, ![a, b, c]⟩ : Shape).ShapeCasts ⟨2, ![a, d]⟩) (o : Fin a) (i : Fin d) :
    shapeCast ⟨2, ![a, d]⟩ x h (ix2 o i)
      = x (ix3 o (⟨i.val / c, Nat.div_lt_of_lt_mul (lt_of_lt_of_eq i.isLt (hd.trans (Nat.mul_comm b c)))⟩ : Fin b)
          (⟨i.val % c, Nat.mod_lt _ hc⟩ : Fin c)) :=
  shapeCast_apply x h _ _ (by
    rw [Shape.rowMajor_val_three, Shape.rowMajor_val_two]
    show (o.val * b + i.val / c) * c + i.val % c = o.val * d + i.val
    rw [Nat.add_mul, Nat.add_assoc, Nat.div_add_mod' i.val c, Nat.mul_assoc, ← hd])

/-- `[n, c]` viewed as `[a, b, c]`, `n = a · b`: at `(p, q, k)` the operand at `(p · b + q, k)`. -/
theorem shapeCast_nc_abc_apply {a b c n : ℕ} (hn : n = a * b) (x : (⟨2, ![n, c]⟩ : Shape).Idx → α)
    (h : (⟨2, ![n, c]⟩ : Shape).ShapeCasts ⟨3, ![a, b, c]⟩) (p : Fin a) (q : Fin b) (k : Fin c) :
    shapeCast ⟨3, ![a, b, c]⟩ x h (ix3 p q k)
      = x (ix2 (⟨p.val * b + q.val, by
            rw [hn]
            calc p.val * b + q.val < p.val * b + b := Nat.add_lt_add_left q.isLt _
              _ = (p.val + 1) * b := by rw [Nat.add_mul, Nat.one_mul]
              _ ≤ a * b := Nat.mul_le_mul_right b p.isLt⟩ : Fin n) k) :=
  shapeCast_apply x h _ _ (by
    rw [Shape.rowMajor_val_three, Shape.rowMajor_val_two]
    rfl)

end Idealize.ShloMosaic.ValueIdx
-- ==== Proof.PayLayout.lean ====
/-
  Layout operations on arrays of rank two and three read at an index given by coordinates, and two contractions read
  at an entry.
  • An index of a rank-3 shape is the one with the same three coordinates, whatever term spells it.
  • A middle unit axis broadcast, [a, 1, c] → [a, b, c]: entry (p, q, r) of the result is entry (p, 0, r) of the operand.
  • A row broadcast over two leading axes, [1, 1, c] → [a, b, c]: entry (p, q, r) of the result is entry (0, 0, r).
  • A row [1, c] viewed as [1, 1, c]: entry (u, w, r) of the result is entry (0, r) of the operand.
  • MERGING the two leading axes, [a, b, c] → [n, c] with n = a · b, read at row p · b + q: entry (p, q, k) of the operand.
  • A sum along the last axis of an [a, b, K] array from the zero word, over the extended reals, at (p, q): ∑ k, entry (p, q, k).
  • A plain matrix product [M, K] × [K, N] into the zero accumulator, at (r, c): ∑ k, left (r, k) · right (k, c).
-/
import Idealize.ShloMosaic.Lib.Pipeline.Value
import Idealize.ShloMosaic.Lib.ValueIdx
import Idealize.ShloMosaic.PureOps.Ideal.Laws

namespace Cert.KernelIdeal.Pay

open Idealize.ShloMosaic Idealize.ShloMosaic.ValueIdx

variable {α : Type}

/-- An index of a rank-3 shape is the one with the same three coordinates. -/
theorem idx3_ext {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c :=
  funext fun d => Fin.ext (by match d with | ⟨0, _⟩ => exact h0 | ⟨1, _⟩ => exact h1 | ⟨2, _⟩ => exact h2)

/-- An index of a rank-2 shape is the one with the same two coordinates. -/
theorem idx2_ext' {n0 n1 : Nat} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

/-- [a, 1, c] broadcast to [a, b, c]: at (p, q, r) the operand at (p, 0, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- [1, 1, c] broadcast to [a, b, c]: at (p, q, r) the operand at (0, 0, r). -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- [1, c] viewed as [1, 1, c]: at (u, w, r) the operand at (0, r). -/
theorem shapeCast_1c_11c_apply {c : ℕ} (x : (⟨2, ![1, c]⟩ : Shape).Idx → α)
    (h : (⟨2, ![1, c]⟩ : Shape).ShapeCasts ⟨3, ![1, 1, c]⟩) (u w : Fin 1) (r : Fin c) :
    shapeCast ⟨3, ![1, 1, c]⟩ x h (ix3 u w r) = x (ix2 (0 : Fin 1) r) :=
  shapeCast_apply x h _ _ (by
    have hu : u.val = 0 := by omega
    have hw : w.val = 0 := by omega
    rw [Shape.rowMajor_val_three, Shape.rowMajor_val_two]
    show 0 * c + r.val = (u.val * 1 + w.val) * c + r.val
    rw [hu, hw])

/-- [a, b, c] viewed as [n, c], n = a · b: at row p · b + q, column k, the operand at (p, q, k). -/
theorem shapeCast_abc_nc_row_apply {a b c n : ℕ} (x : (⟨3, ![a, b, c]⟩ : Shape).Idx → α)
    (h : (⟨3, ![a, b, c]⟩ : Shape).ShapeCasts ⟨2, ![n, c]⟩) (p : Fin a) (q : Fin b) (k : Fin c)
    (hlt : p.val * b + q.val < n) :
    shapeCast ⟨2, ![n, c]⟩ x h (ix2 (⟨p.val * b + q.val, hlt⟩ : Fin n) k) = x (ix3 p q k) :=
  shapeCast_apply x h _ _ (by
    rw [Shape.rowMajor_val_three, Shape.rowMajor_val_two]
    rfl)

/-- A sum along the last axis of an [a, b, K] array, from the zero word, read at (p, q): the sum over k of the
    entries (p, q, k). The shape fact, the format fact and the accumulator's neutrality are whatever proofs the
    operation carries. -/
theorem multiReduction_add_last3_apply {a b K : ℕ} (src : FVec Ideal ⟨3, ![a, b, K]⟩ .f32)
    (hr : (⟨3, ![a, b, K]⟩ : Shape).Reduces [2] ⟨2, ![a, b]⟩) (hφ : FKind.Formats .f32)
    (hacc : (0x00000000#32 : BitVec 32) = FKind.add.neutral .f32 hφ) (p : Fin a) (q : Fin b) :
    multiReduction .add [2] ⟨2, ![a, b]⟩ src 0x00000000#32 hr hφ hacc (ix2 p q) = ∑ k : Fin K, src (ix3 p q k) :=
  (Ideal.multiReduction_add_single src _ hr hφ hacc (ix2 p q)).trans
    (Finset.sum_congr rfl fun k _ => congrArg src (idx3_ext _ p q k rfl rfl rfl))

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

/-- A plain matrix product into the zero accumulator, at entry (r, c): the sum over k of left (r, k) · right (k, c). -/
theorem matmul_ix2 {M K N : Nat} {d : DotDims ⟨2, ![M, K]⟩ ⟨2, ![K, N]⟩ ⟨2, ![M, N]⟩} (hd : Plain d)
    {φ₁ φ₂ : FTy} (prec : Option ContractPrecision) (x : FVec Ideal ⟨2, ![M, K]⟩ φ₁) (y : FVec Ideal ⟨2, ![K, N]⟩ φ₂)
    (r : Fin M) (c : Fin N) :
    matmul d prec x y (constant ⟨2, ![M, N]⟩ .f32 0x00000000#32) (ix2 r c) = ∑ k : Fin K, x (ix2 r k) * y (ix2 k c) := by
  refine (Ideal.matmul_constant_zero_apply d prec x y (ix2 r c)).trans ?_
  rw [← Equiv.sum_comp (contrEquiv1 d K hd.hrank hd.hs).symm]
  refine Finset.sum_congr rfl fun k _ => ?_
  have ek := contrEquiv1_symm_val d K hd.hrank hd.hs k
  have el : d.lhsIdx (ix2 r c) ((contrEquiv1 d K hd.hrank hd.hs).symm k) = ix2 r k :=
    idx2_ext' _ r k (hd.hl0 _ _) ((hd.hl1 _ _).trans ek)
  have er : d.rhsIdx (ix2 r c) ((contrEquiv1 d K hd.hrank hd.hs).symm k) = ix2 k c :=
    idx2_ext' _ k c ((hd.hr0 _ _).trans ek) (hd.hr1 _ _)
  rw [el, er]

end Cert.KernelIdeal.Pay
-- ==== Proof.Pay0.lean ====
/-
  The projection kernel's arithmetic read at an index, over the extended reals (floats exact, format changes the identity).

  For one block of 1024 nodes of each of the 4 graphs, h : [4, 1024, 128], with W : [128, 128] and the two halves of the
  attention vector as rows [1, 128]:
  • the projected features: the block is viewed as [4096, 128] (row b · 1024 + r), multiplied by W into the zero
    accumulator, and viewed back as [4, 1024, 128]; entry (b, r, j) is ∑ₖ h(b, r, k) · W(k, j);
  • each score: the projected features times a row broadcast over the nodes, summed along the features from the zero
    word, kept as a column [4, 1024, 1]; entry (b, r, 0) is ∑ⱼ (∑ₖ h(b, r, k) · W(k, j)) · a(0, j).
-/
import proofs.«135230_j47184510714010_2_alg».proof.Proof.Gen.KernelIdeal.Skeleton
import proofs.«135230_j47184510714010_2_alg».proof.Proof.Spec
import proofs.«135230_j47184510714010_2_alg».proof.Proof.LibReshape
import proofs.«135230_j47184510714010_2_alg».proof.Proof.PayLayout

namespace Cert.KernelIdeal.Pay

open Idealize.ShloMosaic Idealize.ShloMosaic.ValueIdx Cert.KernelIdeal Cert.KernelIdeal.Gen

/-- The projection's dimension numbers contract the left operand's columns with the right operand's rows. -/
theorem plain_proj : Plain dot_S4096x128_S128x128_S4096x128_1_0_0_1_n_n where
  hrank := rfl
  hs := rfl
  hl0 := fun _ _ => rfl
  hl1 := fun j k => DotDims.lhsIdx_val_of_single _ rfl j k
  hr0 := fun j k => DotDims.rhsIdx_val_of_single _ rfl j k
  hr1 := fun _ _ => rfl

/-- The projected features of node (b, r): the node's row of h times W. -/
theorem k0_pay1_apply (x0 : Vec Ideal S4x1024x128 .f32) (x1 : Vec Ideal S128x128 .f32)
    (b : Fin 4) (r : Fin 1024) (j : Fin 128) :
    k0_pay1 (F := Ideal) x0 x1 (ix3 b r j) = ∑ k : Fin 128, x0 (ix3 b r k) * x1 (ix2 k j) := by
  unfold k0_pay1
  refine (shapeCast_nc_abc_apply (show 4096 = 4 * 1024 from rfl) _ shapeCasts_S4096x128_S4x1024x128 b r j).trans ?_
  refine (matmul_ix2 plain_proj none _ _ _ j).trans ?_
  refine Finset.sum_congr rfl fun k _ => ?_
  refine congrArg₂ (· * ·) ?_ rfl
  exact shapeCast_abc_nc_row_apply _ shapeCasts_S4x1024x128_S4096x128 b r k _

/-- The stored features are the projected features (the narrowing is the identity on extended reals). -/
theorem k0_pay2_apply (x0 : Vec Ideal S4x1024x128 .f32) (x1 : Vec Ideal S128x128 .f32)
    (b : Fin 4) (r : Fin 1024) (j : Fin 128) :
    k0_pay2 (F := Ideal) x0 x1 (ix3 b r j) = ∑ k : Fin 128, x0 (ix3 b r k) * x1 (ix2 k j) := by
  unfold k0_pay2
  exact (truncf_apply (ψ := .bf16) (k0_pay1 (F := Ideal) x0 x1) bitsLt_bf16_f32 (ix3 b r j)).trans (k0_pay1_apply x0 x1 b r j)

/-- A score of node (b, r): its projected features against a row, summed along the features. -/
theorem score_apply (x0 : Vec Ideal S4x1024x128 .f32) (x1 : Vec Ideal S128x128 .f32) (x2 : Vec Ideal S1x128 .f32)
    (b : Fin 4) (r : Fin 1024) :
    shapeCast S4x1024x1
        (multiReduction .add [2] S4x1024
          (mulf (k0_pay1 (F := Ideal) x0 x1)
            (broadcastTo S4x1024x128 (shapeCast S1x1x128 x2 shapeCasts_S1x128_S1x1x128) broadcasts_S1x1x128_S4x1024x128))
          0x00000000#32 reduces_S4x1024x128_S4x1024 (.inl rfl) rfl)
        shapeCasts_S4x1024_S4x1024x1 (ix3 b r (0 : Fin 1))
      = ∑ j : Fin 128, (∑ k : Fin 128, x0 (ix3 b r k) * x1 (ix2 k j)) * x2 (ix2 (0 : Fin 1) j) := by
  refine (shapeCast_ab_ab1_apply _ shapeCasts_S4x1024_S4x1024x1 b r (0 : Fin 1)).trans ?_
  refine (multiReduction_add_last3_apply _ reduces_S4x1024x128_S4x1024 _ _ b r).trans ?_
  refine Finset.sum_congr rfl fun j _ => ?_
  rw [mulf_apply, k0_pay1_apply, broadcastTo_11c_abc_apply, shapeCast_1c_11c_apply]

/-- The query score of node (b, r). -/
theorem k0_pay3_apply (x0 : Vec Ideal S4x1024x128 .f32) (x1 : Vec Ideal S128x128 .f32) (x2 : Vec Ideal S1x128 .f32)
    (b : Fin 4) (r : Fin 1024) :
    k0_pay3 (F := Ideal) x0 x1 x2 (ix3 b r (0 : Fin 1))
      = ∑ j : Fin 128, (∑ k : Fin 128, x0 (ix3 b r k) * x1 (ix2 k j)) * x2 (ix2 (0 : Fin 1) j) := by
  unfold k0_pay3
  simp only [shapeCast_self]
  exact score_apply x0 x1 x2 b r

/-- The key score of node (b, r). -/
theorem k0_pay4_apply (x0 : Vec Ideal S4x1024x128 .f32) (x1 : Vec Ideal S128x128 .f32) (x3 : Vec Ideal S1x128 .f32)
    (b : Fin 4) (r : Fin 1024) :
    k0_pay4 (F := Ideal) x0 x1 x3 (ix3 b r (0 : Fin 1))
      = ∑ j : Fin 128, (∑ k : Fin 128, x0 (ix3 b r k) * x1 (ix2 k j)) * x3 (ix2 (0 : Fin 1) j) := by
  unfold k0_pay4
  simp only [shapeCast_self]
  exact score_apply x0 x1 x3 b r

end Cert.KernelIdeal.Pay
-- ==== Proof.KI.Arr0.lean ====
/-
  The projection kernel's three output arrays after its run, as functions of the arrays the call finds.

  The grid has four points; point t is handed rows 1024·t … 1024·t+1023 of h (all four graphs), the whole of W and the two
  halves of the attention vector as rows, and writes back rows 1024·t … 1024·t+1023 of each output.  An element of a block
  sits in its array, on each axis, at the block index times the block's size plus its own coordinate; the block indices are
  (0, t, 0) for h and the three outputs and zero for the whole-array windows.  So what point t writes back is block t of one
  whole-array function: the projected features wh(b,n,j) = ∑ₖ h(b,n,k)·W(k,j), and the two scores ∑ⱼ wh(b,n,j)·a(0,j).
  The four blocks of 1024 rows cover the 4096 rows (row n is in block n / 1024), so each array ends holding that function.
-/
import proofs.«135230_j47184510714010_2_alg».proof.Proof.KI.R0
import proofs.«135230_j47184510714010_2_alg».proof.Proof.Pay0
import Idealize.ShloMosaic.Lib.Pipeline.Value

noncomputable section

namespace Cert.KernelIdeal.Fr

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The arrays the call finds, read as functions into the extended reals: h, W and the two halves of the attention vector. -/
abbrev arrH (c : Dev nD) : S4x4096x128.Idx → EReal := V c main_arg0
abbrev arrW (c : Dev nD) : S128x128.Idx → EReal := V c main_arg1
abbrev arrA1 (c : Dev nD) : S1x128.Idx → EReal := V c main_v1
abbrev arrA2 (c : Dev nD) : S1x128.Idx → EReal := V c main_v3

theorem zero3 : (![0, 0, 0] : Fin 3 → Nat) = fun _ => 0 := funext fun a => by fin_cases a <;> rfl
theorem zero2 : (![0, 0] : Fin 2 → Nat) = fun _ => 0 := funext fun a => by fin_cases a <;> rfl

/-! ## The block indices, decided over the four points -/

/-- The row-blocked windows (h and the three outputs) are at block (0, t, 0); the whole-array windows at block zero. -/
theorem idx_facts0 : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = 0 ∧ win0_4.index t (1 : Fin 3) = t.val ∧ win0_4.index t (2 : Fin 3) = 0
    ∧ win0_5.index t (0 : Fin 3) = 0 ∧ win0_5.index t (1 : Fin 3) = t.val ∧ win0_5.index t (2 : Fin 3) = 0
    ∧ win0_6.index t (0 : Fin 3) = 0 ∧ win0_6.index t (1 : Fin 3) = t.val ∧ win0_6.index t (2 : Fin 3) = 0 :=
  (by decide +kernel : ∀ t : Fin grid0.N, _)

/-- Every row block is some point's. -/
theorem idx_onto0 : ∀ q : Fin 4, ∃ t : Fin cfg0.N, t.val = q.val :=
  (by decide +kernel : ∀ q : Fin 4, ∃ t : Fin grid0.N, t.val = q.val)

/-! ## The input blocks as reads of their arrays -/

/-- Point t's block of h is rows 1024·t … 1024·t+1023. -/
theorem iblk0_0_apply (c : Dev nD) (t : Fin cfg0.N) (x : S4x1024x128.Idx) (k : S4x4096x128.Idx)
    (hk0 : (k 0).val = (x 0).val) (hk1 : (k 1).val = 1024 * t.val + (x 1).val) (hk2 : (k 2).val = (x 2).val) :
    (iblk0 V c 0 t : Vec Ideal S4x1024x128 .f32) x = arrH V c k := by
  obtain ⟨e0, e1, e2, -⟩ := idx_facts0 t
  unfold iblk0
  rw [View.read_apply]
  show V c main_arg0 _ = V c main_arg0 _
  congr 1
  funext a
  apply Fin.ext
  match a with
  | ⟨0, _⟩ => show win0_0.index t (0 : Fin 3) * 4 + 1 * (x 0).val = (k 0).val; omega
  | ⟨1, _⟩ => show win0_0.index t (1 : Fin 3) * 1024 + 1 * (x 1).val = (k 1).val; omega
  | ⟨2, _⟩ => show win0_0.index t (2 : Fin 3) * 128 + 1 * (x 2).val = (k 2).val; omega

/-- Every point's block of W is W. -/
theorem iblk0_1_apply (c : Dev nD) (t : Fin cfg0.N) (x : S128x128.Idx) :
    (iblk0 V c 1 t : Vec Ideal S128x128 .f32) x = arrW V c x := by
  obtain ⟨-, -, -, e0, e1, -⟩ := idx_facts0 t
  unfold iblk0
  rw [View.read_apply]
  show V c main_arg1 _ = V c main_arg1 _
  congr 1
  funext a
  apply Fin.ext
  match a with
  | ⟨0, _⟩ => show win0_1.index t (0 : Fin 2) * 128 + 1 * (x 0).val = (x 0).val; omega
  | ⟨1, _⟩ => show win0_1.index t (1 : Fin 2) * 128 + 1 * (x 1).val = (x 1).val; omega

/-! ## The projected features -/

/-- The projected features, over the whole array. -/
def G0_4 (c : Dev nD) : S4x4096x128.Idx → EReal :=
  fun i => ∑ k : Fin 128, arrH V c (ix3 (n0 := 4) (n1 := 4096) (i 0) (i 1) k) * arrW V c (ix2 (n1 := 128) k (i 2))

/-- The stored block at explicit coordinates: the payload of the two loaded blocks. -/
theorem out0_4_apply (x0 : Vec Ideal S4x1024x128 .f32) (x1 : Vec Ideal S128x128 .f32) (b : Fin 4) (r : Fin 1024) (j : Fin 128) :
    out0_4 (F := Ideal) x0 x1 (ix3 b r j) = ∑ k : Fin 128, x0 (ix3 b r k) * x1 (ix2 k j) := by
  unfold out0_4
  rw [View.canon_unit_zero zero3]
  simp only [View.ld_unit_zero (S := S4x1024x128) zero3, View.ld_unit_zero (S := S128x128) zero2]
  exact Pay.k0_pay2_apply x0 x1 b r j

/-- An element of what point t stores is the projected feature at the element's place in the array. -/
theorem out0_4_blk (c : Dev nD) (t : Fin cfg0.N) (z : S4x1024x128.Idx) (i : S4x4096x128.Idx)
    (h0 : (i 0).val = (z 0).val) (h1 : (i 1).val = 1024 * t.val + (z 1).val) (h2 : (i 2).val = (z 2).val) :
    out0_4 (F := Ideal) (iblk0 V c 0 t) (iblk0 V c 1 t) z = G0_4 V c i := by
  obtain ⟨b, r, j, rfl⟩ : ∃ (b : Fin 4) (r : Fin 1024) (j : Fin 128), z = ix3 b r j := ⟨z 0, z 1, z 2, eq_ix3 z⟩
  refine (out0_4_apply _ _ b r j).trans ?_
  show _ = ∑ k : Fin 128, arrH V c (ix3 (n0 := 4) (n1 := 4096) (i 0) (i 1) k) * arrW V c (ix2 (n1 := 128) k (i 2))
  refine Finset.sum_congr rfl fun k _ => ?_
  refine congrArg₂ (· * ·) ?_ ?_
  · exact iblk0_0_apply V c t (ix3 b r k) (ix3 (n0 := 4) (n1 := 4096) (i 0) (i 1) k) h0 h1 rfl
  · refine (iblk0_1_apply V c t (ix2 k j)).trans ?_
    exact congrArg (fun q : Fin 128 => arrW V c (ix2 k q)) (Fin.ext h2.symm)

/-- What point t writes back is block t of the projected features. -/
theorem flushed0_4_eq (c : Dev nD) (t : Fin cfg0.N) :
    (dat0 (F := Ideal) V c).flushed 4 t = ((cfg0.win 4).blk t).view.read (Elt Ideal) (G0_4 V c) := by
  show (cfg0.win 4).cut (grid0.coords t) ((dat0 (F := Ideal) V c).after 4 t) = _
  rw [after0_4]
  obtain ⟨-, -, -, -, -, -, -, -, -, e0, e1, e2, -⟩ := idx_facts0 t
  funext y
  refine out0_4_blk V c t ((cfg0.win 4).xinj (grid0.coords t) y) (((cfg0.win 4).blk t).view.emb y) ?_ ?_ ?_
  · show win0_4.index t (0 : Fin 3) * 4 + 1 * (y 0).val = (y 0).val; omega
  · show win0_4.index t (1 : Fin 3) * 1024 + 1 * (y 1).val = 1024 * t.val + (y 1).val; omega
  · show win0_4.index t (2 : Fin 3) * 128 + 1 * (y 2).val = (y 2).val; omega

/-- An index of the array is in point t's block iff each coordinate is in the block's range on its axis. -/
theorem mem_blk0_4 (t : Fin cfg0.N) (i : S4x4096x128.Idx) :
    i ∈ ((cfg0.win 4).blk t).view.set ↔ ∀ a : Fin 3, win0_4.index t a * S4x1024x128.size a ≤ (i a).val ∧ (i a).val < win0_4.index t a * S4x1024x128.size a + S4x1024x128.size a := by
  show i ∈ ((View.whole main_v4_0).slice (win0_4.rect t)).set ↔ _
  rw [View.set_slice_whole, Rect.mem_set_unit]
  exact Iff.rfl

/-- Row n is in the block of point n / 1024. -/
theorem rows_cover0_4 (i : S4x4096x128.Idx) :
    ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 128 := (i 2).isLt
  obtain ⟨t, ht⟩ := idx_onto0 ⟨(i 1).val / 1024, by omega⟩
  have ht' : t.val = (i 1).val / 1024 := ht
  obtain ⟨-, -, -, -, -, -, -, -, -, e0, e1, e2, -⟩ := idx_facts0 t
  refine ⟨t, flush0_4 t, ?_⟩
  rw [mem_blk0_4]
  intro a
  match a with
  | ⟨0, _⟩ => show win0_4.index t (0 : Fin 3) * 4 ≤ (i 0).val ∧ (i 0).val < win0_4.index t (0 : Fin 3) * 4 + 4; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 128 ≤ (i 2).val ∧ (i 2).val < win0_4.index t (2 : Fin 3) * 128 + 128; omega

/-- The features array after the run. -/
theorem final0_4 (c : Dev nD) : (dat0 (F := Ideal) V c).arrAt 4 cfg0.N = G0_4 V c :=
  (dat0 (F := Ideal) V c).arrAt_eq_of_cover 4 (G0_4 V c) (fun t _ => flushed0_4_eq V c t) rows_cover0_4

theorem arr0_4 (c : Dev nD) (b : Fin 4) (n : Fin 4096) (j : Fin 128) :
    (dat0 (F := Ideal) V c).arrAt 4 cfg0.N (ix3 b n j) = ∑ k : Fin 128, arrH V c (ix3 b n k) * arrW V c (ix2 k j) :=
  congrFun (final0_4 V c) (ix3 b n j)

/-! ## The query scores -/

/-- Every point's block of the first half of the attention vector is the whole row. -/
theorem iblk0_2_apply (c : Dev nD) (t : Fin cfg0.N) (x : S1x128.Idx) :
    (iblk0 V c 2 t : Vec Ideal S1x128 .f32) x = arrA1 V c x := by
  obtain ⟨-, -, -, -, -, e0, e1, -⟩ := idx_facts0 t
  unfold iblk0
  rw [View.read_apply]
  show V c main_v1 _ = V c main_v1 _
  congr 1
  funext a
  apply Fin.ext
  match a with
  | ⟨0, _⟩ => show win0_2.index t (0 : Fin 2) * 1 + 1 * (x 0).val = (x 0).val; omega
  | ⟨1, _⟩ => show win0_2.index t (1 : Fin 2) * 128 + 1 * (x 1).val = (x 1).val; omega

/-- The query scores, over the whole array. -/
def G0_5 (c : Dev nD) : S4x4096x1.Idx → EReal :=
  fun i => ∑ j : Fin 128, (∑ k : Fin 128, arrH V c (ix3 (n0 := 4) (n1 := 4096) (i 0) (i 1) k) * arrW V c (ix2 k j)) * arrA1 V c (ix2 (0 : Fin 1) j)

/-- The stored block at explicit coordinates: the payload of the three loaded blocks. -/
theorem out0_5_apply (x0 : Vec Ideal S4x1024x128 .f32) (x1 : Vec Ideal S128x128 .f32) (x2 : Vec Ideal S1x128 .f32) (b : Fin 4) (r : Fin 1024) :
    out0_5 (F := Ideal) x0 x1 x2 (ix3 b r (0 : Fin 1))
      = ∑ j : Fin 128, (∑ k : Fin 128, x0 (ix3 b r k) * x1 (ix2 k j)) * x2 (ix2 (0 : Fin 1) j) := by
  unfold out0_5
  rw [View.canon_unit_zero zero3]
  simp only [View.ld_unit_zero (S := S4x1024x128) zero3, View.ld_unit_zero (S := S128x128) zero2, View.ld_unit_zero (S := S1x128) zero2]
  exact Pay.k0_pay3_apply x0 x1 x2 b r

/-- An element of what point t stores is the score at the element's place in the array. -/
theorem out0_5_blk (c : Dev nD) (t : Fin cfg0.N) (z : S4x1024x1.Idx) (i : S4x4096x1.Idx)
    (h0 : (i 0).val = (z 0).val) (h1 : (i 1).val = 1024 * t.val + (z 1).val) :
    out0_5 (F := Ideal) (iblk0 V c 0 t) (iblk0 V c 1 t) (iblk0 V c 2 t) z = G0_5 V c i := by
  obtain ⟨b, r, e, rfl⟩ : ∃ (b : Fin 4) (r : Fin 1024) (e : Fin 1), z = ix3 b r e := ⟨z 0, z 1, z 2, eq_ix3 z⟩
  obtain rfl : e = 0 := Subsingleton.elim _ _
  refine (out0_5_apply _ _ _ b r).trans ?_
  show _ = ∑ j : Fin 128, (∑ k : Fin 128, arrH V c (ix3 (n0 := 4) (n1 := 4096) (i 0) (i 1) k) * arrW V c (ix2 k j)) * arrA1 V c (ix2 (0 : Fin 1) j)
  refine Finset.sum_congr rfl fun j _ => ?_
  refine congrArg₂ (· * ·) ?_ (iblk0_2_apply V c t (ix2 (0 : Fin 1) j))
  refine Finset.sum_congr rfl fun k _ => ?_
  refine congrArg₂ (· * ·) ?_ (iblk0_1_apply V c t (ix2 k j))
  exact iblk0_0_apply V c t (ix3 b r k) (ix3 (n0 := 4) (n1 := 4096) (i 0) (i 1) k) h0 h1 rfl

/-- What point t writes back is block t of that score. -/
theorem flushed0_5_eq (c : Dev nD) (t : Fin cfg0.N) :
    (dat0 (F := Ideal) V c).flushed 5 t = ((cfg0.win 5).blk t).view.read (Elt Ideal) (G0_5 V c) := by
  show (cfg0.win 5).cut (grid0.coords t) ((dat0 (F := Ideal) V c).after 5 t) = _
  rw [after0_5]
  obtain ⟨-, -, -, -, -, -, -, -, -, -, -, -, e0, e1, e2, -⟩ := idx_facts0 t
  funext y
  refine out0_5_blk V c t ((cfg0.win 5).xinj (grid0.coords t) y) (((cfg0.win 5).blk t).view.emb y) ?_ ?_
  · show win0_5.index t (0 : Fin 3) * 4 + 1 * (y 0).val = (y 0).val; omega
  · show win0_5.index t (1 : Fin 3) * 1024 + 1 * (y 1).val = 1024 * t.val + (y 1).val; omega

/-- An index of the array is in point t's block iff each coordinate is in the block's range on its axis. -/
theorem mem_blk0_5 (t : Fin cfg0.N) (i : S4x4096x1.Idx) :
    i ∈ ((cfg0.win 5).blk t).view.set ↔ ∀ a : Fin 3, win0_5.index t a * S4x1024x1.size a ≤ (i a).val ∧ (i a).val < win0_5.index t a * S4x1024x1.size a + S4x1024x1.size a := by
  show i ∈ ((View.whole main_v4_1).slice (win0_5.rect t)).set ↔ _
  rw [View.set_slice_whole, Rect.mem_set_unit]
  exact Iff.rfl

/-- Row n is in the block of point n / 1024. -/
theorem rows_cover0_5 (i : S4x4096x1.Idx) :
    ∃ t : Fin cfg0.N, (cfg0.win 5).flush t = true ∧ i ∈ ((cfg0.win 5).blk t).view.set := by
  have hi0 : (i 0).val < 4 := (i 0).isLt
  have hi1 : (i 1).val < 4096 := (i 1).isLt
  have hi2 : (i 2).val < 1 := (i 2).isLt
  obtain ⟨t, ht⟩ := idx_onto0 ⟨(i 1).val / 1024, by omega⟩
  have ht' : t.val = (i 1).val / 1024 := ht
  obtain ⟨-, -, -, -, -, -, -, -, -, -, -, -, e0, e1, e2, -⟩ := idx_facts0 t
  refine ⟨t, flush0_5 t, ?_⟩
  rw [mem_blk0_5]
  intro a
  match a with
  | ⟨0, _⟩ => show win0_5.index t (0 : Fin 3) * 4 ≤ (i 0).val ∧ (i 0).val < win0_5.index t (0 : Fin 3) * 4 + 4; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 1 ≤ (i 2).val ∧ (i 2).val < win0_5.index t (2 : Fin 3) * 1 + 1; omega

/-- That score's array after the run. -/
theorem final0_5 (c : Dev nD) : (dat0 (F := Ideal) V c).arrAt 5 cfg0.N = G0_5 V c :=
  (dat0 (F := Ideal) V c).arrAt_eq_of_cover 5 (G0_5 V c) (fun t _ => flushed0_5_eq V c t) rows_cover0_5

theorem arr0_5 (c : Dev nD) (b : Fin 4) (n : Fin 4096) :
    (dat0 (F := Ideal) V c).arrAt 5 cfg0.N (ix3 b n (0 : Fin 1))
      = ∑ j : Fin 128, (∑ k : Fin 128, arrH V c (ix3 b n k) * arrW V c (ix2 k j)) * arrA1 V c (ix2 (0 : Fin 1) j) :=
  congrFun (final0_5 V c) (ix3 b n (0 : Fin 1))

/-! ## The key scores -/

/-- Every point's block of the second half of the attention vector is the whole row. -/
theorem iblk0_3_apply (c : Dev nD) (t : Fin cfg0.N) (x : S1x128.Idx) :
    (iblk0 V c 3 t : Vec Ideal S1x128 .f32) x = arrA2 V c x := by
  obtain ⟨-, -, -, -, -, -, -, e0, e1, -⟩ := idx_facts0 t
  unfold iblk0
  rw [View.read_apply]
  show V c main_v3 _ = V c main_v3 _
  congr 1
  funext a
  apply Fin.ext
  match a with
  | ⟨0, _⟩ => show win0_3.index t (0 : Fin 2) * 1 + 1 * (x 0).val = (x 0).val; omega
  | ⟨1, _⟩ => show win0_3.index t (1 : Fin 2) * 128 + 1 * (x 1).val = (x 1).val; omega

/-- The key scores, over the whole array. -/
def G0_6 (c : Dev nD) : S4x4096x1.Idx → EReal :=
  fun i => ∑ j : Fin 128, (∑ k : Fin 128, arrH V c (ix3 (n0 := 4) (n1 := 4096) (i 0) (i 1) k) * arrW V c (ix2 k j)) * arrA2 V c (ix2 (0 : Fin 1) j)

/-- The stored block at explicit coordinates: the payload of the three loaded blocks. -/
theorem out0_6_apply (x0 : Vec Ideal S4x1024x128 .f32) (x1 : Vec Ideal S128x128 .f32) (x2 : Vec Ideal S1x128 .f32) (b : Fin 4) (r : Fin 1024) :
    out0_6 (F := Ideal) x0 x1 x2 (ix3 b r (0 : Fin 1))
      = ∑ j : Fin 128, (∑ k : Fin 128, x0 (ix3 b r k) * x1 (ix2 k j)) * x2 (ix2 (0 : Fin 1) j) := by
  unfold out0_6
  rw [View.canon_unit_zero zero3]
  simp only [View.ld_unit_zero (S := S4x1024x128) zero3, View.ld_unit_zero (S := S128x128) zero2, View.ld_unit_zero (S := S1x128) zero2]
  exact Pay.k0_pay4_apply x0 x1 x2 b r

/-- An element of what point t stores is the score at the element's place in the array. -/
theorem out0_6_blk (c : Dev nD) (t : Fin cfg0.N) (z : S4x1024x1.Idx) (i : S4x4096x1.Idx)
    (h0 : (i 0).val = (z 0).val) (h1 : (i 1).val = 1024 * t.val + (z 1).val) :
    out0_6 (F := Ideal) (iblk0 V c 0 t) (iblk0 V c 1 t) (iblk0 V c 3 t) z = G0_6 V c i := by
  obtain ⟨b, r, e, rfl⟩ : ∃ (b : Fin 4) (r : Fin 1024) (e : Fin 1), z = ix3 b r e := ⟨z 0, z 1, z 2, eq_ix3 z⟩
  obtain rfl : e = 0 := Subsingleton.elim _ _
  refine (out0_6_apply _ _ _ b r).trans ?_
  show _ = ∑ j : Fin 128, (∑ k : Fin 128, arrH V c (ix3 (n0 := 4) (n1 := 4096) (i 0) (i 1) k) * arrW V c (ix2 k j)) * arrA2 V c (ix2 (0 : Fin 1) j)
  refine Finset.sum_congr rfl fun j _ => ?_
  refine congrArg₂ (· * ·) ?_ (iblk0_3_apply V c t (ix2 (0 : Fin 1) j))
  refine Finset.sum_congr rfl fun k _ => ?_
  refine congrArg₂ (· * ·) ?_ (iblk0_1_apply V c t (ix2 k j))
  exact iblk0_0_apply V c t (ix3 b r k) (ix3 (n0 := 4) (n1 := 4096) (i 0) (i 1) k) h0 h1 rfl

/-- What point t writes back is block t of that score. -/
theorem flushed0_6_eq (c : Dev nD) (t : Fin cfg0.N) :
    (dat0 (F := Ideal) V c).flushed 6 t = ((cfg0.win 6).blk t).view.read (Elt Ideal) (G0_6 V c) := by
  show (cfg0.win 6).cut (grid0.coords t) ((dat0 (F := Ideal) V c).after 6 t) = _
  rw [after0_6]
  obtain ⟨-, -, -, -, -, -, -, -, -, -, -, -, -, -, -, e0, e1, e2⟩ := idx_facts0 t
  funext y
  refine out0_6_blk V c t ((cfg0.win 6).xinj (grid0.coords t) y) (((cfg0.win 6).blk t).view.emb y) ?_ ?_
  · show win0_6.index t (0 : Fin 3) * 4 + 1 * (y 0).val = (y 0).val; omega
  · show win0_6.index t (1 : Fin 3) * 1024 + 1 * (y 1).val = 1024 * t.val + (y 1).val; omega

/-- An index of the array is in point t's block iff each coordinate is in the block's range on its axis. -/
theorem mem_blk0_6 (t : Fin cfg0.N) (i : S4x4096x1.Idx) :
    i ∈ ((cfg0.win 6).blk t).view.set ↔ ∀ a : Fin 3, win0_6.index t a * S4x1024x1.size a ≤ (i a).val ∧ (i a).val < win0_6.index t a * S4x1024x1.size a + S4x1024x1.size a := by
  show i ∈ ((View.whole main_v4_2).slice (win0_6.rect t)).set ↔ _
  rw [View.set_slice_whole, Rect.mem_set_unit]
  exact Iff.rfl

/-- Row n is in the block of point n / 1024. -/
theorem rows_cover0_6 (i : S4x4096x1.Idx) :
    ∃ t : Fin cfg0.N, (cfg0.win 6).flush t = true ∧ i ∈ ((cfg0.win 6).blk t).view.set := by
  have hi0 : (i 0).val < 4 := (i 0).isLt
  have hi1 : (i 1).val < 4096 := (i 1).isLt
  have hi2 : (i 2).val < 1 := (i 2).isLt
  obtain ⟨t, ht⟩ := idx_onto0 ⟨(i 1).val / 1024, by omega⟩
  have ht' : t.val = (i 1).val / 1024 := ht
  obtain ⟨-, -, -, -, -, -, -, -, -, -, -, -, -, -, -, e0, e1, e2⟩ := idx_facts0 t
  refine ⟨t, flush0_6 t, ?_⟩
  rw [mem_blk0_6]
  intro a
  match a with
  | ⟨0, _⟩ => show win0_6.index t (0 : Fin 3) * 4 ≤ (i 0).val ∧ (i 0).val < win0_6.index t (0 : Fin 3) * 4 + 4; omega
  | ⟨1, _⟩ => show win0_6.index t (1 : Fin 3) * 1024 ≤ (i 1).val ∧ (i 1).val < win0_6.index t (1 : Fin 3) * 1024 + 1024; omega
  | ⟨2, _⟩ => show win0_6.index t (2 : Fin 3) * 1 ≤ (i 2).val ∧ (i 2).val < win0_6.index t (2 : Fin 3) * 1 + 1; omega

/-- That score's array after the run. -/
theorem final0_6 (c : Dev nD) : (dat0 (F := Ideal) V c).arrAt 6 cfg0.N = G0_6 V c :=
  (dat0 (F := Ideal) V c).arrAt_eq_of_cover 6 (G0_6 V c) (fun t _ => flushed0_6_eq V c t) rows_cover0_6

theorem arr0_6 (c : Dev nD) (b : Fin 4) (n : Fin 4096) :
    (dat0 (F := Ideal) V c).arrAt 6 cfg0.N (ix3 b n (0 : Fin 1))
      = ∑ j : Fin 128, (∑ k : Fin 128, arrH V c (ix3 b n k) * arrW V c (ix2 k j)) * arrA2 V c (ix2 (0 : Fin 1) j) :=
  congrFun (final0_6 V c) (ix3 b n (0 : Fin 1))

end Cert.KernelIdeal.Fr

end
-- ==== Proof.KI.Glue.lean ====
/-
  The host operations around the two kernel calls, read at an index.  Before the first call the attention vector
  a [256,1] is cut into its two halves, each laid out as a row [1,128]; between the calls the key scores [4,4096,1]
  are transposed to [4,1,4096] and their maximum over the nodes of each graph is taken from the −∞ word and laid out
  as [4,1,1].  No host operation writes an argument array or a result of the first call.
-/
import proofs.«135230_j47184510714010_2_alg».proof.Proof.KI.Run
import proofs.«135230_j47184510714010_2_alg».proof.Proof.Spec
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

namespace Cert.KernelIdeal.Fr

open Idealize.ShloMosaic Idealize.ShloMosaic.TcCoe Idealize.ShloMosaic.ValueIdx
open Idealize.SL Idealize.SL.Sem
open Cert.KernelIdeal Cert.KernelIdeal.Gen
open Idealize.ShloMosaic.StableHlo (after_cons after_nil nullary_result unary_result binary_result ternary_result quaternary_result reshape_result binaryIndexed_result nary4_result nary_result unaryIndexed_result nullary_result_ne unary_result_ne binary_result_ne ternary_result_ne quaternary_result_ne reshape_result_ne binaryIndexed_result_ne nary_result_ne unaryIndexed_result_ne)

variable (m : (ℓ : Loc nD τ sig) → Buf (Elt Ideal) ℓ) (ρ : Dev nD → PrngReg)

/-! ## Entering the first call -/

theorem V1_arg0 (c : Dev nD) : V1 m ρ c main_arg0 = m ((c : Thread nD τ).loc main_arg0) := by
  show StableHlo.after hostOps0 (W0 m ρ c) (Proc.devRef .tc main_arg0) = _
  after_results

theorem V1_arg1 (c : Dev nD) : V1 m ρ c main_arg1 = m ((c : Thread nD τ).loc main_arg1) := by
  show StableHlo.after hostOps0 (W0 m ρ c) (Proc.devRef .tc main_arg1) = _
  after_results

/-- A column [128, 1] laid out as a row [1, 128] reads, at (0, j), the column at (j, 0): the two have the same
    row-major position. -/
theorem row_of_column {α : Type} (x : S128x1.Idx → α) (h : S128x1.ShapeCasts S1x128) (j : Fin 128) :
    shapeCast S1x128 x h (ix2 (0 : Fin 1) j) = x (ix2 j (0 : Fin 1)) := by
  refine shapeCast_apply x h (ix2 (0 : Fin 1) j) (ix2 j (0 : Fin 1)) ?_
  rw [Shape.rowMajor_val_two, Shape.rowMajor_val_two]
  show j.val * 1 + 0 = 0 * 128 + j.val
  omega

/-- The first half of a as a row. -/
theorem V1_v1 (c : Dev nD) (j : Fin 128) :
    V1 m ρ c main_v1 (ix2 (0 : Fin 1) j) = m ((c : Thread nD τ).loc main_arg2) (ix2 (⟨j.val, by omega⟩ : Fin 256) (0 : Fin 1)) := by
  have e : (V1 m ρ c main_v1 : S1x128.Idx → EReal)
      = shapeCast S1x128 (extractStridedSlice S128x1 ![0, 0] (m ((c : Thread nD τ).loc main_arg2)) slices_S256x1_S128x1_0_0) shapeCasts_S128x1_S1x128 := by
    show StableHlo.after hostOps0 (W0 m ρ c) (Proc.devRef .tc main_v1) = _
    after_results
    rfl
  refine (congrFun e _).trans ((row_of_column _ _ j).trans ?_)
  refine extractStridedSlice_apply _ _ _ _ (ix2 (⟨j.val, by omega⟩ : Fin 256) (0 : Fin 1)) fun a => ?_
  match a with
  | ⟨0, _⟩ => exact (Nat.zero_add _).symm
  | ⟨1, _⟩ => rfl

/-- The second half of a as a row. -/
theorem V1_v3 (c : Dev nD) (j : Fin 128) :
    V1 m ρ c main_v3 (ix2 (0 : Fin 1) j) = m ((c : Thread nD τ).loc main_arg2) (ix2 (⟨128 + j.val, by omega⟩ : Fin 256) (0 : Fin 1)) := by
  have e : (V1 m ρ c main_v3 : S1x128.Idx → EReal)
      = shapeCast S1x128 (extractStridedSlice S128x1 ![128, 0] (m ((c : Thread nD τ).loc main_arg2)) slices_S256x1_S128x1_128_0) shapeCasts_S128x1_S1x128 := by
    show StableHlo.after hostOps0 (W0 m ρ c) (Proc.devRef .tc main_v3) = _
    after_results
    rfl
  refine (congrFun e _).trans ((row_of_column _ _ j).trans ?_)
  refine extractStridedSlice_apply _ _ _ _ (ix2 (⟨128 + j.val, by omega⟩ : Fin 256) (0 : Fin 1)) fun a => ?_
  match a with
  | ⟨0, _⟩ => rfl
  | ⟨1, _⟩ => rfl

/-! ## Entering the second call -/

/-- No operation of the second stretch writes the first call's first result. -/
theorem V3_v4_0 (c : Dev nD) : V3 m ρ c main_v4_0 = (dat0 (V1 m ρ) c).arrAt 4 cfg0.N := by
  have e : V3 m ρ c main_v4_0 = W2 m ρ c (Proc.devRef .tc main_v4_0) := by
    show StableHlo.after hostOps1 (W2 m ρ c) (Proc.devRef .tc main_v4_0) = _
    after_results
    first | done | rfl
  exact e.trans (W2_arr m ρ c 4)

/-- Nor its second result. -/
theorem V3_v4_1 (c : Dev nD) : V3 m ρ c main_v4_1 = (dat0 (V1 m ρ) c).arrAt 5 cfg0.N := by
  have e : V3 m ρ c main_v4_1 = W2 m ρ c (Proc.devRef .tc main_v4_1) := by
    show StableHlo.after hostOps1 (W2 m ρ c) (Proc.devRef .tc main_v4_1) = _
    after_results
    first | done | rfl
  exact e.trans (W2_arr m ρ c 5)

/-- The key scores transposed: entry (b, 0, k) is the first call's third result at (b, k, 0). -/
theorem V3_v5 (c : Dev nD) (b : Fin 4) (k : Fin 4096) :
    V3 m ρ c main_v5 (ix3 b (0 : Fin 1) k) = (dat0 (V1 m ρ) c).arrAt 6 cfg0.N (ix3 b k (0 : Fin 1)) := by
  have e : (V3 m ρ c main_v5 : S4x1x4096.Idx → EReal)
      = transpose S4x1x4096 [0, 2, 1] (W2 m ρ c (Proc.devRef .tc main_v4_2)) transposes_S4x4096x1_S4x1x4096_0_2_1 := by
    show StableHlo.after hostOps1 (W2 m ρ c) (Proc.devRef .tc main_v5) = _
    after_results
    first | done | rfl
  refine (congrFun e _).trans ((transpose_ix3_021_apply _ _ b (0 : Fin 1) k).trans ?_)
  exact congrFun (W2_arr m ρ c 6) _

theorem reduces_keys : S4x4096x1.Reduces [1] S4x1 := by decide

/-- Graph b (and the unit coordinate u) with node n put back on the reduced axis is (b, n, u). -/
theorem lift_keys (h : S4x4096x1.Reduces [1] S4x1) (b : Fin 4) (u : Fin 1) (n : Fin (S4x4096x1.size 1)) :
    h.lift (ix2 b u) n = ix3 b (⟨n.val, n.isLt⟩ : Fin 4096) u := by
  funext a; apply Fin.ext
  fin_cases a <;> rfl

/-- The largest key score of graph b, folded from the −∞ word over its nodes. -/
theorem V3_v7 (c : Dev nD) (b : Fin 4) :
    V3 m ρ c main_v7 (ix3 b (0 : Fin 1) (0 : Fin 1))
      = Finset.univ.fold max Cert.Gat.negInfW (fun n : Fin 4096 => (dat0 (V1 m ρ) c).arrAt 6 cfg0.N (ix3 b n (0 : Fin 1))) := by
  have e : (V3 m ρ c main_v7 : S4x1x1.Idx → EReal)
      = broadcastInDim S4x1x1 ![0, 2] bcast_S4x1_S4x1x1_0_2
          (Host.reduce FloatOps.maximumf (W2 m ρ c (Proc.devRef .tc main_v4_2)) (constant (F := Ideal) S_ .f32 0xFF800000#32)
            reducesTo_S4x4096x1_S4x1_d1 h_S_) := by
    show StableHlo.after hostOps1 (W2 m ρ c) (Proc.devRef .tc main_v7) = _
    after_results
    first | done | rfl
  refine (congrFun e _).trans ?_
  rw [broadcastInDim_apply _ _ _ (ix3 b (0 : Fin 1) (0 : Fin 1)) (ix2 b (0 : Fin 1))
      (fun a => match a with | ⟨0, _⟩ => rfl | ⟨1, _⟩ => rfl),
    Host.reduce_eq_fold_single FloatOps.maximumf _ _ reducesTo_S4x4096x1_S4x1_d1 reduces_keys h_S_]
  have hf : ((W2 m ρ c (Proc.devRef .tc main_v4_2) : S4x4096x1.Idx → EReal) ∘ reduces_keys.lift (ix2 b (0 : Fin 1)))
      = fun n : Fin 4096 => (dat0 (V1 m ρ) c).arrAt 6 cfg0.N (ix3 b n (0 : Fin 1)) :=
    funext fun n => by
      rw [Function.comp_apply, lift_keys]
      exact congrFun (W2_arr m ρ c 6) _
  rw [hf]
  rfl

end Cert.KernelIdeal.Fr

end
-- ==== Proof.KI.Pieces1.lean ====
/-
  What the attention kernel's body leaves in its two accumulators and its output block, as arithmetic on what it was
  handed.  In each of the three cases — first, middle or last tile of keys — every store fills its whole buffer and
  every load of a buffer reads either the contents handed in or what the store before it left, so each buffer ends at
  one payload of the body applied to the blocks handed in: the normalizer at its update of the zero column (first
  tile) or of what it held, the weighted sum at its update of the zero block or of what it held — the weights against
  the 512 key rows of the projected features the tile reads —, and on the last tile the output block at the ELU of the
  updated weighted sum over the updated normalizer.
-/
import proofs.«135230_j47184510714010_2_alg».proof.Proof.KI.R1Frame
import Idealize.ShloMosaic.Lib.Pipeline.Value
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- Three zero offsets, however spelt. -/
theorem hz3 : (![0, 0, 0] : Fin 3 → Nat) = fun _ => 0 := funext fun a => by fin_cases a <;> rfl

/-- The rectangle of the tile's 512 key rows in the projected-features buffer. -/
abbrev rK1 (i : grid1.Coords) : Rect S4x4096x128 := Rect.unit (s := S4x4096x128) (k1_off1 i) S4x512x128.size (k1_off1_inb i)

/-- First tile: the normalizer ends at its update of the zero column. -/
theorem sout1_A_0_eq (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : cond1_0 i) (hc1 : ¬cond1_1 i)
    (x0 : Vec F S4x512x1 .f32) (x1 : Vec F S4x1x512 .f32) (x2 : Vec F S4x1x1 .f32) (x3 : Vec F S4x4096x128 .bf16) :
    sout1_A_0 c i arg2 harg2 arg3 harg3 arg4 harg4 arg5 harg5 arg6 harg6 arg7 harg7 arg8 harg8 hc0 hc1 x0 x1 x2 x3 = k1_pay6 x0 x1 x2 (k1_pay3 (F := F)) := by
  unfold sout1_A_0
  rw [View.read_writes_eq_canon _ _ _ (scover1_A_0 c i arg2 harg2 arg3 harg3 arg4 harg4 arg5 harg5 arg6 harg6 arg7 harg7 arg8 harg8 hc0 hc1 x0 x1 x2 x3)]
  unfold kernelRun1_A
  dsimp only
  sl_unfold_words
  rw [View.canon_cons_unit_zero (S := S4x512x1) hz3, View.readCov_unit_zero (S := S4x512x1) _ hz3]
  simp only [View.readAt_eq_ld, harg2.read_unread, harg3.read_unread, harg4.read_unread, harg5.read_unread, harg7.read_unread, harg8.read_unread,
    View.ld_unit_zero (S := S4x512x1) hz3, View.ld_unit_zero (S := S4x1x512) hz3, View.ld_unit_zero (S := S4x1x1) hz3,
    View.ld_unit_zero (S := S4x512x128) hz3]

/-- First tile: the weighted sum ends at its update of the zero block. -/
theorem sout1_A_1_eq (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : cond1_0 i) (hc1 : ¬cond1_1 i)
    (x0 : Vec F S4x512x1 .f32) (x1 : Vec F S4x1x512 .f32) (x2 : Vec F S4x1x1 .f32) (x3 : Vec F S4x4096x128 .bf16) :
    sout1_A_1 c i arg2 harg2 arg3 harg3 arg4 harg4 arg5 harg5 arg6 harg6 arg7 harg7 arg8 harg8 hc0 hc1 x0 x1 x2 x3 = k1_pay1 (k1_pay5 x0 x1 x2) (View.ld x3 (rK1 i)) (k1_pay4 (F := F)) := by
  unfold sout1_A_1
  rw [View.read_writes_eq_canon _ _ _ (scover1_A_1 c i arg2 harg2 arg3 harg3 arg4 harg4 arg5 harg5 arg6 harg6 arg7 harg7 arg8 harg8 hc0 hc1 x0 x1 x2 x3)]
  unfold kernelRun1_A
  dsimp only
  sl_unfold_words
  rw [View.canon_cons_unit_zero (S := S4x512x128) hz3, View.readCov_unit_zero (S := S4x512x128) _ hz3]
  simp only [View.readAt_eq_ld, harg2.read_unread, harg3.read_unread, harg4.read_unread, harg5.read_unread, harg7.read_unread, harg8.read_unread,
    View.ld_unit_zero (S := S4x512x1) hz3, View.ld_unit_zero (S := S4x1x512) hz3, View.ld_unit_zero (S := S4x1x1) hz3,
    View.ld_unit_zero (S := S4x512x128) hz3]
  rfl

/-- Middle tile: the normalizer ends at its update of what it held. -/
theorem sout1_B_0_eq (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : ¬cond1_0 i) (hc1 : ¬cond1_1 i)
    (x0 : Vec F S4x512x1 .f32) (x1 : Vec F S4x1x512 .f32) (x2 : Vec F S4x1x1 .f32) (x3 : Vec F S4x4096x128 .bf16) (xs0 : Vec F S4x512x1 .f32) (xs1 : Vec F S4x512x128 .f32) :
    sout1_B_0 c i arg2 harg2 arg3 harg3 arg4 harg4 arg5 harg5 arg6 harg6 arg7 harg7 arg8 harg8 hc0 hc1 x0 x1 x2 x3 xs0 xs1 = k1_pay6 x0 x1 x2 xs0 := by
  unfold sout1_B_0
  rw [View.read_writes_eq_canon _ _ _ (scover1_B_0 c i arg2 harg2 arg3 harg3 arg4 harg4 arg5 harg5 arg6 harg6 arg7 harg7 arg8 harg8 hc0 hc1 x0 x1 x2 x3 xs0 xs1)]
  unfold kernelRun1_B
  dsimp only
  rw [View.canon_unit_zero (S := S4x512x1) hz3]
  simp only [View.readAt_eq_ld, harg2.read_unread, harg3.read_unread, harg4.read_unread, harg5.read_unread, harg7.read_unread, harg8.read_unread,
    View.ld_unit_zero (S := S4x512x1) hz3, View.ld_unit_zero (S := S4x1x512) hz3, View.ld_unit_zero (S := S4x1x1) hz3,
    View.ld_unit_zero (S := S4x512x128) hz3]

/-- Middle tile: the weighted sum ends at its update of what it held. -/
theorem sout1_B_1_eq (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : ¬cond1_0 i) (hc1 : ¬cond1_1 i)
    (x0 : Vec F S4x512x1 .f32) (x1 : Vec F S4x1x512 .f32) (x2 : Vec F S4x1x1 .f32) (x3 : Vec F S4x4096x128 .bf16) (xs0 : Vec F S4x512x1 .f32) (xs1 : Vec F S4x512x128 .f32) :
    sout1_B_1 c i arg2 harg2 arg3 harg3 arg4 harg4 arg5 harg5 arg6 harg6 arg7 harg7 arg8 harg8 hc0 hc1 x0 x1 x2 x3 xs0 xs1 = k1_pay1 (k1_pay5 x0 x1 x2) (View.ld x3 (rK1 i)) xs1 := by
  unfold sout1_B_1
  rw [View.read_writes_eq_canon _ _ _ (scover1_B_1 c i arg2 harg2 arg3 harg3 arg4 harg4 arg5 harg5 arg6 harg6 arg7 harg7 arg8 harg8 hc0 hc1 x0 x1 x2 x3 xs0 xs1)]
  unfold kernelRun1_B
  dsimp only
  sl_unfold_words
  rw [View.canon_unit_zero (S := S4x512x128) hz3]
  simp only [View.readAt_eq_ld, harg2.read_unread, harg3.read_unread, harg4.read_unread, harg5.read_unread, harg7.read_unread, harg8.read_unread,
    View.ld_unit_zero (S := S4x512x1) hz3, View.ld_unit_zero (S := S4x1x512) hz3, View.ld_unit_zero (S := S4x1x1) hz3,
    View.ld_unit_zero (S := S4x512x128) hz3]
  rfl

/-- Last tile: the normalizer ends at its update of what it held. -/
theorem sout1_C_0_eq (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : ¬cond1_0 i) (hc1 : cond1_1 i)
    (x0 : Vec F S4x512x1 .f32) (x1 : Vec F S4x1x512 .f32) (x2 : Vec F S4x1x1 .f32) (x3 : Vec F S4x4096x128 .bf16) (xs0 : Vec F S4x512x1 .f32) (xs1 : Vec F S4x512x128 .f32) :
    sout1_C_0 c i arg2 harg2 arg3 harg3 arg4 harg4 arg5 harg5 arg6 harg6 arg7 harg7 arg8 harg8 hc0 hc1 x0 x1 x2 x3 xs0 xs1 = k1_pay6 x0 x1 x2 xs0 := by
  unfold sout1_C_0
  rw [View.read_writes_eq_canon _ _ _ (scover1_C_0 c i arg2 harg2 arg3 harg3 arg4 harg4 arg5 harg5 arg6 harg6 arg7 harg7 arg8 harg8 hc0 hc1 x0 x1 x2 x3 xs0 xs1)]
  unfold kernelRun1_C
  dsimp only
  sl_unfold_words
  rw [View.canon_unit_zero (S := S4x512x1) hz3]
  simp only [View.readAt_eq_ld, harg2.read_unread, harg3.read_unread, harg4.read_unread, harg5.read_unread, harg7.read_unread, harg8.read_unread,
    View.ld_unit_zero (S := S4x512x1) hz3, View.ld_unit_zero (S := S4x1x512) hz3, View.ld_unit_zero (S := S4x1x1) hz3,
    View.ld_unit_zero (S := S4x512x128) hz3]

/-- Last tile: the weighted sum ends at its update of what it held. -/
theorem sout1_C_1_eq (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : ¬cond1_0 i) (hc1 : cond1_1 i)
    (x0 : Vec F S4x512x1 .f32) (x1 : Vec F S4x1x512 .f32) (x2 : Vec F S4x1x1 .f32) (x3 : Vec F S4x4096x128 .bf16) (xs0 : Vec F S4x512x1 .f32) (xs1 : Vec F S4x512x128 .f32) :
    sout1_C_1 c i arg2 harg2 arg3 harg3 arg4 harg4 arg5 harg5 arg6 harg6 arg7 harg7 arg8 harg8 hc0 hc1 x0 x1 x2 x3 xs0 xs1 = k1_pay1 (k1_pay5 x0 x1 x2) (View.ld x3 (rK1 i)) xs1 := by
  unfold sout1_C_1
  rw [View.read_writes_eq_canon _ _ _ (scover1_C_1 c i arg2 harg2 arg3 harg3 arg4 harg4 arg5 harg5 arg6 harg6 arg7 harg7 arg8 harg8 hc0 hc1 x0 x1 x2 x3 xs0 xs1)]
  unfold kernelRun1_C
  dsimp only
  sl_unfold_words
  rw [View.canon_unit_zero (S := S4x512x128) hz3]
  simp only [View.readAt_eq_ld, harg2.read_unread, harg3.read_unread, harg4.read_unread, harg5.read_unread, harg7.read_unread, harg8.read_unread,
    View.ld_unit_zero (S := S4x512x1) hz3, View.ld_unit_zero (S := S4x1x512) hz3, View.ld_unit_zero (S := S4x1x1) hz3,
    View.ld_unit_zero (S := S4x512x128) hz3]
  rfl

/-- Last tile: the output block ends at the ELU of the updated weighted sum over the updated normalizer. -/
theorem out1_C_4_eq (c : Dev nD) (i : grid1.Coords) (arg2 : Memref sig .tc .vmem S4x512x1 .f32) (harg2 : arg2.IsWhole) (arg3 : Memref sig .tc .vmem S4x1x512 .f32) (harg3 : arg3.IsWhole) (arg4 : Memref sig .tc .vmem S4x1x1 .f32) (harg4 : arg4.IsWhole) (arg5 : Memref sig .tc .vmem S4x4096x128 .bf16) (harg5 : arg5.IsWhole) (arg6 : Memref sig .tc .vmem S4x512x128 .f32) (harg6 : arg6.IsWhole) (arg7 : Memref sig .tc .vmem S4x512x1 .f32) (harg7 : arg7.IsWhole) (arg8 : Memref sig .tc .vmem S4x512x128 .f32) (harg8 : arg8.IsWhole) (hc0 : ¬cond1_0 i) (hc1 : cond1_1 i)
    (x0 : Vec F S4x512x1 .f32) (x1 : Vec F S4x1x512 .f32) (x2 : Vec F S4x1x1 .f32) (x3 : Vec F S4x4096x128 .bf16) (xs0 : Vec F S4x512x1 .f32) (xs1 : Vec F S4x512x128 .f32) :
    out1_C_4 c i arg2 harg2 arg3 harg3 arg4 harg4 arg5 harg5 arg6 harg6 arg7 harg7 arg8 harg8 hc0 hc1 x0 x1 x2 x3 xs0 xs1
      = k1_pay2 (k1_pay1 (k1_pay5 x0 x1 x2) (View.ld x3 (rK1 i)) xs1) (k1_pay6 x0 x1 x2 xs0) := by
  unfold out1_C_4
  rw [View.read_writes_eq_canon _ _ _ (cover1_C_4 c i arg2 harg2 arg3 harg3 arg4 harg4 arg5 harg5 arg6 harg6 arg7 harg7 arg8 harg8 hc0 hc1 x0 x1 x2 x3 xs0 xs1)]
  unfold kernelRun1_C
  dsimp only
  sl_unfold_words
  rw [View.canon_unit_zero (S := S4x512x128) hz3, View.readCov_unit_zero (S := S4x512x128) _ hz3,
    View.readCov_unit_zero (S := S4x512x1) _ hz3]
  simp only [View.readAt_eq_ld, harg2.read_unread, harg3.read_unread, harg4.read_unread, harg5.read_unread, harg7.read_unread, harg8.read_unread,
    View.ld_unit_zero (S := S4x512x1) hz3, View.ld_unit_zero (S := S4x1x512) hz3, View.ld_unit_zero (S := S4x1x1) hz3,
    View.ld_unit_zero (S := S4x512x128) hz3]
  rfl

end Cert.KernelIdeal.Fr

end
-- ==== Proof.KI.Arr1Blocks.lean ====
/-
  Where the attention kernel's blocks sit in their arrays.  The grid has 8 × 8 points, t = 8·qi + ki.  At point t the
  query scores' block is rows 512·qi … of the [4, 4096, 1] array, the key scores' block is columns 512·ki … of the
  [4, 1, 4096] array, the largest key scores and the projected features are whole, the body reads the features' rows
  512·ki …, and the output block is rows 512·qi … of the [4, 4096, 128] result, written back at the points with ki = 7.
  Each block entry is read off its array at those coordinates; the result array's row q lies in the block of the point
  8·(q / 512) + 7.
-/
import proofs.«135230_j47184510714010_2_alg».proof.Proof.KI.R1Frame
import proofs.«135230_j47184510714010_2_alg».proof.Proof.KI.Pieces1
import Idealize.ShloMosaic.Lib.Pipeline.Value
import Idealize.ShloMosaic.Lib.ValueIdx
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.ValueIdx

variable (V : (c : Dev nD) → (b : Ref sig .tc) → Buf (Elt Ideal) ((c : Thread nD τ).loc b))

/-! ## The index maps over the grid -/

theorem idx1_0 : ∀ t : Fin cfg1.N, win1_0.index t (0 : Fin 3) = 0 ∧ win1_0.index t (1 : Fin 3) = t.val / 8 ∧ win1_0.index t (2 : Fin 3) = 0 :=
  (by decide +kernel : ∀ t : Fin grid1.N, _)
theorem idx1_1 : ∀ t : Fin cfg1.N, win1_1.index t (0 : Fin 3) = 0 ∧ win1_1.index t (1 : Fin 3) = 0 ∧ win1_1.index t (2 : Fin 3) = t.val % 8 :=
  (by decide +kernel : ∀ t : Fin grid1.N, _)
theorem idx1_2 : ∀ t : Fin cfg1.N, win1_2.index t (0 : Fin 3) = 0 ∧ win1_2.index t (1 : Fin 3) = 0 ∧ win1_2.index t (2 : Fin 3) = 0 :=
  (by decide +kernel : ∀ t : Fin grid1.N, _)
theorem idx1_3 : ∀ t : Fin cfg1.N, win1_3.index t (0 : Fin 3) = 0 ∧ win1_3.index t (1 : Fin 3) = 0 ∧ win1_3.index t (2 : Fin 3) = 0 :=
  (by decide +kernel : ∀ t : Fin grid1.N, _)
theorem idx1_4 : ∀ t : Fin cfg1.N, win1_4.index t (0 : Fin 3) = 0 ∧ win1_4.index t (1 : Fin 3) = t.val / 8 ∧ win1_4.index t (2 : Fin 3) = 0 :=
  (by decide +kernel : ∀ t : Fin grid1.N, _)
/-- The body's key rows start at row 512·ki. -/
theorem off1 : ∀ t : Fin cfg1.N, k1_off1 (grid1.coords t) = ![0, 512 * (t.val % 8), 0] :=
  (by decide +kernel : ∀ t : Fin grid1.N, _)

/-! ## The input blocks read off their arrays -/

/-- The query scores' block at point t: rows 512·(t / 8) …. -/
theorem rd0 (c : Dev nD) (t : Fin cfg1.N) (b : Fin 4) (r : Fin 512) (u : Fin 1) (hq : 512 * (t.val / 8) + r.val < 4096) :
    (iblk1 V c 0 t : Vec Ideal S4x512x1 .f32) (ix3 b r u) = V c main_v4_1 (ix3 b ⟨512 * (t.val / 8) + r.val, hq⟩ (0 : Fin 1)) := by
  obtain ⟨e0, e1, e2⟩ := idx1_0 t
  show V c main_v4_1 (((cfg1.win 0).blk t).view.emb (ix3 b r u)) = _
  refine congrArg _ (funext fun a => Fin.ext ?_)
  match a with
  | ⟨0, _⟩ => show win1_0.index t (0 : Fin 3) * 4 + 1 * b.val = b.val; rw [e0]; omega
  | ⟨1, _⟩ => show win1_0.index t (1 : Fin 3) * 512 + 1 * r.val = 512 * (t.val / 8) + r.val; rw [e1]; omega
  | ⟨2, _⟩ => show win1_0.index t (2 : Fin 3) * 1 + 1 * u.val = 0; rw [e2]; omega

/-- The key scores' block at point t: columns 512·(t % 8) …. -/
theorem rd1 (c : Dev nD) (t : Fin cfg1.N) (b : Fin 4) (u : Fin 1) (k : Fin 512) (hk : 512 * (t.val % 8) + k.val < 4096) :
    (iblk1 V c 1 t : Vec Ideal S4x1x512 .f32) (ix3 b u k) = V c main_v5 (ix3 b (0 : Fin 1) ⟨512 * (t.val % 8) + k.val, hk⟩) := by
  obtain ⟨e0, e1, e2⟩ := idx1_1 t
  show V c main_v5 (((cfg1.win 1).blk t).view.emb (ix3 b u k)) = _
  refine congrArg _ (funext fun a => Fin.ext ?_)
  match a with
  | ⟨0, _⟩ => show win1_1.index t (0 : Fin 3) * 4 + 1 * b.val = b.val; rw [e0]; omega
  | ⟨1, _⟩ => show win1_1.index t (1 : Fin 3) * 1 + 1 * u.val = 0; rw [e1]; omega
  | ⟨2, _⟩ => show win1_1.index t (2 : Fin 3) * 512 + 1 * k.val = 512 * (t.val % 8) + k.val; rw [e2]; omega

/-- The largest key scores' block is the whole array. -/
theorem rd2 (c : Dev nD) (t : Fin cfg1.N) (b : Fin 4) (u u' : Fin 1) :
    (iblk1 V c 2 t : Vec Ideal S4x1x1 .f32) (ix3 b u u') = V c main_v7 (ix3 b (0 : Fin 1) (0 : Fin 1)) := by
  obtain ⟨e0, e1, e2⟩ := idx1_2 t
  show V c main_v7 (((cfg1.win 2).blk t).view.emb (ix3 b u u')) = _
  refine congrArg _ (funext fun a => Fin.ext ?_)
  match a with
  | ⟨0, _⟩ => show win1_2.index t (0 : Fin 3) * 4 + 1 * b.val = b.val; rw [e0]; omega
  | ⟨1, _⟩ => show win1_2.index t (1 : Fin 3) * 1 + 1 * u.val = 0; rw [e1]; omega
  | ⟨2, _⟩ => show win1_2.index t (2 : Fin 3) * 1 + 1 * u'.val = 0; rw [e2]; omega

/-- The body's 512 key rows of the projected features at point t: rows 512·(t % 8) … of the whole array. -/
theorem rd3 (c : Dev nD) (t : Fin cfg1.N) (b : Fin 4) (k : Fin 512) (f : Fin 128) (hk : 512 * (t.val % 8) + k.val < 4096) :
    (View.ld (iblk1 V c 3 t : Vec Ideal S4x4096x128 .bf16) (rK1 (grid1.coords t)) : Vec Ideal S4x512x128 .bf16) (ix3 b k f)
      = V c main_v4_0 (ix3 b ⟨512 * (t.val % 8) + k.val, hk⟩ f) := by
  obtain ⟨e0, e1, e2⟩ := idx1_3 t
  have eo := off1 t
  show V c main_v4_0 (((cfg1.win 3).blk t).view.emb ((rK1 (grid1.coords t)).idx (ix3 b k f))) = _
  refine congrArg _ (funext fun a => Fin.ext ?_)
  match a with
  | ⟨0, _⟩ =>
    show win1_3.index t (0 : Fin 3) * 4 + 1 * (k1_off1 (grid1.coords t) (0 : Fin 3) + 1 * b.val) = b.val
    rw [e0, eo]; show 0 * 4 + 1 * (0 + 1 * b.val) = b.val; omega
  | ⟨1, _⟩ =>
    show win1_3.index t (1 : Fin 3) * 4096 + 1 * (k1_off1 (grid1.coords t) (1 : Fin 3) + 1 * k.val) = 512 * (t.val % 8) + k.val
    rw [e1, eo]; show 0 * 4096 + 1 * (512 * (t.val % 8) + 1 * k.val) = _; omega
  | ⟨2, _⟩ =>
    show win1_3.index t (2 : Fin 3) * 128 + 1 * (k1_off1 (grid1.coords t) (2 : Fin 3) + 1 * f.val) = f.val
    rw [e2, eo]; show 0 * 128 + 1 * (0 + 1 * f.val) = f.val; omega

/-! ## The output blocks in the result array -/

/-- An index of the result array is in point t's block iff each coordinate is in the block's range on its axis. -/
theorem mem_blk4 (t : Fin cfg1.N) (i : S4x4096x128.Idx) :
    i ∈ ((cfg1.win 4).blk t).view.set ↔ ∀ a : Fin 3, win1_4.index t a * S4x512x128.size a ≤ (i a).val ∧ (i a).val < win1_4.index t a * S4x512x128.size a + S4x512x128.size a := by
  show i ∈ ((View.whole main_v8).slice (win1_4.rect t)).set ↔ _
  rw [View.set_slice_whole, Rect.mem_set_unit]
  exact Iff.rfl

/-- Entry (b, r, f) of point t's output block sits at row 512·(t / 8) + r of the result array. -/
theorem emb4 (t : Fin cfg1.N) (b : Fin 4) (r : Fin 512) (f : Fin 128) (hq : 512 * (t.val / 8) + r.val < 4096) :
    ((cfg1.win 4).blk t).view.emb (ix3 b r f) = (ix3 b ⟨512 * (t.val / 8) + r.val, hq⟩ f : S4x4096x128.Idx) := by
  obtain ⟨e0, e1, e2⟩ := idx1_4 t
  refine funext fun a => Fin.ext ?_
  match a with
  | ⟨0, _⟩ => show win1_4.index t (0 : Fin 3) * 4 + 1 * b.val = b.val; rw [e0]; omega
  | ⟨1, _⟩ => show win1_4.index t (1 : Fin 3) * 512 + 1 * r.val = 512 * (t.val / 8) + r.val; rw [e1]; omega
  | ⟨2, _⟩ => show win1_4.index t (2 : Fin 3) * 128 + 1 * f.val = f.val; rw [e2]; omega

end Cert.KernelIdeal.Fr

end
-- ==== Proof.Pay1.lean ====
/-
  The attention kernel's arithmetic read at an index, over the extended reals (floats exact, format changes the identity).

  For one block of 512 queries against one block of 512 keys of each of the 4 graphs:
  • the unnormalized weight of query q against key k is exp(lrelu(s1(q) + s2(k)) − lrelu(s1(q) + m)), where s1 is a column
    [4, 512, 1], s2 a row [4, 1, 512] and m the graph's largest key score [4, 1, 1], each broadcast to [4, 512, 512];
  • the normalizer's update adds to the stored column the sum of the weights over the block's keys;
  • the weighted sum's update adds to the stored [4, 512, 128] block the batched product of the weights with the
    keys' features, ∑ₖ weight(b, q, k) · feature(b, k, f);
  • the final value is the ELU of the accumulated weighted sum divided by the accumulated normalizer (a column broadcast
    along the features);
  • the two accumulators start from the zero word.
-/
import proofs.«135230_j47184510714010_2_alg».proof.Proof.Gen.KernelIdeal.Skeleton
import proofs.«135230_j47184510714010_2_alg».proof.Proof.Spec
import proofs.«135230_j47184510714010_2_alg».proof.Proof.LibReshape
import proofs.«135230_j47184510714010_2_alg».proof.Proof.LibDotBatch
import proofs.«135230_j47184510714010_2_alg».proof.Proof.PayLayout

namespace Cert.KernelIdeal.Pay

open Idealize.ShloMosaic Idealize.ShloMosaic.ValueIdx Cert.KernelIdeal Cert.KernelIdeal.Gen

/-- An exponential at an index is the exponential of the element. -/
theorem exp_apply {s : Shape} {φ : FTy} (a : FVec Ideal s φ) (i : s.Idx) : exp a i = Ideal.exp (a i) := rfl

/-- The unnormalized weight of query q against key k: the exponential of the logit less the row's shift. -/
theorem k1_pay5_apply (x3 : Vec Ideal S4x512x1 .f32) (x5 : Vec Ideal S4x1x512 .f32) (x7 : Vec Ideal S4x1x1 .f32)
    (b : Fin 4) (q k : Fin 512) :
    k1_pay5 (F := Ideal) x3 x5 x7 (ix3 b q k)
      = Ideal.exp (Cert.Gat.lrelu (x3 (ix3 b q (0 : Fin 1)) + x5 (ix3 b (0 : Fin 1) k))
          - Cert.Gat.lrelu (x3 (ix3 b q (0 : Fin 1)) + x7 (ix3 b (0 : Fin 1) (0 : Fin 1)))) := by
  unfold k1_pay5
  simp only [shapeCast_self, exp_apply, subf_apply, select_apply, cmpf_apply, addf_apply, mulf_apply, broadcast_apply,
    broadcastTo_ab1_abc_apply, broadcastTo_a1c_abc_apply]
  rfl

/-- The final value: the ELU of the accumulated weighted sum over the accumulated normalizer. -/
theorem k1_pay2_apply (v49 : Vec Ideal S4x512x128 .f32) (v50 : Vec Ideal S4x512x1 .f32)
    (b : Fin 4) (q : Fin 512) (f : Fin 128) :
    k1_pay2 (F := Ideal) v49 v50 (ix3 b q f)
      = Cert.Gat.eluK (Ideal.div (v49 (ix3 b q f)) (v50 (ix3 b q (0 : Fin 1)))) := by
  unfold k1_pay2
  simp only [exp_apply, subf_apply, select_apply, cmpf_apply, divf_apply, broadcast_apply, broadcastTo_ab1_abc_apply]
  rfl

/-- The normalizer starts from the zero word. -/
theorem k1_pay3_apply (i : S4x512x1.Idx) : k1_pay3 (F := Ideal) i = Cert.Gat.zeroW := by
  unfold k1_pay3
  simp only [shapeCast_self]
  rfl

/-- The weighted sum starts from the zero word. -/
theorem k1_pay4_apply (i : S4x512x128.Idx) : k1_pay4 (F := Ideal) i = Cert.Gat.zeroW := by
  unfold k1_pay4
  simp only [shapeCast_self]
  rfl

/-- The normalizer's update: the stored column plus the sum of the block's weights along the keys. -/
theorem k1_pay6_apply (x3 : Vec Ideal S4x512x1 .f32) (x5 : Vec Ideal S4x1x512 .f32) (x7 : Vec Ideal S4x1x1 .f32)
    (v27 : Vec Ideal S4x512x1 .f32) (b : Fin 4) (q : Fin 512) :
    k1_pay6 (F := Ideal) x3 x5 x7 v27 (ix3 b q (0 : Fin 1))
      = v27 (ix3 b q (0 : Fin 1)) + ∑ k : Fin 512, k1_pay5 (F := Ideal) x3 x5 x7 (ix3 b q k) := by
  unfold k1_pay6
  simp only [shapeCast_self, addf_apply]
  refine congrArg (fun z => v27 (ix3 b q (0 : Fin 1)) + z) ?_
  refine (shapeCast_ab_ab1_apply _ shapeCasts_S4x512_S4x512x1 b q (0 : Fin 1)).trans ?_
  exact multiReduction_add_last3_apply _ reduces_S4x512x512_S4x512 _ _ b q

/-- The attention product's dimension numbers pair axis 0 of both operands and contract the keys. -/
theorem batched_attn : Cert.LibDotBatch.Batched dot_S4x512x512_S4x512x128_S4x512x128_2_1_1_2_0_0 where
  hrank := rfl
  hs := rfl
  hl0 := fun _ _ => rfl
  hl1 := fun _ _ => rfl
  hl2 := fun j k => DotDims.lhsIdx_val_of_single _ rfl j k
  hr0 := fun _ _ => rfl
  hr1 := fun j k => DotDims.rhsIdx_val_of_single _ rfl j k
  hr2 := fun _ _ => rfl

/-- The weighted sum's update: the stored block plus the batched product of the weights with the keys' features. -/
theorem k1_pay1_apply (v26 : FVec Ideal S4x512x512 .f32) (v37 : Vec Ideal S4x512x128 .bf16) (v41 : Vec Ideal S4x512x128 .f32)
    (b : Fin 4) (q : Fin 512) (f : Fin 128) :
    k1_pay1 (F := Ideal) v26 v37 v41 (ix3 b q f)
      = v41 (ix3 b q f) + ∑ k : Fin 512, v26 (ix3 b q k) * v37 (ix3 b k f) := by
  unfold k1_pay1
  simp only [shapeCast_self, addf_apply]
  refine congrArg (fun z => v41 (ix3 b q f) + z) ?_
  exact Cert.LibDotBatch.matmul_ix3 batched_attn none (truncf .bf16 v26 bitsLt_bf16_f32) v37 b q f

end Cert.KernelIdeal.Pay
-- ==== Proof.LibSumBlocks.lean ====
/-
  A sum over an index range cut into equal consecutive blocks: the sum over `Fin N`, `N = a·b`, is the sum
  over the `a` blocks of the sums over the `b` positions inside each, position `k` of block `t` being the index
  `t·b + k`. In any commutative additive monoid (the extended reals among them), so no finiteness is asked.
-/
import Mathlib

namespace Cert.LibSumBlocks

/-- Position `k` of block `t` lies inside the range. -/
theorem block_lt {a b : ℕ} (t : Fin a) (k : Fin b) : t.val * b + k.val < a * b := by
  have h1 : t.val + 1 ≤ a := t.isLt
  have h2 : k.val < b := k.isLt
  calc t.val * b + k.val < t.val * b + b := by omega
    _ = (t.val + 1) * b := by ring
    _ ≤ a * b := Nat.mul_le_mul_right b h1

/-- The sum over `Fin N`, `N = a·b`, block by block. -/
theorem sum_blocks {M : Type*} [AddCommMonoid M] (a b N : ℕ) (h : N = a * b) (f : Fin N → M) :
    ∑ n : Fin N, f n = ∑ t : Fin a, ∑ k : Fin b, f ⟨t.val * b + k.val, h ▸ block_lt t k⟩ := by
  subst h
  rw [← Equiv.sum_comp finProdFinEquiv f, Fintype.sum_prod_type]
  refine Finset.sum_congr rfl fun t _ => Finset.sum_congr rfl fun k _ => ?_
  congr 1
  apply Fin.ext
  simp only [finProdFinEquiv_apply_val]
  ring

end Cert.LibSumBlocks
-- ==== Proof.KI.Arr1Acc.lean ====
/-
  The attention kernel's accumulators after each grid point, entry by entry over the extended reals.  Along a row
  block qi the eight key tiles ki = 0 … 7 are visited in order: the first zeroes the normalizer and the weighted sum
  and adds its tile, each later one adds its tile to what the point before left.  So after point 8·qi + ki the
  normalizer of row 512·qi + r is the zero word plus the sum over the tiles j ≤ ki of the tile's 512 weights, and the
  weighted sum at feature f likewise with each weight times the key's projected feature; at ki = 7 the stored output
  block is the ELU of the weighted sum over the normalizer, and the eight tile sums are the sums over all 4096 keys.
-/
import proofs.«135230_j47184510714010_2_alg».proof.Proof.KI.R1Frame
import proofs.«135230_j47184510714010_2_alg».proof.Proof.KI.Pieces1
import proofs.«135230_j47184510714010_2_alg».proof.Proof.KI.Arr1Blocks
import proofs.«135230_j47184510714010_2_alg».proof.Proof.Pay1
import proofs.«135230_j47184510714010_2_alg».proof.Proof.Spec
import proofs.«135230_j47184510714010_2_alg».proof.Proof.LibSumBlocks
import Idealize.ShloMosaic.Lib.Pipeline.Value
import Idealize.ShloMosaic.Lib.ValueIdx
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.ValueIdx Cert.KernelIdeal.Pay

variable (V : (c : Dev nD) → (b : Ref sig .tc) → Buf (Elt Ideal) ((c : Thread nD τ).loc b))

/-- The query scores, the key scores, the largest key scores and the projected features as the region finds them,
    as functions into the extended reals. -/
abbrev arrS1 (c : Dev nD) : S4x4096x1.Idx → EReal := V c main_v4_1
abbrev arrS2 (c : Dev nD) : S4x1x4096.Idx → EReal := V c main_v5
abbrev arrMx (c : Dev nD) : S4x1x1.Idx → EReal := V c main_v7
abbrev arrWh (c : Dev nD) : S4x4096x128.Idx → EReal := V c main_v4_0

/-- The unnormalized weight of query q against key k of graph b, off the three score arrays. -/
def wgt (c : Dev nD) (b : Fin 4) (q k : Fin 4096) : EReal :=
  Ideal.exp (Cert.Gat.lrelu (arrS1 V c (ix3 b q (0 : Fin 1)) + arrS2 V c (ix3 b (0 : Fin 1) k))
    - Cert.Gat.lrelu (arrS1 V c (ix3 b q (0 : Fin 1)) + arrMx V c (ix3 b (0 : Fin 1) (0 : Fin 1))))

/-- The weight at positions given as naturals (zero outside the arrays, where it is never read). -/
def wgtN (c : Dev nD) (b : Fin 4) (q k : ℕ) : EReal :=
  if h : q < 4096 ∧ k < 4096 then wgt V c b ⟨q, h.1⟩ ⟨k, h.2⟩ else 0

/-- The projected feature f of key k at a position given as a natural. -/
def whN (c : Dev nD) (b : Fin 4) (k : ℕ) (f : Fin 128) : EReal :=
  if h : k < 4096 then arrWh V c (ix3 b ⟨k, h⟩ f) else 0

/-- Tile j's contribution to the normalizer of row 512·qi + r. -/
def TL (c : Dev nD) (b : Fin 4) (qi : ℕ) (r : Fin 512) (j : ℕ) : EReal :=
  ∑ kk : Fin 512, wgtN V c b (512 * qi + r.val) (512 * j + kk.val)

/-- Tile j's contribution to the weighted sum of row 512·qi + r at feature f. -/
def TA (c : Dev nD) (b : Fin 4) (qi : ℕ) (r : Fin 512) (f : Fin 128) (j : ℕ) : EReal :=
  ∑ kk : Fin 512, wgtN V c b (512 * qi + r.val) (512 * j + kk.val) * whN V c b (512 * j + kk.val) f

/-! ## One point: the accumulators as arithmetic on the point's blocks -/

/-- The blocks the body is handed at point t. -/
abbrev bq (c : Dev nD) (t : Fin cfg1.N) : Vec Ideal S4x512x1 .f32 := iblk1 V c 0 t
abbrev bk (c : Dev nD) (t : Fin cfg1.N) : Vec Ideal S4x1x512 .f32 := iblk1 V c 1 t
abbrev bm (c : Dev nD) (t : Fin cfg1.N) : Vec Ideal S4x1x1 .f32 := iblk1 V c 2 t
/-- The 512 key rows of the projected features the body reads at point t. -/
abbrev bw (c : Dev nD) (t : Fin cfg1.N) : Vec Ideal S4x512x128 .bf16 :=
  View.ld (iblk1 V c 3 t : Vec Ideal S4x4096x128 .bf16) (rK1 (grid1.coords t))

/-- A first key tile: both accumulators are the update of the zero word. -/
theorem accA (c : Dev nD) (t : Fin cfg1.N) (h0 : t.val % 8 = 0) :
    (outsAt1 V c t.val t.isLt).2.1 = k1_pay6 (bq V c t) (bk V c t) (bm V c t) (k1_pay3 (F := Ideal))
    ∧ (outsAt1 V c t.val t.isLt).2.2 = k1_pay1 (k1_pay5 (bq V c t) (bk V c t) (bm V c t)) (bw V c t) (k1_pay4 (F := Ideal)) := by
  have h1 : ¬ t.val % 8 = 7 := by omega
  rw [outsAt1_A V c t h0 h1]
  dsimp only
  exact ⟨sout1_A_0_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t),
    sout1_A_1_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)⟩

/-- A later key tile: both accumulators are the update of what the point before left. -/
theorem accBC (c : Dev nD) (t : Fin cfg1.N) (h0 : ¬ t.val % 8 = 0) :
    (outsAt1 V c t.val t.isLt).2.1 = k1_pay6 (bq V c t) (bk V c t) (bm V c t) (outsAt1 V c (t.val - 1) (Nat.lt_of_le_of_lt (Nat.sub_le _ _) t.isLt)).2.1
    ∧ (outsAt1 V c t.val t.isLt).2.2 = k1_pay1 (k1_pay5 (bq V c t) (bk V c t) (bm V c t)) (bw V c t) (outsAt1 V c (t.val - 1) (Nat.lt_of_le_of_lt (Nat.sub_le _ _) t.isLt)).2.2 := by
  by_cases h1 : t.val % 8 = 7
  · rw [outsAt1_C V c t h0 h1]
    dsimp only
    exact ⟨sout1_C_0_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2,
      sout1_C_1_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2⟩
  · rw [outsAt1_B V c t h0 h1]
    dsimp only
    exact ⟨sout1_B_0_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2,
      sout1_B_1_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2⟩

/-- A last key tile: the output block is the final value of the point's own two accumulators. -/
theorem outC (c : Dev nD) (t : Fin cfg1.N) (h0 : ¬ t.val % 8 = 0) (h1 : t.val % 8 = 7) :
    (outsAt1 V c t.val t.isLt).1 = k1_pay2 (outsAt1 V c t.val t.isLt).2.2 (outsAt1 V c t.val t.isLt).2.1 := by
  rw [outsAt1_C V c t h0 h1]
  dsimp only
  rw [out1_C_4_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2,
    sout1_C_0_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2,
    sout1_C_1_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2]

/-! ## One tile, entry by entry -/

/-- The weight of row r against column k of a tile, off the tile's blocks. -/
def wblk (x0 : Vec Ideal S4x512x1 .f32) (x1 : Vec Ideal S4x1x512 .f32) (x2 : Vec Ideal S4x1x1 .f32)
    (b : Fin 4) (r k : Fin 512) : EReal :=
  Ideal.exp (Cert.Gat.lrelu (x0 (ix3 b r (0 : Fin 1)) + x1 (ix3 b (0 : Fin 1) k))
    - Cert.Gat.lrelu (x0 (ix3 b r (0 : Fin 1)) + x2 (ix3 b (0 : Fin 1) (0 : Fin 1))))

/-- The normalizer's update at row r: what was there plus the row's 512 weights. -/
theorem pay6_pt (x0 : Vec Ideal S4x512x1 .f32) (x1 : Vec Ideal S4x1x512 .f32) (x2 : Vec Ideal S4x1x1 .f32)
    (v27 : Vec Ideal S4x512x1 .f32) (b : Fin 4) (r : Fin 512) :
    k1_pay6 (F := Ideal) x0 x1 x2 v27 (ix3 b r (0 : Fin 1))
      = v27 (ix3 b r (0 : Fin 1)) + ∑ k : Fin 512, wblk x0 x1 x2 b r k := by
  rw [k1_pay6_apply]
  exact congrArg _ (Finset.sum_congr rfl fun k _ => k1_pay5_apply x0 x1 x2 b r k)

/-- The weighted sum's update at (r, f): what was there plus the row's 512 weights against the keys' feature f. -/
theorem pay1_pt (x0 : Vec Ideal S4x512x1 .f32) (x1 : Vec Ideal S4x1x512 .f32) (x2 : Vec Ideal S4x1x1 .f32)
    (y : Vec Ideal S4x512x128 .bf16) (v41 : Vec Ideal S4x512x128 .f32) (b : Fin 4) (r : Fin 512) (f : Fin 128) :
    k1_pay1 (F := Ideal) (k1_pay5 x0 x1 x2) y v41 (ix3 b r f)
      = v41 (ix3 b r f) + ∑ k : Fin 512, wblk x0 x1 x2 b r k * y (ix3 b k f) := by
  rw [k1_pay1_apply]
  exact congrArg _ (Finset.sum_congr rfl fun k _ => congrArg (· * y (ix3 b k f)) (k1_pay5_apply x0 x1 x2 b r k))

/-- At point t the tile's weight (r, k) is the weight of query 512·(t / 8) + r against key 512·(t % 8) + k. -/
theorem wblk_pt (c : Dev nD) (t : Fin cfg1.N) (b : Fin 4) (r k : Fin 512) :
    wblk (bq V c t) (bk V c t) (bm V c t) b r k = wgtN V c b (512 * (t.val / 8) + r.val) (512 * (t.val % 8) + k.val) := by
  have hN : t.val < 64 := lt_of_lt_of_eq t.isLt (show cfg1.N = 64 from N_1)
  have hq : 512 * (t.val / 8) + r.val < 4096 := by have := r.isLt; omega
  have hk : 512 * (t.val % 8) + k.val < 4096 := by have := k.isLt; omega
  unfold wblk wgtN bq bk bm
  rw [dif_pos ⟨hq, hk⟩]
  unfold wgt arrS1 arrS2 arrMx
  rw [rd0 V c t b r (0 : Fin 1) hq, rd1 V c t b (0 : Fin 1) k hk, rd2 V c t b (0 : Fin 1) (0 : Fin 1)]

/-- Point t's contribution to the normalizer. -/
theorem tileL (c : Dev nD) (t : Fin cfg1.N) (b : Fin 4) (r : Fin 512) :
    ∑ k : Fin 512, wblk (bq V c t) (bk V c t) (bm V c t) b r k = TL V c b (t.val / 8) r (t.val % 8) :=
  Finset.sum_congr rfl fun k _ => wblk_pt V c t b r k

/-- Point t's contribution to the weighted sum. -/
theorem tileA (c : Dev nD) (t : Fin cfg1.N) (b : Fin 4) (r : Fin 512) (f : Fin 128) :
    ∑ k : Fin 512, wblk (bq V c t) (bk V c t) (bm V c t) b r k * bw V c t (ix3 b k f) = TA V c b (t.val / 8) r f (t.val % 8) := by
  have hN : t.val < 64 := lt_of_lt_of_eq t.isLt (show cfg1.N = 64 from N_1)
  unfold TA
  refine Finset.sum_congr rfl fun k _ => ?_
  have hk : 512 * (t.val % 8) + k.val < 4096 := by have := k.isLt; omega
  rw [wblk_pt V c t b r k]
  refine congrArg _ ?_
  unfold whN bw
  rw [dif_pos hk]
  exact rd3 V c t b k f hk

/-! ## The accumulators after every point -/

/-- After a first key tile: the zero word plus the tile. -/
theorem inv_first (c : Dev nD) (t : Fin cfg1.N) (h0 : t.val % 8 = 0) (b : Fin 4) (r : Fin 512) :
    (outsAt1 V c t.val t.isLt).2.1 (ix3 b r (0 : Fin 1))
        = Cert.Gat.zeroW + ∑ j ∈ Finset.range (t.val % 8 + 1), TL V c b (t.val / 8) r j
    ∧ ∀ f : Fin 128, (outsAt1 V c t.val t.isLt).2.2 (ix3 b r f)
        = Cert.Gat.zeroW + ∑ j ∈ Finset.range (t.val % 8 + 1), TA V c b (t.val / 8) r f j := by
  obtain ⟨eL, eA⟩ := accA V c t h0
  refine ⟨?_, fun f => ?_⟩
  · rw [eL, pay6_pt, k1_pay3_apply, tileL, h0, Nat.zero_add, Finset.sum_range_one]
  · rw [eA, pay1_pt, k1_pay4_apply, tileA, h0, Nat.zero_add, Finset.sum_range_one]

/-- After point n = 8·qi + ki: the zero word plus the tiles 0 … ki of row block qi. -/
theorem acc_inv (c : Dev nD) : ∀ (n : ℕ) (hn : n < cfg1.N) (b : Fin 4) (r : Fin 512),
    (outsAt1 V c n hn).2.1 (ix3 b r (0 : Fin 1))
        = Cert.Gat.zeroW + ∑ j ∈ Finset.range (n % 8 + 1), TL V c b (n / 8) r j
    ∧ ∀ f : Fin 128, (outsAt1 V c n hn).2.2 (ix3 b r f)
        = Cert.Gat.zeroW + ∑ j ∈ Finset.range (n % 8 + 1), TA V c b (n / 8) r f j
  | 0, hn, b, r => inv_first V c ⟨0, hn⟩ rfl b r
  | n + 1, hn, b, r => by
    by_cases h0 : (n + 1) % 8 = 0
    · exact inv_first V c ⟨n + 1, hn⟩ h0 b r
    · obtain ⟨eL, eA⟩ := accBC V c ⟨n + 1, hn⟩ h0
      obtain ⟨iL, iA⟩ := acc_inv c n (Nat.lt_of_succ_lt hn) b r
      have hd : (n + 1) / 8 = n / 8 := by omega
      have hm : (n + 1) % 8 = n % 8 + 1 := by omega
      refine ⟨?_, fun f => ?_⟩
      · rw [show (outsAt1 V c (n + 1) hn).2.1 = _ from eL, pay6_pt, tileL]
        show (outsAt1 V c n _).2.1 (ix3 b r (0 : Fin 1)) + TL V c b ((n + 1) / 8) r ((n + 1) % 8) = _
        rw [iL, hd, hm, Finset.sum_range_succ _ (n % 8 + 1), add_assoc]
      · rw [show (outsAt1 V c (n + 1) hn).2.2 = _ from eA, pay1_pt, tileA]
        show (outsAt1 V c n _).2.2 (ix3 b r f) + TA V c b ((n + 1) / 8) r f ((n + 1) % 8) = _
        rw [iA f, hd, hm, Finset.sum_range_succ _ (n % 8 + 1), add_assoc]

/-! ## The last key tile: the sums over all keys, and the stored block -/

/-- The eight tiles' normalizer contributions are the sum of the row's weights over all 4096 keys. -/
theorem sumL (c : Dev nD) (b : Fin 4) (qi : ℕ) (r : Fin 512) (hq : 512 * qi + r.val < 4096) :
    ∑ j ∈ Finset.range 8, TL V c b qi r j = ∑ k : Fin 4096, wgt V c b ⟨512 * qi + r.val, hq⟩ k := by
  rw [Cert.LibSumBlocks.sum_blocks 8 512 4096 rfl (fun k => wgt V c b ⟨512 * qi + r.val, hq⟩ k), Finset.sum_range]
  refine Finset.sum_congr rfl fun j _ => ?_
  unfold TL
  refine Finset.sum_congr rfl fun kk _ => ?_
  have hk : 512 * j.val + kk.val < 4096 := by have := j.isLt; have := kk.isLt; omega
  unfold wgtN
  rw [dif_pos ⟨hq, hk⟩]
  exact congrArg (wgt V c b ⟨512 * qi + r.val, hq⟩) (Fin.ext (by show 512 * j.val + kk.val = j.val * 512 + kk.val; omega))

/-- The eight tiles' weighted-sum contributions are the sum over all 4096 keys of weight times feature. -/
theorem sumA (c : Dev nD) (b : Fin 4) (qi : ℕ) (r : Fin 512) (f : Fin 128) (hq : 512 * qi + r.val < 4096) :
    ∑ j ∈ Finset.range 8, TA V c b qi r f j
      = ∑ k : Fin 4096, wgt V c b ⟨512 * qi + r.val, hq⟩ k * arrWh V c (ix3 b k f) := by
  rw [Cert.LibSumBlocks.sum_blocks 8 512 4096 rfl (fun k => wgt V c b ⟨512 * qi + r.val, hq⟩ k * arrWh V c (ix3 b k f)),
    Finset.sum_range]
  refine Finset.sum_congr rfl fun j _ => ?_
  unfold TA
  refine Finset.sum_congr rfl fun kk _ => ?_
  have hk : 512 * j.val + kk.val < 4096 := by have := j.isLt; have := kk.isLt; omega
  have hx : (⟨512 * j.val + kk.val, hk⟩ : Fin 4096) = ⟨j.val * 512 + kk.val, Cert.LibSumBlocks.block_lt j kk⟩ :=
    Fin.ext (by show 512 * j.val + kk.val = j.val * 512 + kk.val; omega)
  unfold wgtN whN
  rw [dif_pos ⟨hq, hk⟩, dif_pos hk, hx]

/-- At a last key tile the stored block, entry by entry: the ELU of the weighted sum over the normalizer, both over all
    4096 keys. -/
theorem out_last (c : Dev nD) (t : Fin cfg1.N) (h7 : t.val % 8 = 7) (b : Fin 4) (r : Fin 512) (f : Fin 128)
    (hq : 512 * (t.val / 8) + r.val < 4096) :
    (outsAt1 V c t.val t.isLt).1 (ix3 b r f)
      = Cert.Gat.eluK (Ideal.div (∑ k : Fin 4096, wgt V c b ⟨512 * (t.val / 8) + r.val, hq⟩ k * arrWh V c (ix3 b k f))
          (∑ k : Fin 4096, wgt V c b ⟨512 * (t.val / 8) + r.val, hq⟩ k)) := by
  have h0 : ¬ t.val % 8 = 0 := by omega
  obtain ⟨iL, iA⟩ := acc_inv V c t.val t.isLt b r
  rw [outC V c t h0 h7, k1_pay2_apply, iL, iA f, h7, show (7 : ℕ) + 1 = 8 from rfl, sumL V c b (t.val / 8) r hq, sumA V c b (t.val / 8) r f hq,
    show Cert.Gat.zeroW = 0 from Ideal.ofBits_zero_f32, zero_add, zero_add]

end Cert.KernelIdeal.Fr

end
-- ==== Proof.KI.Arr1.lean ====
/-
  The attention kernel's result array after the run, entry by entry over the extended reals: entry (b, q, f) is the
  ELU of the weighted sum over all 4096 keys of weight(b, q, k) · feature(b, k, f) divided by the sum of the weights.
  The output window writes its block back at the last key tile of each row block; what it writes is that function
  read through the block, and the eight row blocks cover the array.
-/
import proofs.«135230_j47184510714010_2_alg».proof.Proof.KI.R1Frame
import proofs.«135230_j47184510714010_2_alg».proof.Proof.KI.Arr1Blocks
import proofs.«135230_j47184510714010_2_alg».proof.Proof.KI.Arr1Acc
import Idealize.ShloMosaic.Lib.Pipeline.Value
import Idealize.ShloMosaic.Lib.ValueIdx
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.ValueIdx

variable (V : (c : Dev nD) → (b : Ref sig .tc) → Buf (Elt Ideal) ((c : Thread nD τ).loc b))

/-- The result, entry by entry. -/
def res4 (c : Dev nD) (b : Fin 4) (q : Fin 4096) (f : Fin 128) : EReal :=
  Cert.Gat.eluK (Ideal.div (∑ k : Fin 4096, wgt V c b q k * arrWh V c (ix3 b k f)) (∑ k : Fin 4096, wgt V c b q k))

/-- The result as one array. -/
def G4 (c : Dev nD) : S4x4096x128.Idx → Elt Ideal .f32 := fun i => res4 V c (i 0) (i 1) (i 2)

/-- Every index of a rank-3 shape is given by its coordinates. -/
theorem exists_ix3 {n0 n1 n2 : ℕ} (j : (⟨3, ![n0, n1, n2]⟩ : Shape).Idx) : ∃ (a : Fin n0) (b : Fin n1) (c : Fin n2), j = ix3 a b c :=
  ⟨j 0, j 1, j 2, eq_ix3 j⟩

/-- What a last key tile writes back is the result read through its block. -/
theorem flushed4_eq (c : Dev nD) (t : Fin cfg1.N) (hf : (cfg1.win 4).flush t = true) :
    (dat1 V c).flushed 4 t = ((cfg1.win 4).blk t).view.read (Elt Ideal) (G4 V c) := by
  have h7 : t.val % 8 = 7 := (flush1_4 t).mp hf
  have hN : t.val < 64 := lt_of_lt_of_eq t.isLt (show cfg1.N = 64 from N_1)
  show (cfg1.win 4).cut (grid1.coords t) ((dat1 V c).after 4 t) = _
  rw [after1_4]
  funext j
  obtain ⟨b, r, f, rfl⟩ := exists_ix3 (n0 := 4) (n1 := 512) (n2 := 128) j
  have hq : 512 * (t.val / 8) + r.val < 4096 := by have := r.isLt; omega
  show (outsAt1 V c t.val t.isLt).1 (ix3 b r f) = G4 V c (((cfg1.win 4).blk t).view.emb (ix3 b r f))
  rw [emb4 t b r f hq, out_last V c t h7 b r f hq]
  rfl

/-- Row q of the result array lies in the block of the last key tile of its row block. -/
theorem cover4 (i : S4x4096x128.Idx) :
    ∃ t : Fin cfg1.N, (cfg1.win 4).flush t = true ∧ i ∈ ((cfg1.win 4).blk t).view.set := by
  have hN : cfg1.N = 64 := N_1
  have hi0 : (i 0).val < 4 := (i 0).isLt
  have hi1 : (i 1).val < 4096 := (i 1).isLt
  have hi2 : (i 2).val < 128 := (i 2).isLt
  obtain ⟨t, ht⟩ : ∃ t : Fin cfg1.N, t.val = 8 * ((i 1).val / 512) + 7 := ⟨⟨8 * ((i 1).val / 512) + 7, by omega⟩, rfl⟩
  obtain ⟨e0, e1, e2⟩ := idx1_4 t
  refine ⟨t, (flush1_4 t).mpr (by omega), ?_⟩
  rw [mem_blk4]
  intro a
  match a with
  | ⟨0, _⟩ =>
    show win1_4.index t (0 : Fin 3) * 4 ≤ (i 0).val ∧ (i 0).val < win1_4.index t (0 : Fin 3) * 4 + 4
    rw [e0]; omega
  | ⟨1, _⟩ =>
    show win1_4.index t (1 : Fin 3) * 512 ≤ (i 1).val ∧ (i 1).val < win1_4.index t (1 : Fin 3) * 512 + 512
    rw [e1]; omega
  | ⟨2, _⟩ =>
    show win1_4.index t (2 : Fin 3) * 128 ≤ (i 2).val ∧ (i 2).val < win1_4.index t (2 : Fin 3) * 128 + 128
    rw [e2]; omega

/-- THE RESULT ARRAY after the run. -/
theorem arr1_4 (c : Dev nD) (b : Fin 4) (q : Fin 4096) (f : Fin 128) :
    (dat1 (F := Ideal) V c).arrAt 4 cfg1.N (ix3 b q f)
      = Cert.Gat.eluK (Ideal.div (∑ k : Fin 4096, wgt V c b q k * arrWh V c (ix3 b k f)) (∑ k : Fin 4096, wgt V c b q k)) :=
  congrFun ((dat1 (F := Ideal) V c).arrAt_eq_of_cover 4 (G4 V c) (flushed4_eq V c) cover4) (ix3 b q f)

end Cert.KernelIdeal.Fr

end
-- ==== Proof.KI.KernelValue.lean ====
/-
  The kernel's result array is the specification's kerOut of the argument arrays.

  The first call leaves the projected features wh and the two scores s1, s2 of every node, as sums of the argument
  arrays (the attention vector's two halves reach it as rows: entry j of the first is a(j), of the second a(128 + j)).
  Between the calls the host transposes the key scores into a row per graph and takes each graph's largest key score,
  folded from −∞.  The second call's result at (b, q, f) is the ELU of the quotient of Σₖ p(q,k)·wh(b,k,f) by Σₖ p(q,k),
  with p(q,k) = exp(lrelu(s1 q + s2 k) − lrelu(s1 q + max s2)): reading each of its input arrays as what the first call
  and the host left there gives the specification's formula term by term.
-/
import proofs.«135230_j47184510714010_2_alg».proof.Proof.KI.Run
import proofs.«135230_j47184510714010_2_alg».proof.Proof.KI.Arr0
import proofs.«135230_j47184510714010_2_alg».proof.Proof.KI.Glue
import proofs.«135230_j47184510714010_2_alg».proof.Proof.KI.Arr1
import proofs.«135230_j47184510714010_2_alg».proof.Proof.Spec

noncomputable section

namespace Cert.KernelIdeal.Fr

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg) (c : Dev nD)

/-! ## The argument arrays over plain coordinates -/

/-- The node features. -/
def hC : Fin 4 → Fin 4096 → Fin 128 → EReal := fun b n k => m ((c : Thread nD τ).loc main_arg0) (ix3 b n k)
/-- The projection matrix. -/
def wC : Fin 128 → Fin 128 → EReal := fun k j => m ((c : Thread nD τ).loc main_arg1) (ix2 k j)
/-- The attention vector. -/
def aC : Fin 256 → EReal := fun i => m ((c : Thread nD τ).loc main_arg2) (ix2 i (0 : Fin 1))

/-- Products of equal extended reals are equal. -/
theorem mul_congr {x x' y y' : EReal} (hx : x = x') (hy : y = y') : x * y = x' * y' := by rw [hx, hy]

/-! ## What the first call leaves -/

/-- The features array holds the projected features. -/
theorem wh_eq (b : Fin 4) (n : Fin 4096) (j : Fin 128) :
    (dat0 (F := Ideal) (V1 m ρ) c).arrAt 4 cfg0.N (ix3 b n j) = Cert.Gat.wh (hC m c) (wC m c) b n j := by
  refine (arr0_4 (V1 m ρ) c b n j).trans ?_
  show (_ : EReal) = _
  unfold Cert.Gat.wh hC wC
  refine Finset.sum_congr rfl fun k _ => ?_
  exact mul_congr (congrFun (V1_arg0 m ρ c) (ix3 b n k)) (congrFun (V1_arg1 m ρ c) (ix2 k j))

/-- The first score array holds the query scores. -/
theorem s1_eq (b : Fin 4) (n : Fin 4096) :
    (dat0 (F := Ideal) (V1 m ρ) c).arrAt 5 cfg0.N (ix3 b n (0 : Fin 1)) = Cert.Gat.s1 (hC m c) (wC m c) (aC m c) b n := by
  refine (arr0_5 (V1 m ρ) c b n).trans ?_
  show (_ : EReal) = _
  unfold Cert.Gat.s1 Cert.Gat.wh Cert.Gat.a1 hC wC aC
  refine Finset.sum_congr rfl fun j _ => ?_
  refine mul_congr ?_ (V1_v1 m ρ c j)
  refine Finset.sum_congr rfl fun k _ => ?_
  exact mul_congr (congrFun (V1_arg0 m ρ c) (ix3 b n k)) (congrFun (V1_arg1 m ρ c) (ix2 k j))

/-- The second score array holds the key scores. -/
theorem s2_eq (b : Fin 4) (n : Fin 4096) :
    (dat0 (F := Ideal) (V1 m ρ) c).arrAt 6 cfg0.N (ix3 b n (0 : Fin 1)) = Cert.Gat.s2 (hC m c) (wC m c) (aC m c) b n := by
  refine (arr0_6 (V1 m ρ) c b n).trans ?_
  show (_ : EReal) = _
  unfold Cert.Gat.s2 Cert.Gat.wh Cert.Gat.a2 hC wC aC
  refine Finset.sum_congr rfl fun j _ => ?_
  refine mul_congr ?_ (V1_v3 m ρ c j)
  refine Finset.sum_congr rfl fun k _ => ?_
  exact mul_congr (congrFun (V1_arg0 m ρ c) (ix3 b n k)) (congrFun (V1_arg1 m ρ c) (ix2 k j))

/-! ## What the second call is handed -/

/-- Its features input is the projected features. -/
theorem in_wh (b : Fin 4) (k : Fin 4096) (f : Fin 128) :
    arrWh (V3 m ρ) c (ix3 b k f) = Cert.Gat.wh (hC m c) (wC m c) b k f :=
  (congrFun (V3_v4_0 m ρ c) (ix3 b k f)).trans (wh_eq m ρ c b k f)

/-- Its query-score input. -/
theorem in_s1 (b : Fin 4) (q : Fin 4096) :
    arrS1 (V3 m ρ) c (ix3 b q (0 : Fin 1)) = Cert.Gat.s1 (hC m c) (wC m c) (aC m c) b q :=
  (congrFun (V3_v4_1 m ρ c) (ix3 b q (0 : Fin 1))).trans (s1_eq m ρ c b q)

/-- Its key-score input, a row per graph. -/
theorem in_s2 (b : Fin 4) (k : Fin 4096) :
    arrS2 (V3 m ρ) c (ix3 b (0 : Fin 1) k) = Cert.Gat.s2 (hC m c) (wC m c) (aC m c) b k :=
  (V3_v5 m ρ c b k).trans (s2_eq m ρ c b k)

/-- Its largest-key-score input. -/
theorem in_max (b : Fin 4) :
    arrMx (V3 m ρ) c (ix3 b (0 : Fin 1) (0 : Fin 1)) = Cert.Gat.keyMax (hC m c) (wC m c) (aC m c) b := by
  refine (V3_v7 m ρ c b).trans ?_
  unfold Cert.Gat.keyMax
  exact Finset.fold_congr fun n _ => s2_eq m ρ c b n

/-- Its unnormalized weight is the specification's. -/
theorem wgt_eq (b : Fin 4) (q k : Fin 4096) :
    wgt (V3 m ρ) c b q k = Cert.Gat.pK (hC m c) (wC m c) (aC m c) b q k := by
  unfold wgt Cert.Gat.pK Cert.Gat.logit Cert.Gat.shiftK
  rw [in_s1, in_s2, in_max]

/-! ## The result -/

theorem kernel_value (b : Fin 4) (q : Fin 4096) (f : Fin 128) :
    (dat1 (F := Ideal) (V3 m ρ) c).arrAt 4 cfg1.N (ix3 b q f) = Cert.Gat.kerOut (hC m c) (wC m c) (aC m c) b q f := by
  refine (arr1_4 (V3 m ρ) c b q f).trans ?_
  show (_ : EReal) = _
  unfold Cert.Gat.kerOut
  refine congrArg Cert.Gat.eluK (congrArg₂ Ideal.div ?_ ?_)
  · refine Finset.sum_congr rfl fun k _ => ?_
    exact mul_congr (wgt_eq m ρ c b q k) (in_wh m ρ c b k f)
  · exact Finset.sum_congr rfl fun k _ => wgt_eq m ρ c b q k

end Cert.KernelIdeal.Fr

end
-- ==== Proof.lean ====
/-
  Graph attention on B = 4 graphs of N = 4096 nodes with 128 features, as two fused kernels against its plain
  formulation.  The first kernel projects the node features (wh = h·W) and takes the two attention scores of every
  node; the second streams key tiles past each block of 512 query rows, accumulating the softmax's normalizer and the
  weighted sum of projected features with the exponentials shifted by the row's largest logit — known in advance,
  lrelu(s1(q) + max_k s2(k)), because the leaky rectifier is monotone — and finishes with the quotient's ELU.  The
  reference materializes the logits, takes a softmax over the keys, multiplies by wh and applies the ELU.
  On the extended reals, with finite inputs, every intermediate value is a real, the two shifts agree, a shifted
  softmax average does not depend on the shift, the normalizer may be divided out before or after the weighted sum, and
  the two spellings of the ELU agree everywhere: the results are equal element by element.  The three frames are the
  programs' runs with the results dropped; nothing was rewritten in the idealized kernel.
-/
import proofs.«135230_j47184510714010_2_alg».proof.Defs
import proofs.«135230_j47184510714010_2_alg».proof.Proof.Gen.Kernel
import proofs.«135230_j47184510714010_2_alg».proof.Proof.Gen.KernelIdeal
import proofs.«135230_j47184510714010_2_alg».proof.Proof.Gen.ReferenceIdeal
import proofs.«135230_j47184510714010_2_alg».proof.Proof.Gen.Pre_finite_inputs
import proofs.«135230_j47184510714010_2_alg».proof.Proof.K.Run
import proofs.«135230_j47184510714010_2_alg».proof.Proof.KI.Run
import proofs.«135230_j47184510714010_2_alg».proof.Proof.RefRun
import proofs.«135230_j47184510714010_2_alg».proof.Proof.RefValue
import proofs.«135230_j47184510714010_2_alg».proof.Proof.Algebra
import proofs.«135230_j47184510714010_2_alg».proof.Proof.Finite
import proofs.«135230_j47184510714010_2_alg».proof.Proof.KI.KernelValue
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel (hKernel := Cert.Kernel.Gen.facts) (hPre_finite_inputs := Cert.Pre_finite_inputs.Gen.facts) :=
  fun m ρ _ => Cert.Kernel.Fr.frame (F := Bits) m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Fr.frame (F := Ideal) m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run m ρ)

/-- At the ideal instance the kernel's result array is kerOut of the argument arrays, the reference's is refOut of
    arrays that agree with them, the arrays are real-valued under the precondition, and for real data the two formulas
    agree at every index. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => (Cert.KernelIdeal.Fr.dat1 (F := Ideal) (Cert.KernelIdeal.Fr.V3 m ρ) c).arrAt 4 Cert.KernelIdeal.cfg1.N,
    Cert.KernelIdeal.Fr.run_value (F := Ideal) m ρ, ?_⟩
  refine (θ_run Cert.ReferenceIdeal.defs _ _).mono (fun _ h c => ⟨(h c).1.trans ?_, (h c).2⟩) (Cert.ReferenceIdeal.RefValue.run m' ρ')
  obtain ⟨h0, h1, h2⟩ := hagree c
  obtain ⟨r0, r1, r2⟩ := Cert.Gat.real_of_pre (hPre := Cert.Pre_finite_inputs.Gen.facts) m hpre c
  rw [h0, h1, h2]
  funext i
  obtain ⟨b, q, f, rfl⟩ : ∃ (b : Fin 4) (q : Fin 4096) (f : Fin 128), i = ValueIdx.ix3 b q f := ⟨i 0, i 1, i 2, ValueIdx.eq_ix3 i⟩
  rw [Cert.ReferenceIdeal.RefValue.out_apply]
  refine Eq.trans ?_ (Cert.KernelIdeal.Fr.kernel_value m ρ c b q f).symm
  exact (Cert.Gat.kerOut_eq_refOut _ _ _ (fun b n k => r0 _) (fun k j => r1 _) (fun i => r2 _) b q f).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
